-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5)) (m ((c.tc : Thread Cert.Kernel.nD Cert.Kernel.τ).loc Cert.Kernel.main_arg6)) (m ((c.tc : Thread Cert.Kernel.nD Cert.Kernel.τ).loc Cert.Kernel.main_arg7)) (m ((c.tc : Thread Cert.Kernel.nD Cert.Kernel.τ).loc Cert.Kernel.main_arg8)) (m ((c.tc : Thread Cert.Kernel.nD Cert.Kernel.τ).loc Cert.Kernel.main_arg9)) (m ((c.tc : Thread Cert.Kernel.nD Cert.Kernel.τ).loc Cert.Kernel.main_arg10)) (m ((c.tc : Thread Cert.Kernel.nD Cert.Kernel.τ).loc Cert.Kernel.main_arg11)) (m ((c.tc : Thread Cert.Kernel.nD Cert.Kernel.τ).loc Cert.Kernel.main_arg12)) (m ((c.tc : Thread Cert.Kernel.nD Cert.Kernel.τ).loc Cert.Kernel.main_arg13)) (m ((c.tc : Thread Cert.Kernel.nD Cert.Kernel.τ).loc Cert.Kernel.main_arg14))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5)) (m ((c.tc : Thread Cert.KernelIdeal.nD Cert.KernelIdeal.τ).loc Cert.KernelIdeal.main_arg6)) (m ((c.tc : Thread Cert.KernelIdeal.nD Cert.KernelIdeal.τ).loc Cert.KernelIdeal.main_arg7)) (m ((c.tc : Thread Cert.KernelIdeal.nD Cert.KernelIdeal.τ).loc Cert.KernelIdeal.main_arg8)) (m ((c.tc : Thread Cert.KernelIdeal.nD Cert.KernelIdeal.τ).loc Cert.KernelIdeal.main_arg9)) (m ((c.tc : Thread Cert.KernelIdeal.nD Cert.KernelIdeal.τ).loc Cert.KernelIdeal.main_arg10)) (m ((c.tc : Thread Cert.KernelIdeal.nD Cert.KernelIdeal.τ).loc Cert.KernelIdeal.main_arg11)) (m ((c.tc : Thread Cert.KernelIdeal.nD Cert.KernelIdeal.τ).loc Cert.KernelIdeal.main_arg12)) (m ((c.tc : Thread Cert.KernelIdeal.nD Cert.KernelIdeal.τ).loc Cert.KernelIdeal.main_arg13)) (m ((c.tc : Thread Cert.KernelIdeal.nD Cert.KernelIdeal.τ).loc Cert.KernelIdeal.main_arg14))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5)) (m ((c.tc : Thread Cert.ReferenceIdeal.nD Cert.ReferenceIdeal.τ).loc Cert.ReferenceIdeal.main_arg6)) (m ((c.tc : Thread Cert.ReferenceIdeal.nD Cert.ReferenceIdeal.τ).loc Cert.ReferenceIdeal.main_arg7)) (m ((c.tc : Thread Cert.ReferenceIdeal.nD Cert.ReferenceIdeal.τ).loc Cert.ReferenceIdeal.main_arg8)) (m ((c.tc : Thread Cert.ReferenceIdeal.nD Cert.ReferenceIdeal.τ).loc Cert.ReferenceIdeal.main_arg9)) (m ((c.tc : Thread Cert.ReferenceIdeal.nD Cert.ReferenceIdeal.τ).loc Cert.ReferenceIdeal.main_arg10)) (m ((c.tc : Thread Cert.ReferenceIdeal.nD Cert.ReferenceIdeal.τ).loc Cert.ReferenceIdeal.main_arg11)) (m ((c.tc : Thread Cert.ReferenceIdeal.nD Cert.ReferenceIdeal.τ).loc Cert.ReferenceIdeal.main_arg12)) (m ((c.tc : Thread Cert.ReferenceIdeal.nD Cert.ReferenceIdeal.τ).loc Cert.ReferenceIdeal.main_arg13)) (m ((c.tc : Thread Cert.ReferenceIdeal.nD Cert.ReferenceIdeal.τ).loc Cert.ReferenceIdeal.main_arg14))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5)
      ∧ r.2.mem ((c.tc : Thread Cert.Kernel.nD Cert.Kernel.τ).loc Cert.Kernel.main_arg6) = m ((c.tc : Thread Cert.Kernel.nD Cert.Kernel.τ).loc Cert.Kernel.main_arg6)
      ∧ r.2.mem ((c.tc : Thread Cert.Kernel.nD Cert.Kernel.τ).loc Cert.Kernel.main_arg7) = m ((c.tc : Thread Cert.Kernel.nD Cert.Kernel.τ).loc Cert.Kernel.main_arg7)
      ∧ r.2.mem ((c.tc : Thread Cert.Kernel.nD Cert.Kernel.τ).loc Cert.Kernel.main_arg8) = m ((c.tc : Thread Cert.Kernel.nD Cert.Kernel.τ).loc Cert.Kernel.main_arg8)
      ∧ r.2.mem ((c.tc : Thread Cert.Kernel.nD Cert.Kernel.τ).loc Cert.Kernel.main_arg9) = m ((c.tc : Thread Cert.Kernel.nD Cert.Kernel.τ).loc Cert.Kernel.main_arg9)
      ∧ r.2.mem ((c.tc : Thread Cert.Kernel.nD Cert.Kernel.τ).loc Cert.Kernel.main_arg10) = m ((c.tc : Thread Cert.Kernel.nD Cert.Kernel.τ).loc Cert.Kernel.main_arg10)
      ∧ r.2.mem ((c.tc : Thread Cert.Kernel.nD Cert.Kernel.τ).loc Cert.Kernel.main_arg11) = m ((c.tc : Thread Cert.Kernel.nD Cert.Kernel.τ).loc Cert.Kernel.main_arg11)
      ∧ r.2.mem ((c.tc : Thread Cert.Kernel.nD Cert.Kernel.τ).loc Cert.Kernel.main_arg12) = m ((c.tc : Thread Cert.Kernel.nD Cert.Kernel.τ).loc Cert.Kernel.main_arg12)
      ∧ r.2.mem ((c.tc : Thread Cert.Kernel.nD Cert.Kernel.τ).loc Cert.Kernel.main_arg13) = m ((c.tc : Thread Cert.Kernel.nD Cert.Kernel.τ).loc Cert.Kernel.main_arg13)
      ∧ r.2.mem ((c.tc : Thread Cert.Kernel.nD Cert.Kernel.τ).loc Cert.Kernel.main_arg14) = m ((c.tc : Thread Cert.Kernel.nD Cert.Kernel.τ).loc Cert.Kernel.main_arg14))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
      ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
      ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
      ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
      ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
      ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
      ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
      ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
      ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
      ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5)
      ∧ r.2.mem ((c.tc : Thread Cert.ReferenceIdeal.nD Cert.ReferenceIdeal.τ).loc Cert.ReferenceIdeal.main_arg6) = m ((c.tc : Thread Cert.ReferenceIdeal.nD Cert.ReferenceIdeal.τ).loc Cert.ReferenceIdeal.main_arg6)
      ∧ r.2.mem ((c.tc : Thread Cert.ReferenceIdeal.nD Cert.ReferenceIdeal.τ).loc Cert.ReferenceIdeal.main_arg7) = m ((c.tc : Thread Cert.ReferenceIdeal.nD Cert.ReferenceIdeal.τ).loc Cert.ReferenceIdeal.main_arg7)
      ∧ r.2.mem ((c.tc : Thread Cert.ReferenceIdeal.nD Cert.ReferenceIdeal.τ).loc Cert.ReferenceIdeal.main_arg8) = m ((c.tc : Thread Cert.ReferenceIdeal.nD Cert.ReferenceIdeal.τ).loc Cert.ReferenceIdeal.main_arg8)
      ∧ r.2.mem ((c.tc : Thread Cert.ReferenceIdeal.nD Cert.ReferenceIdeal.τ).loc Cert.ReferenceIdeal.main_arg9) = m ((c.tc : Thread Cert.ReferenceIdeal.nD Cert.ReferenceIdeal.τ).loc Cert.ReferenceIdeal.main_arg9)
      ∧ r.2.mem ((c.tc : Thread Cert.ReferenceIdeal.nD Cert.ReferenceIdeal.τ).loc Cert.ReferenceIdeal.main_arg10) = m ((c.tc : Thread Cert.ReferenceIdeal.nD Cert.ReferenceIdeal.τ).loc Cert.ReferenceIdeal.main_arg10)
      ∧ r.2.mem ((c.tc : Thread Cert.ReferenceIdeal.nD Cert.ReferenceIdeal.τ).loc Cert.ReferenceIdeal.main_arg11) = m ((c.tc : Thread Cert.ReferenceIdeal.nD Cert.ReferenceIdeal.τ).loc Cert.ReferenceIdeal.main_arg11)
      ∧ r.2.mem ((c.tc : Thread Cert.ReferenceIdeal.nD Cert.ReferenceIdeal.τ).loc Cert.ReferenceIdeal.main_arg12) = m ((c.tc : Thread Cert.ReferenceIdeal.nD Cert.ReferenceIdeal.τ).loc Cert.ReferenceIdeal.main_arg12)
      ∧ r.2.mem ((c.tc : Thread Cert.ReferenceIdeal.nD Cert.ReferenceIdeal.τ).loc Cert.ReferenceIdeal.main_arg13) = m ((c.tc : Thread Cert.ReferenceIdeal.nD Cert.ReferenceIdeal.τ).loc Cert.ReferenceIdeal.main_arg13)
      ∧ r.2.mem ((c.tc : Thread Cert.ReferenceIdeal.nD Cert.ReferenceIdeal.τ).loc Cert.ReferenceIdeal.main_arg14) = m ((c.tc : Thread Cert.ReferenceIdeal.nD Cert.ReferenceIdeal.τ).loc Cert.ReferenceIdeal.main_arg14))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)
      ∧ m' ((c.tc : Thread Cert.ReferenceIdeal.nD Cert.ReferenceIdeal.τ).loc Cert.ReferenceIdeal.main_arg6) = m ((c.tc : Thread Cert.KernelIdeal.nD Cert.KernelIdeal.τ).loc Cert.KernelIdeal.main_arg6)
      ∧ m' ((c.tc : Thread Cert.ReferenceIdeal.nD Cert.ReferenceIdeal.τ).loc Cert.ReferenceIdeal.main_arg7) = m ((c.tc : Thread Cert.KernelIdeal.nD Cert.KernelIdeal.τ).loc Cert.KernelIdeal.main_arg7)
      ∧ m' ((c.tc : Thread Cert.ReferenceIdeal.nD Cert.ReferenceIdeal.τ).loc Cert.ReferenceIdeal.main_arg8) = m ((c.tc : Thread Cert.KernelIdeal.nD Cert.KernelIdeal.τ).loc Cert.KernelIdeal.main_arg8)
      ∧ m' ((c.tc : Thread Cert.ReferenceIdeal.nD Cert.ReferenceIdeal.τ).loc Cert.ReferenceIdeal.main_arg9) = m ((c.tc : Thread Cert.KernelIdeal.nD Cert.KernelIdeal.τ).loc Cert.KernelIdeal.main_arg9)
      ∧ m' ((c.tc : Thread Cert.ReferenceIdeal.nD Cert.ReferenceIdeal.τ).loc Cert.ReferenceIdeal.main_arg10) = m ((c.tc : Thread Cert.KernelIdeal.nD Cert.KernelIdeal.τ).loc Cert.KernelIdeal.main_arg10)
      ∧ m' ((c.tc : Thread Cert.ReferenceIdeal.nD Cert.ReferenceIdeal.τ).loc Cert.ReferenceIdeal.main_arg11) = m ((c.tc : Thread Cert.KernelIdeal.nD Cert.KernelIdeal.τ).loc Cert.KernelIdeal.main_arg11)
      ∧ m' ((c.tc : Thread Cert.ReferenceIdeal.nD Cert.ReferenceIdeal.τ).loc Cert.ReferenceIdeal.main_arg12) = m ((c.tc : Thread Cert.KernelIdeal.nD Cert.KernelIdeal.τ).loc Cert.KernelIdeal.main_arg12)
      ∧ m' ((c.tc : Thread Cert.ReferenceIdeal.nD Cert.ReferenceIdeal.τ).loc Cert.ReferenceIdeal.main_arg13) = m ((c.tc : Thread Cert.KernelIdeal.nD Cert.KernelIdeal.τ).loc Cert.KernelIdeal.main_arg13)
      ∧ m' ((c.tc : Thread Cert.ReferenceIdeal.nD Cert.ReferenceIdeal.τ).loc Cert.ReferenceIdeal.main_arg14) = m ((c.tc : Thread Cert.KernelIdeal.nD Cert.KernelIdeal.τ).loc Cert.KernelIdeal.main_arg14)) →
    ∃ (v0 : (c : Dev Cert.KernelIdeal.nD) → Buf (Elt Ideal) ((c.tc : Thread Cert.KernelIdeal.nD Cert.KernelIdeal.τ).loc Cert.KernelIdeal.main_v58)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v58) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)
          ∧ r.2.mem ((c.tc : Thread Cert.KernelIdeal.nD Cert.KernelIdeal.τ).loc Cert.KernelIdeal.main_arg6) = m ((c.tc : Thread Cert.KernelIdeal.nD Cert.KernelIdeal.τ).loc Cert.KernelIdeal.main_arg6)
          ∧ r.2.mem ((c.tc : Thread Cert.KernelIdeal.nD Cert.KernelIdeal.τ).loc Cert.KernelIdeal.main_arg7) = m ((c.tc : Thread Cert.KernelIdeal.nD Cert.KernelIdeal.τ).loc Cert.KernelIdeal.main_arg7)
          ∧ r.2.mem ((c.tc : Thread Cert.KernelIdeal.nD Cert.KernelIdeal.τ).loc Cert.KernelIdeal.main_arg8) = m ((c.tc : Thread Cert.KernelIdeal.nD Cert.KernelIdeal.τ).loc Cert.KernelIdeal.main_arg8)
          ∧ r.2.mem ((c.tc : Thread Cert.KernelIdeal.nD Cert.KernelIdeal.τ).loc Cert.KernelIdeal.main_arg9) = m ((c.tc : Thread Cert.KernelIdeal.nD Cert.KernelIdeal.τ).loc Cert.KernelIdeal.main_arg9)
          ∧ r.2.mem ((c.tc : Thread Cert.KernelIdeal.nD Cert.KernelIdeal.τ).loc Cert.KernelIdeal.main_arg10) = m ((c.tc : Thread Cert.KernelIdeal.nD Cert.KernelIdeal.τ).loc Cert.KernelIdeal.main_arg10)
          ∧ r.2.mem ((c.tc : Thread Cert.KernelIdeal.nD Cert.KernelIdeal.τ).loc Cert.KernelIdeal.main_arg11) = m ((c.tc : Thread Cert.KernelIdeal.nD Cert.KernelIdeal.τ).loc Cert.KernelIdeal.main_arg11)
          ∧ r.2.mem ((c.tc : Thread Cert.KernelIdeal.nD Cert.KernelIdeal.τ).loc Cert.KernelIdeal.main_arg12) = m ((c.tc : Thread Cert.KernelIdeal.nD Cert.KernelIdeal.τ).loc Cert.KernelIdeal.main_arg12)
          ∧ r.2.mem ((c.tc : Thread Cert.KernelIdeal.nD Cert.KernelIdeal.τ).loc Cert.KernelIdeal.main_arg13) = m ((c.tc : Thread Cert.KernelIdeal.nD Cert.KernelIdeal.τ).loc Cert.KernelIdeal.main_arg13)
          ∧ r.2.mem ((c.tc : Thread Cert.KernelIdeal.nD Cert.KernelIdeal.τ).loc Cert.KernelIdeal.main_arg14) = m ((c.tc : Thread Cert.KernelIdeal.nD Cert.KernelIdeal.τ).loc Cert.KernelIdeal.main_arg14))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v134) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5)
          ∧ r.2.mem ((c.tc : Thread Cert.ReferenceIdeal.nD Cert.ReferenceIdeal.τ).loc Cert.ReferenceIdeal.main_arg6) = m' ((c.tc : Thread Cert.ReferenceIdeal.nD Cert.ReferenceIdeal.τ).loc Cert.ReferenceIdeal.main_arg6)
          ∧ r.2.mem ((c.tc : Thread Cert.ReferenceIdeal.nD Cert.ReferenceIdeal.τ).loc Cert.ReferenceIdeal.main_arg7) = m' ((c.tc : Thread Cert.ReferenceIdeal.nD Cert.ReferenceIdeal.τ).loc Cert.ReferenceIdeal.main_arg7)
          ∧ r.2.mem ((c.tc : Thread Cert.ReferenceIdeal.nD Cert.ReferenceIdeal.τ).loc Cert.ReferenceIdeal.main_arg8) = m' ((c.tc : Thread Cert.ReferenceIdeal.nD Cert.ReferenceIdeal.τ).loc Cert.ReferenceIdeal.main_arg8)
          ∧ r.2.mem ((c.tc : Thread Cert.ReferenceIdeal.nD Cert.ReferenceIdeal.τ).loc Cert.ReferenceIdeal.main_arg9) = m' ((c.tc : Thread Cert.ReferenceIdeal.nD Cert.ReferenceIdeal.τ).loc Cert.ReferenceIdeal.main_arg9)
          ∧ r.2.mem ((c.tc : Thread Cert.ReferenceIdeal.nD Cert.ReferenceIdeal.τ).loc Cert.ReferenceIdeal.main_arg10) = m' ((c.tc : Thread Cert.ReferenceIdeal.nD Cert.ReferenceIdeal.τ).loc Cert.ReferenceIdeal.main_arg10)
          ∧ r.2.mem ((c.tc : Thread Cert.ReferenceIdeal.nD Cert.ReferenceIdeal.τ).loc Cert.ReferenceIdeal.main_arg11) = m' ((c.tc : Thread Cert.ReferenceIdeal.nD Cert.ReferenceIdeal.τ).loc Cert.ReferenceIdeal.main_arg11)
          ∧ r.2.mem ((c.tc : Thread Cert.ReferenceIdeal.nD Cert.ReferenceIdeal.τ).loc Cert.ReferenceIdeal.main_arg12) = m' ((c.tc : Thread Cert.ReferenceIdeal.nD Cert.ReferenceIdeal.τ).loc Cert.ReferenceIdeal.main_arg12)
          ∧ r.2.mem ((c.tc : Thread Cert.ReferenceIdeal.nD Cert.ReferenceIdeal.τ).loc Cert.ReferenceIdeal.main_arg13) = m' ((c.tc : Thread Cert.ReferenceIdeal.nD Cert.ReferenceIdeal.τ).loc Cert.ReferenceIdeal.main_arg13)
          ∧ r.2.mem ((c.tc : Thread Cert.ReferenceIdeal.nD Cert.ReferenceIdeal.τ).loc Cert.ReferenceIdeal.main_arg14) = m' ((c.tc : Thread Cert.ReferenceIdeal.nD Cert.ReferenceIdeal.τ).loc Cert.ReferenceIdeal.main_arg14))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S_ : Shape := ⟨0, ![]⟩

class Facts : Prop where
  bcast_S_S50000x128 : S_.BroadcastsInDim S50000x128 (![] : Fin 0 → Fin S50000x128.rank)
  reducesTo_S50000x128_S_d0_1 : S50000x128.ReducesTo [0, 1] S_
  h_S_ : 0 < S_.numel
  bcast_S_S128x128 : S_.BroadcastsInDim S128x128 (![] : Fin 0 → Fin S128x128.rank)
  reducesTo_S128x128_S_d0_1 : S128x128.ReducesTo [0, 1] S_
  bcast_S_S128 : S_.BroadcastsInDim S128 (![] : Fin 0 → Fin S128.rank)
  reducesTo_S128_S_d0 : S128.ReducesTo [0] S_
  bcast_S_S64x128 : S_.BroadcastsInDim S64x128 (![] : Fin 0 → Fin S64x128.rank)
  reducesTo_S64x128_S_d0_1 : S64x128.ReducesTo [0, 1] S_
  bcast_S_S64 : S_.BroadcastsInDim S64 (![] : Fin 0 → Fin S64.rank)
  reducesTo_S64_S_d0 : S64.ReducesTo [0] S_

variable [Facts]

def fn_part4 {F : FTy → Type} [FloatOps F] (main_v63 : IVec S_ 1) (main_v67 : IVec S_ 1) : IVec S_ 1 :=
  let main_v68 : IVec S_ 1 := andi main_v63 main_v67
  main_v68

def fn_part3 {F : FTy → Type} [FloatOps F] (main_arg12 : FVec F S128 .f32) (main_arg13 : FVec F S128 .f32) (main_arg14 : FVec F S128 .f32) (main_v48 : IVec S_ 1) (main_v49 : FVec F S128 .f32) (main_v50 : FVec F S128 .f32) : IVec S_ 1 :=
  let main_v51 : IVec S128 1 := cmpf .olt main_v49 main_v50
  let main_c_19 : IVec S_ 1 := constantI S_ 1 1#1
  let main_v52 : IVec S_ 1 := (fun x v => Host.reduce IntOp.andi x v reducesTo_S128_S_d0 h_S_) main_v51 main_c_19
  let main_v53 : IVec S_ 1 := andi main_v48 main_v52
  let main_v54 : FVec F S128 .f32 := Host.absf main_arg12
  let main_cst_20 : FVec F S_ .f32 := constant S_ .f32 0x7F800000#32
  let main_v55 : FVec F S128 .f32 := broadcastInDim S128 ![] bcast_S_S128 main_cst_20
  let main_v56 : IVec S128 1 := cmpf .olt main_v54 main_v55
  let main_c_21 : IVec S_ 1 := constantI S_ 1 1#1
  let main_v57 : IVec S_ 1 := (fun x v => Host.reduce IntOp.andi x v reducesTo_S128_S_d0 h_S_) main_v56 main_c_21
  let main_v58 : IVec S_ 1 := andi main_v53 main_v57
  let main_v59 : FVec F S128 .f32 := Host.absf main_arg13
  let main_cst_22 : FVec F S_ .f32 := constant S_ .f32 0x7F800000#32
  let main_v60 : FVec F S128 .f32 := broadcastInDim S128 ![] bcast_S_S128 main_cst_22
  let main_v61 : IVec S128 1 := cmpf .olt main_v59 main_v60
  let main_c_23 : IVec S_ 1 := constantI S_ 1 1#1
  let main_v62 : IVec S_ 1 := (fun x v => Host.reduce IntOp.andi x v reducesTo_S128_S_d0 h_S_) main_v61 main_c_23
  let main_v63 : IVec S_ 1 := andi main_v58 main_v62
  let main_v64 : FVec F S128 .f32 := Host.absf main_arg14
  let main_cst_24 : FVec F S_ .f32 := constant S_ .f32 0x7F800000#32
  let main_v65 : FVec F S128 .f32 := broadcastInDim S128 ![] bcast_S_S128 main_cst_24
  let main_v66 : IVec S128 1 := cmpf .olt main_v64 main_v65
  let main_c_25 : IVec S_ 1 := constantI S_ 1 1#1
  let main_v67 : IVec S_ 1 := (fun x v => Host.reduce IntOp.andi x v reducesTo_S128_S_d0 h_S_) main_v66 main_c_25
  fn_part4 (F := F) main_v63 main_v67

def fn_part2 {F : FTy → Type} [FloatOps F] (main_arg8 : FVec F S64x128 .f32) (main_arg9 : FVec F S64 .f32) (main_arg10 : FVec F S64x128 .f32) (main_arg11 : FVec F S128 .f32) (main_arg12 : FVec F S128 .f32) (main_arg13 : FVec F S128 .f32) (main_arg14 : FVec F S128 .f32) (main_v33 : IVec S_ 1) : IVec S_ 1 :=
  let main_v34 : FVec F S64x128 .f32 := Host.absf main_arg8
  let main_cst_12 : FVec F S_ .f32 := constant S_ .f32 0x7F800000#32
  let main_v35 : FVec F S64x128 .f32 := broadcastInDim S64x128 ![] bcast_S_S64x128 main_cst_12
  let main_v36 : IVec S64x128 1 := cmpf .olt main_v34 main_v35
  let main_c_13 : IVec S_ 1 := constantI S_ 1 1#1
  let main_v37 : IVec S_ 1 := (fun x v => Host.reduce IntOp.andi x v reducesTo_S64x128_S_d0_1 h_S_) main_v36 main_c_13
  let main_v38 : IVec S_ 1 := andi main_v33 main_v37
  let main_v39 : FVec F S64 .f32 := Host.absf main_arg9
  let main_cst_14 : FVec F S_ .f32 := constant S_ .f32 0x7F800000#32
  let main_v40 : FVec F S64 .f32 := broadcastInDim S64 ![] bcast_S_S64 main_cst_14
  let main_v41 : IVec S64 1 := cmpf .olt main_v39 main_v40
  let main_c_15 : IVec S_ 1 := constantI S_ 1 1#1
  let main_v42 : IVec S_ 1 := (fun x v => Host.reduce IntOp.andi x v reducesTo_S64_S_d0 h_S_) main_v41 main_c_15
  let main_v43 : IVec S_ 1 := andi main_v38 main_v42
  let main_v44 : FVec F S64x128 .f32 := Host.absf main_arg10
  let main_cst_16 : FVec F S_ .f32 := constant S_ .f32 0x7F800000#32
  let main_v45 : FVec F S64x128 .f32 := broadcastInDim S64x128 ![] bcast_S_S64x128 main_cst_16
  let main_v46 : IVec S64x128 1 := cmpf .olt main_v44 main_v45
  let main_c_17 : IVec S_ 1 := constantI S_ 1 1#1
  let main_v47 : IVec S_ 1 := (fun x v => Host.reduce IntOp.andi x v reducesTo_S64x128_S_d0_1 h_S_) main_v46 main_c_17
  let main_v48 : IVec S_ 1 := andi main_v43 main_v47
  let main_v49 : FVec F S128 .f32 := Host.absf main_arg11
  let main_cst_18 : FVec F S_ .f32 := constant S_ .f32 0x7F800000#32
  let main_v50 : FVec F S128 .f32 := broadcastInDim S128 ![] bcast_S_S128 main_cst_18
  fn_part3 (F := F) main_arg12 main_arg13 main_arg14 main_v48 main_v49 main_v50

def fn_part1 {F : FTy → Type} [FloatOps F] (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S128 .f32) (main_arg12 : FVec F S128 .f32) (main_arg13 : FVec F S128 .f32) (main_arg14 : FVec F S128 .f32) (main_v13 : IVec S_ 1) (main_v16 : IVec S128x128 1) : IVec S_ 1 :=
  let main_c_5 : IVec S_ 1 := constantI S_ 1 1#1
  let main_v17 : IVec S_ 1 := (fun x v => Host.reduce IntOp.andi x v reducesTo_S128x128_S_d0_1 h_S_) main_v16 main_c_5
  let main_v18 : IVec S_ 1 := andi main_v13 main_v17
  let main_v19 : FVec F S128x128 .f32 := Host.absf main_arg5
  let main_cst_6 : FVec F S_ .f32 := constant S_ .f32 0x7F800000#32
  let main_v20 : FVec F S128x128 .f32 := broadcastInDim S128x128 ![] bcast_S_S128x128 main_cst_6
  let main_v21 : IVec S128x128 1 := cmpf .olt main_v19 main_v20
  let main_c_7 : IVec S_ 1 := constantI S_ 1 1#1
  let main_v22 : IVec S_ 1 := (fun x v => Host.reduce IntOp.andi x v reducesTo_S128x128_S_d0_1 h_S_) main_v21 main_c_7
  let main_v23 : IVec S_ 1 := andi main_v18 main_v22
  let main_v24 : FVec F S128 .f32 := Host.absf main_arg6
  let main_cst_8 : FVec F S_ .f32 := constant S_ .f32 0x7F800000#32
  let main_v25 : FVec F S128 .f32 := broadcastInDim S128 ![] bcast_S_S128 main_cst_8
  let main_v26 : IVec S128 1 := cmpf .olt main_v24 main_v25
  let main_c_9 : IVec S_ 1 := constantI S_ 1 1#1
  let main_v27 : IVec S_ 1 := (fun x v => Host.reduce IntOp.andi x v reducesTo_S128_S_d0 h_S_) main_v26 main_c_9
  let main_v28 : IVec S_ 1 := andi main_v23 main_v27
  let main_v29 : FVec F S128x128 .f32 := Host.absf main_arg7
  let main_cst_10 : FVec F S_ .f32 := constant S_ .f32 0x7F800000#32
  let main_v30 : FVec F S128x128 .f32 := broadcastInDim S128x128 ![] bcast_S_S128x128 main_cst_10
  let main_v31 : IVec S128x128 1 := cmpf .olt main_v29 main_v30
  let main_c_11 : IVec S_ 1 := constantI S_ 1 1#1
  let main_v32 : IVec S_ 1 := (fun x v => Host.reduce IntOp.andi x v reducesTo_S128x128_S_d0_1 h_S_) main_v31 main_c_11
  let main_v33 : IVec S_ 1 := andi main_v28 main_v32
  fn_part2 (F := F) main_arg8 main_arg9 main_arg10 main_arg11 main_arg12 main_arg13 main_arg14 main_v33

def fn {F : FTy → Type} [FloatOps F] (main_arg0 : FVec F S50000x128 .f32) (main_arg1 : IVec S2x800000 32) (main_arg2 : FVec F S128x128 .f32) (main_arg3 : FVec F S128 .f32) (main_arg4 : FVec F S128x128 .f32) (main_arg5 : FVec F S128x128 .f32) (main_arg6 : FVec F S128 .f32) (main_arg7 : FVec F S128x128 .f32) (main_arg8 : FVec F S64x128 .f32) (main_arg9 : FVec F S64 .f32) (main_arg10 : FVec F S64x128 .f32) (main_arg11 : FVec F S128 .f32) (main_arg12 : FVec F S128 .f32) (main_arg13 : FVec F S128 .f32) (main_arg14 : FVec F S128 .f32) : IVec S_ 1 :=
  let main_v0 : FVec F S50000x128 .f32 := Host.absf main_arg0
  let main_cst : FVec F S_ .f32 := constant S_ .f32 0x7F800000#32
  let main_v1 : FVec F S50000x128 .f32 := broadcastInDim S50000x128 ![] bcast_S_S50000x128 main_cst
  let main_v2 : IVec S50000x128 1 := cmpf .olt main_v0 main_v1
  let main_c : IVec S_ 1 := constantI S_ 1 1#1
  let main_v3 : IVec S_ 1 := (fun x v => Host.reduce IntOp.andi x v reducesTo_S50000x128_S_d0_1 h_S_) main_v2 main_c
  let main_v4 : FVec F S128x128 .f32 := Host.absf main_arg2
  let main_cst_0 : FVec F S_ .f32 := constant S_ .f32 0x7F800000#32
  let main_v5 : FVec F S128x128 .f32 := broadcastInDim S128x128 ![] bcast_S_S128x128 main_cst_0
  let main_v6 : IVec S128x128 1 := cmpf .olt main_v4 main_v5
  let main_c_1 : IVec S_ 1 := constantI S_ 1 1#1
  let main_v7 : IVec S_ 1 := (fun x v => Host.reduce IntOp.andi x v reducesTo_S128x128_S_d0_1 h_S_) main_v6 main_c_1
  let main_v8 : IVec S_ 1 := andi main_v3 main_v7
  let main_v9 : FVec F S128 .f32 := Host.absf main_arg3
  let main_cst_2 : FVec F S_ .f32 := constant S_ .f32 0x7F800000#32
  let main_v10 : FVec F S128 .f32 := broadcastInDim S128 ![] bcast_S_S128 main_cst_2
  let main_v11 : IVec S128 1 := cmpf .olt main_v9 main_v10
  let main_c_3 : IVec S_ 1 := constantI S_ 1 1#1
  let main_v12 : IVec S_ 1 := (fun x v => Host.reduce IntOp.andi x v reducesTo_S128_S_d0 h_S_) main_v11 main_c_3
  let main_v13 : IVec S_ 1 := andi main_v8 main_v12
  let main_v14 : FVec F S128x128 .f32 := Host.absf main_arg4
  let main_cst_4 : FVec F S_ .f32 := constant S_ .f32 0x7F800000#32
  let main_v15 : FVec F S128x128 .f32 := broadcastInDim S128x128 ![] bcast_S_S128x128 main_cst_4
  let main_v16 : IVec S128x128 1 := cmpf .olt main_v14 main_v15
  fn_part1 (F := F) main_arg5 main_arg6 main_arg7 main_arg8 main_arg9 main_arg10 main_arg11 main_arg12 main_arg13 main_arg14 main_v13 main_v16
-- ==== Kernel.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S50000 : Shape := ⟨1, ![50000]⟩
abbrev S800000x1 : Shape := ⟨2, ![800000, 1]⟩
abbrev S50000x1 : Shape := ⟨2, ![50000, 1]⟩
abbrev S800000x128 : Shape := ⟨2, ![800000, 128]⟩
abbrev S1x128 : Shape := ⟨2, ![1, 128]⟩
abbrev S2000x128 : Shape := ⟨2, ![2000, 128]⟩
abbrev S2000 : Shape := ⟨1, ![2000]⟩
abbrev S2000x1 : Shape := ⟨2, ![2000, 1]⟩
abbrev S1x64 : Shape := ⟨2, ![1, 64]⟩
abbrev S50000x64 : Shape := ⟨2, ![50000, 64]⟩
abbrev S2000x64 : Shape := ⟨2, ![2000, 64]⟩
abbrev S128x64 : Shape := ⟨2, ![128, 64]⟩

abbrev nBuf : Space → Nat
  | .hbm => 87
  | .vmem => 31
  | .smem => 0
  | _ => 0

abbrev bufTy : (tb : Table) → Fin (tcTables nBuf tb) → BufTy
  | .hbm, ⟨0, _⟩ => ⟨S50000x128, .f32⟩
  | .hbm, ⟨1, _⟩ => ⟨S2x800000, .i32⟩
  | .hbm, ⟨2, _⟩ => ⟨S128x128, .f32⟩
  | .hbm, ⟨3, _⟩ => ⟨S128, .f32⟩
  | .hbm, ⟨4, _⟩ => ⟨S128x128, .f32⟩
  | .hbm, ⟨5, _⟩ => ⟨S128x128, .f32⟩
  | .hbm, ⟨6, _⟩ => ⟨S128, .f32⟩
  | .hbm, ⟨7, _⟩ => ⟨S128x128, .f32⟩
  | .hbm, ⟨8, _⟩ => ⟨S64x128, .f32⟩
  | .hbm, ⟨9, _⟩ => ⟨S64, .f32⟩
  | .hbm, ⟨10, _⟩ => ⟨S64x128, .f32⟩
  | .hbm, ⟨11, _⟩ => ⟨S128, .f32⟩
  | .hbm, ⟨12, _⟩ => ⟨S128, .f32⟩
  | .hbm, ⟨13, _⟩ => ⟨S128, .f32⟩
  | .hbm, ⟨14, _⟩ => ⟨S128, .f32⟩
  | .hbm, ⟨15, _⟩ => ⟨S1x800000, .i32⟩
  | .hbm, ⟨16, _⟩ => ⟨S800000, .i32⟩
  | .hbm, ⟨17, _⟩ => ⟨S1x800000, .i32⟩
  | .hbm, ⟨18, _⟩ => ⟨S800000, .i32⟩
  | .hbm, ⟨19, _⟩ => ⟨S_, .f32⟩
  | .hbm, ⟨20, _⟩ => ⟨S800000, .f32⟩
  | .hbm, ⟨21, _⟩ => ⟨S_, .f32⟩
  | .hbm, ⟨22, _⟩ => ⟨S50000, .f32⟩
  | .hbm, ⟨23, _⟩ => ⟨S800000x1, .i32⟩
  | .hbm, ⟨24, _⟩ => ⟨S50000, .f32⟩
  | .hbm, ⟨25, _⟩ => ⟨S_, .f32⟩
  | .hbm, ⟨26, _⟩ => ⟨S50000, .f32⟩
  | .hbm, ⟨27, _⟩ => ⟨S50000, .f32⟩
  | .hbm, ⟨28, _⟩ => ⟨S_, .f32⟩
  | .hbm, ⟨29, _⟩ => ⟨S50000, .f32⟩
  | .hbm, ⟨30, _⟩ => ⟨S50000, .f32⟩
  | .hbm, ⟨31, _⟩ => ⟨S50000x1, .f32⟩
  | .hbm, ⟨32, _⟩ => ⟨S_, .i32⟩
  | .hbm, ⟨33, _⟩ => ⟨S800000, .i32⟩
  | .hbm, ⟨34, _⟩ => ⟨S800000, .i1⟩
  | .hbm, ⟨35, _⟩ => ⟨S_, .i32⟩
  | .hbm, ⟨36, _⟩ => ⟨S800000, .i32⟩
  | .hbm, ⟨37, _⟩ => ⟨S800000, .i32⟩
  | .hbm, ⟨38, _⟩ => ⟨S800000, .i32⟩
  | .hbm, ⟨39, _⟩ => ⟨S800000x1, .i32⟩
  | .hbm, ⟨40, _⟩ => ⟨S800000x128, .f32⟩
  | .hbm, ⟨41, _⟩ => ⟨S_, .f32⟩
  | .hbm, ⟨42, _⟩ => ⟨S50000x128, .f32⟩
  | .hbm, ⟨43, _⟩ => ⟨S800000x1, .i32⟩
  | .hbm, ⟨44, _⟩ => ⟨S50000x128, .f32⟩
  | .hbm, ⟨45, _⟩ => ⟨S50000x128, .f32⟩
  | .hbm, ⟨46, _⟩ => ⟨S50000x128, .f32⟩
  | .hbm, ⟨47, _⟩ => ⟨S1x128, .f32⟩
  | .hbm, ⟨48, _⟩ => ⟨S1x128, .f32⟩
  | .hbm, ⟨49, _⟩ => ⟨S1x128, .f32⟩
  | .hbm, ⟨50, _⟩ => ⟨S50000x128, .f32⟩
  | .hbm, ⟨51, _⟩ => ⟨S_, .i32⟩
  | .hbm, ⟨52, _⟩ => ⟨S800000, .i32⟩
  | .hbm, ⟨53, _⟩ => ⟨S800000, .i1⟩
  | .hbm, ⟨54, _⟩ => ⟨S_, .i32⟩
  | .hbm, ⟨55, _⟩ => ⟨S800000, .i32⟩
  | .hbm, ⟨56, _⟩ => ⟨S800000, .i32⟩
  | .hbm, ⟨57, _⟩ => ⟨S800000, .i32⟩
  | .hbm, ⟨58, _⟩ => ⟨S800000x1, .i32⟩
  | .hbm, ⟨59, _⟩ => ⟨S800000x128, .f32⟩
  | .hbm, ⟨60, _⟩ => ⟨S_, .f32⟩
  | .hbm, ⟨61, _⟩ => ⟨S50000x128, .f32⟩
  | .hbm, ⟨62, _⟩ => ⟨S800000x1, .i32⟩
  | .hbm, ⟨63, _⟩ => ⟨S50000x128, .f32⟩
  | .hbm, ⟨64, _⟩ => ⟨S50000x128, .f32⟩
  | .hbm, ⟨65, _⟩ => ⟨S50000x128, .f32⟩
  | .hbm, ⟨66, _⟩ => ⟨S1x128, .f32⟩
  | .hbm, ⟨67, _⟩ => ⟨S1x128, .f32⟩
  | .hbm, ⟨68, _⟩ => ⟨S1x128, .f32⟩
  | .hbm, ⟨69, _⟩ => ⟨S50000x128, .f32⟩
  | .hbm, ⟨70, _⟩ => ⟨S_, .i32⟩
  | .hbm, ⟨71, _⟩ => ⟨S800000, .i32⟩
  | .hbm, ⟨72, _⟩ => ⟨S800000, .i1⟩
  | .hbm, ⟨73, _⟩ => ⟨S_, .i32⟩
  | .hbm, ⟨74, _⟩ => ⟨S800000, .i32⟩
  | .hbm, ⟨75, _⟩ => ⟨S800000, .i32⟩
  | .hbm, ⟨76, _⟩ => ⟨S800000, .i32⟩
  | .hbm, ⟨77, _⟩ => ⟨S800000x1, .i32⟩
  | .hbm, ⟨78, _⟩ => ⟨S800000x128, .f32⟩
  | .hbm, ⟨79, _⟩ => ⟨S_, .f32⟩
  | .hbm, ⟨80, _⟩ => ⟨S50000x128, .f32⟩
  | .hbm, ⟨81, _⟩ => ⟨S800000x1, .i32⟩
  | .hbm, ⟨82, _⟩ => ⟨S50000x128, .f32⟩
  | .hbm, ⟨83, _⟩ => ⟨S50000x128, .f32⟩
  | .hbm, ⟨84, _⟩ => ⟨S50000x128, .f32⟩
  | .hbm, ⟨85, _⟩ => ⟨S1x64, .f32⟩
  | .hbm, ⟨86, _⟩ => ⟨S50000x64, .f32⟩
  | .local _ .vmem, ⟨0, _⟩ => ⟨S2000x128, .f32⟩
  | .local _ .vmem, ⟨1, _⟩ => ⟨S2000x128, .f32⟩
  | .local _ .vmem, ⟨2, _⟩ => ⟨S2000x128, .f32⟩
  | .local _ .vmem, ⟨3, _⟩ => ⟨S2000x128, .f32⟩
  | .local _ .vmem, ⟨4, _⟩ => ⟨S128x128, .f32⟩
  | .local _ .vmem, ⟨5, _⟩ => ⟨S1x128, .f32⟩
  | .local _ .vmem, ⟨6, _⟩ => ⟨S128x128, .f32⟩
  | .local _ .vmem, ⟨7, _⟩ => ⟨S1x128, .f32⟩
  | .local _ .vmem, ⟨8, _⟩ => ⟨S1x128, .f32⟩
  | .local _ .vmem, ⟨9, _⟩ => ⟨S2000x128, .f32⟩
  | .local _ .vmem, ⟨10, _⟩ => ⟨S2000x128, .f32⟩
  | .local _ .vmem, ⟨11, _⟩ => ⟨S2000x128, .f32⟩
  | .local _ .vmem, ⟨12, _⟩ => ⟨S2000x128, .f32⟩
  | .local _ .vmem, ⟨13, _⟩ => ⟨S2000x128, .f32⟩
  | .local _ .vmem, ⟨14, _⟩ => ⟨S2000x128, .f32⟩
  | .local _ .vmem, ⟨15, _⟩ => ⟨S128x128, .f32⟩
  | .local _ .vmem, ⟨16, _⟩ => ⟨S1x128, .f32⟩
  | .local _ .vmem, ⟨17, _⟩ => ⟨S128x128, .f32⟩
  | .local _ .vmem, ⟨18, _⟩ => ⟨S1x128, .f32⟩
  | .local _ .vmem, ⟨19, _⟩ => ⟨S1x128, .f32⟩
  | .local _ .vmem, ⟨20, _⟩ => ⟨S2000x128, .f32⟩
  | .local _ .vmem, ⟨21, _⟩ => ⟨S2000x128, .f32⟩
  | .local _ .vmem, ⟨22, _⟩ => ⟨S2000x128, .f32⟩
  | .local _ .vmem, ⟨23, _⟩ => ⟨S2000x128, .f32⟩
  | .local _ .vmem, ⟨24, _⟩ => ⟨S2000x128, .f32⟩
  | .local _ .vmem, ⟨25, _⟩ => ⟨S2000x128, .f32⟩
  | .local _ .vmem, ⟨26, _⟩ => ⟨S64x128, .f32⟩
  | .local _ .vmem, ⟨27, _⟩ => ⟨S1x64, .f32⟩
  | .local _ .vmem, ⟨28, _⟩ => ⟨S64x128, .f32⟩
  | .local _ .vmem, ⟨29, _⟩ => ⟨S2000x64, .f32⟩
  | .local _ .vmem, ⟨30, _⟩ => ⟨S2000x64, .f32⟩
  | _, _ => ⟨S50000x128, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | .vmem, ⟨20, _⟩ => true
  | .vmem, ⟨21, _⟩ => true
  | .vmem, ⟨22, _⟩ => true
  | .vmem, ⟨23, _⟩ => true
  | .vmem, ⟨24, _⟩ => true
  | .vmem, ⟨25, _⟩ => true
  | .vmem, ⟨26, _⟩ => true
  | .vmem, ⟨27, _⟩ => true
  | .vmem, ⟨28, _⟩ => true
  | .vmem, ⟨29, _⟩ => true
  | .vmem, ⟨30, _⟩ => true
  | _, _ => false

abbrev semScoped : Fin 0 → Bool
  | ⟨_, h⟩ => absurd h (Nat.not_lt_zero _)

abbrev dmaSemScoped : Fin 31 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | ⟨20, _⟩ => true
  | ⟨21, _⟩ => true
  | ⟨22, _⟩ => true
  | ⟨23, _⟩ => true
  | ⟨24, _⟩ => true
  | ⟨25, _⟩ => true
  | ⟨26, _⟩ => true
  | ⟨27, _⟩ => true
  | ⟨28, _⟩ => true
  | ⟨29, _⟩ => true
  | ⟨30, _⟩ => true
  | _ => false

abbrev sig : RefSig :=
  ofTc nBuf bufTy 0 31 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_cst : Ref sig .tc := ⟨.hbm, 19, rfl⟩
abbrev main_v4 : Ref sig .tc := ⟨.hbm, 20, rfl⟩
abbrev main_cst_0 : Ref sig .tc := ⟨.hbm, 21, rfl⟩
abbrev main_v5 : Ref sig .tc := ⟨.hbm, 22, rfl⟩
abbrev main_v6 : Ref sig .tc := ⟨.hbm, 23, rfl⟩
abbrev main_v7 : Ref sig .tc := ⟨.hbm, 24, rfl⟩
abbrev main_cst_1 : Ref sig .tc := ⟨.hbm, 25, rfl⟩
abbrev main_v8 : Ref sig .tc := ⟨.hbm, 26, rfl⟩
abbrev main_v9 : Ref sig .tc := ⟨.hbm, 27, rfl⟩
abbrev main_cst_2 : Ref sig .tc := ⟨.hbm, 28, rfl⟩
abbrev main_v10 : Ref sig .tc := ⟨.hbm, 29, rfl⟩
abbrev main_v11 : Ref sig .tc := ⟨.hbm, 30, rfl⟩
abbrev main_v12 : Ref sig .tc := ⟨.hbm, 31, rfl⟩
abbrev main_c : Ref sig .tc := ⟨.hbm, 32, rfl⟩
abbrev main_v13 : Ref sig .tc := ⟨.hbm, 33, rfl⟩
abbrev main_v14 : Ref sig .tc := ⟨.hbm, 34, rfl⟩
abbrev main_c_3 : Ref sig .tc := ⟨.hbm, 35, rfl⟩
abbrev main_v15 : Ref sig .tc := ⟨.hbm, 36, rfl⟩
abbrev main_v16 : Ref sig .tc := ⟨.hbm, 37, rfl⟩
abbrev main_v17 : Ref sig .tc := ⟨.hbm, 38, rfl⟩
abbrev main_v18 : Ref sig .tc := ⟨.hbm, 39, rfl⟩
abbrev main_v19 : Ref sig .tc := ⟨.hbm, 40, rfl⟩
abbrev main_cst_4 : Ref sig .tc := ⟨.hbm, 41, rfl⟩
abbrev main_v20 : Ref sig .tc := ⟨.hbm, 42, rfl⟩
abbrev main_v21 : Ref sig .tc := ⟨.hbm, 43, rfl⟩
abbrev main_v22 : Ref sig .tc := ⟨.hbm, 44, rfl⟩
abbrev main_v23 : Ref sig .tc := ⟨.hbm, 45, rfl⟩
abbrev main_v24 : Ref sig .tc := ⟨.hbm, 46, rfl⟩
abbrev main_v25 : Ref sig .tc := ⟨.hbm, 47, rfl⟩
abbrev main_v26 : Ref sig .tc := ⟨.hbm, 48, rfl⟩
abbrev main_v27 : Ref sig .tc := ⟨.hbm, 49, rfl⟩
abbrev main_v28 : Ref sig .tc := ⟨.hbm, 50, rfl⟩
abbrev main_c_5 : Ref sig .tc := ⟨.hbm, 51, rfl⟩
abbrev main_v29 : Ref sig .tc := ⟨.hbm, 52, rfl⟩
abbrev main_v30 : Ref sig .tc := ⟨.hbm, 53, rfl⟩
abbrev main_c_6 : Ref sig .tc := ⟨.hbm, 54, rfl⟩
abbrev main_v31 : Ref sig .tc := ⟨.hbm, 55, rfl⟩
abbrev main_v32 : Ref sig .tc := ⟨.hbm, 56, rfl⟩
abbrev main_v33 : Ref sig .tc := ⟨.hbm, 57, rfl⟩
abbrev main_v34 : Ref sig .tc := ⟨.hbm, 58, rfl⟩
abbrev main_v35 : Ref sig .tc := ⟨.hbm, 59, rfl⟩
abbrev main_cst_7 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_v39 : Ref sig .tc := ⟨.hbm, 64, rfl⟩
abbrev main_v40 : Ref sig .tc := ⟨.hbm, 65, rfl⟩
abbrev main_v41 : Ref sig .tc := ⟨.hbm, 66, rfl⟩
abbrev main_v42 : Ref sig .tc := ⟨.hbm, 67, rfl⟩
abbrev main_v43 : Ref sig .tc := ⟨.hbm, 68, rfl⟩
abbrev main_v44 : Ref sig .tc := ⟨.hbm, 69, rfl⟩
abbrev main_c_8 : Ref sig .tc := ⟨.hbm, 70, rfl⟩
abbrev main_v45 : Ref sig .tc := ⟨.hbm, 71, rfl⟩
abbrev main_v46 : Ref sig .tc := ⟨.hbm, 72, rfl⟩
abbrev main_c_9 : Ref sig .tc := ⟨.hbm, 73, rfl⟩
abbrev main_v47 : Ref sig .tc := ⟨.hbm, 74, rfl⟩
abbrev main_v48 : Ref sig .tc := ⟨.hbm, 75, rfl⟩
abbrev main_v49 : Ref sig .tc := ⟨.hbm, 76, rfl⟩
abbrev main_v50 : Ref sig .tc := ⟨.hbm, 77, rfl⟩
abbrev main_v51 : Ref sig .tc := ⟨.hbm, 78, rfl⟩
abbrev main_cst_10 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_v56 : Ref sig .tc := ⟨.hbm, 84, rfl⟩
abbrev main_v57 : Ref sig .tc := ⟨.hbm, 85, rfl⟩
abbrev main_v58 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg3_0 : Ref sig .tc := ⟨.vmem, 5, rfl⟩
abbrev cc0_stg4_0 : Ref sig .tc := ⟨.vmem, 6, rfl⟩
abbrev cc0_stg5_0 : Ref sig .tc := ⟨.vmem, 7, rfl⟩
abbrev cc0_stg6_0 : Ref sig .tc := ⟨.vmem, 8, rfl⟩
abbrev cc0_stg7_0 : Ref sig .tc := ⟨.vmem, 9, rfl⟩
abbrev cc0_stg7_1 : Ref sig .tc := ⟨.vmem, 10, rfl⟩
abbrev cc1_stg0_0 : Ref sig .tc := ⟨.vmem, 11, rfl⟩
abbrev cc1_stg0_1 : Ref sig .tc := ⟨.vmem, 12, rfl⟩
abbrev cc1_stg1_0 : Ref sig .tc := ⟨.vmem, 13, rfl⟩
abbrev cc1_stg1_1 : Ref sig .tc := ⟨.vmem, 14, rfl⟩
abbrev cc1_stg2_0 : Ref sig .tc := ⟨.vmem, 15, rfl⟩
abbrev cc1_stg3_0 : Ref sig .tc := ⟨.vmem, 16, rfl⟩
abbrev cc1_stg4_0 : Ref sig .tc := ⟨.vmem, 17, rfl⟩
abbrev cc1_stg5_0 : Ref sig .tc := ⟨.vmem, 18, rfl⟩
abbrev cc1_stg6_0 : Ref sig .tc := ⟨.vmem, 19, rfl⟩
abbrev cc1_stg7_0 : Ref sig .tc := ⟨.vmem, 20, rfl⟩
abbrev cc1_stg7_1 : Ref sig .tc := ⟨.vmem, 21, rfl⟩
abbrev cc2_stg0_0 : Ref sig .tc := ⟨.vmem, 22, rfl⟩
abbrev cc2_stg0_1 : Ref sig .tc := ⟨.vmem, 23, rfl⟩
abbrev cc2_stg1_0 : Ref sig .tc := ⟨.vmem, 24, rfl⟩
abbrev cc2_stg1_1 : Ref sig .tc := ⟨.vmem, 25, rfl⟩
abbrev cc2_stg2_0 : Ref sig .tc := ⟨.vmem, 26, rfl⟩
abbrev cc2_stg3_0 : Ref sig .tc := ⟨.vmem, 27, rfl⟩
abbrev cc2_stg4_0 : Ref sig .tc := ⟨.vmem, 28, rfl⟩
abbrev cc2_stg5_0 : Ref sig .tc := ⟨.vmem, 29, rfl⟩
abbrev cc2_stg5_1 : Ref sig .tc := ⟨.vmem, 30, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem3_0 : DmaSem sig := 5
abbrev cc0_sem4_0 : DmaSem sig := 6
abbrev cc0_sem5_0 : DmaSem sig := 7
abbrev cc0_sem6_0 : DmaSem sig := 8
abbrev cc0_sem7_0 : DmaSem sig := 9
abbrev cc0_sem7_1 : DmaSem sig := 10
abbrev cc1_sem0_0 : DmaSem sig := 11
abbrev cc1_sem0_1 : DmaSem sig := 12
abbrev cc1_sem1_0 : DmaSem sig := 13
abbrev cc1_sem1_1 : DmaSem sig := 14
abbrev cc1_sem2_0 : DmaSem sig := 15
abbrev cc1_sem3_0 : DmaSem sig := 16
abbrev cc1_sem4_0 : DmaSem sig := 17
abbrev cc1_sem5_0 : DmaSem sig := 18
abbrev cc1_sem6_0 : DmaSem sig := 19
abbrev cc1_sem7_0 : DmaSem sig := 20
abbrev cc1_sem7_1 : DmaSem sig := 21
abbrev cc2_sem0_0 : DmaSem sig := 22
abbrev cc2_sem0_1 : DmaSem sig := 23
abbrev cc2_sem1_0 : DmaSem sig := 24
abbrev cc2_sem1_1 : DmaSem sig := 25
abbrev cc2_sem2_0 : DmaSem sig := 26
abbrev cc2_sem3_0 : DmaSem sig := 27
abbrev cc2_sem4_0 : DmaSem sig := 28
abbrev cc2_sem5_0 : DmaSem sig := 29
abbrev cc2_sem5_1 : DmaSem sig := 30

abbrev nD : Nat := 1
abbrev τ : Topo := Topo.v7x

variable {F : FTy → Type} [FloatOps F]

abbrev grid0 : Pipeline.Grid := ⟨1, ![25], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S2000x128 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S2000x128 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 1 → Memref sig .tc .vmem S128x128 .f32 := fun | 0 => Memref.whole cc0_stg2_0 | ⟨_ + 1, h⟩ => absurd h (Nat.not_lt.2 (Nat.le_add_left _ _))
abbrev sem0_2 : Fin 1 → DmaSem sig := fun | 0 => cc0_sem2_0 | ⟨_ + 1, h⟩ => absurd h (Nat.not_lt.2 (Nat.le_add_left _ _))
abbrev reads0_2 : Fin grid0.rank → Bool := ![false]

abbrev stage0_3 : Fin 1 → Memref sig .tc .vmem S1x128 .f32 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S128x128 .f32 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1x128 .f32 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x128 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S2000x128 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

abbrev grid1 : Pipeline.Grid := ⟨1, ![25], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_2 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_4 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_5 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_6 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_7 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S2000x128 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 2 → Memref sig .tc .vmem S2000x128 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true]

abbrev stage1_2 : Fin 1 → Memref sig .tc .vmem S128x128 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false]

abbrev stage1_3 : Fin 1 → Memref sig .tc .vmem S1x128 .f32 := fun | 0 => Memref.whole cc1_stg3_0 | ⟨_ + 1, h⟩ => absurd h (Nat.not_lt.2 (Nat.le_add_left _ _))
abbrev sem1_3 : Fin 1 → DmaSem sig := fun | 0 => cc1_sem3_0 | ⟨_ + 1, h⟩ => absurd h (Nat.not_lt.2 (Nat.le_add_left _ _))
abbrev reads1_3 : Fin grid1.rank → Bool := ![false]

abbrev stage1_4 : Fin 1 → Memref sig .tc .vmem S128x128 .f32 := fun | 0 => Memref.whole cc1_stg4_0 | ⟨_ + 1, h⟩ => absurd h (Nat.not_lt.2 (Nat.le_add_left _ _))
abbrev sem1_4 : Fin 1 → DmaSem sig := fun | 0 => cc1_sem4_0 | ⟨_ + 1, h⟩ => absurd h (Nat.not_lt.2 (Nat.le_add_left _ _))
abbrev reads1_4 : Fin grid1.rank → Bool := ![false]

abbrev stage1_5 : Fin 1 → Memref sig .tc .vmem S1x128 .f32 := fun | 0 => Memref.whole cc1_stg5_0 | ⟨_ + 1, h⟩ => absurd h (Nat.not_lt.2 (Nat.le_add_left _ _))
abbrev sem1_5 : Fin 1 → DmaSem sig := fun | 0 => cc1_sem5_0 | ⟨_ + 1, h⟩ => absurd h (Nat.not_lt.2 (Nat.le_add_left _ _))
abbrev reads1_5 : Fin grid1.rank → Bool := ![false]

abbrev stage1_6 : Fin 1 → Memref sig .tc .vmem S1x128 .f32 := fun | 0 => Memref.whole cc1_stg6_0 | ⟨_ + 1, h⟩ => absurd h (Nat.not_lt.2 (Nat.le_add_left _ _))
abbrev sem1_6 : Fin 1 → DmaSem sig := fun | 0 => cc1_sem6_0 | ⟨_ + 1, h⟩ => absurd h (Nat.not_lt.2 (Nat.le_add_left _ _))
abbrev reads1_6 : Fin grid1.rank → Bool := ![false]

abbrev stage1_7 : Fin 2 → Memref sig .tc .vmem S2000x128 .f32 := fun | 0 => Memref.whole cc1_stg7_0 | 1 => Memref.whole cc1_stg7_1 | ⟨_ + 2, h⟩ => absurd h (Nat.not_lt.2 (Nat.le_add_left _ _))
abbrev sem1_7 : Fin 2 → DmaSem sig := fun | 0 => cc1_sem7_0 | 1 => cc1_sem7_1 | ⟨_ + 2, h⟩ => absurd h (Nat.not_lt.2 (Nat.le_add_left _ _))
abbrev reads1_7 : Fin grid1.rank → Bool := ![true]

abbrev grid2 : Pipeline.Grid := ⟨1, ![25], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_2 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_3 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_4 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_5 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S2000x128 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 2 → Memref sig .tc .vmem S2000x128 .f32 := fun | 0 => Memref.whole cc2_stg1_0 | 1 => Memref.whole cc2_stg1_1 | ⟨_ + 2, h⟩ => absurd h (Nat.not_lt.2 (Nat.le_add_left _ _))
abbrev sem2_1 : Fin 2 → DmaSem sig := fun | 0 => cc2_sem1_0 | 1 => cc2_sem1_1 | ⟨_ + 2, h⟩ => absurd h (Nat.not_lt.2 (Nat.le_add_left _ _))
abbrev reads2_1 : Fin grid2.rank → Bool := ![true]

abbrev stage2_2 : Fin 1 → Memref sig .tc .vmem S64x128 .f32 := fun | 0 => Memref.whole cc2_stg2_0 | ⟨_ + 1, h⟩ => absurd h (Nat.not_lt.2 (Nat.le_add_left _ _))
abbrev sem2_2 : Fin 1 → DmaSem sig := fun | 0 => cc2_sem2_0 | ⟨_ + 1, h⟩ => absurd h (Nat.not_lt.2 (Nat.le_add_left _ _))
abbrev reads2_2 : Fin grid2.rank → Bool := ![false]

abbrev stage2_3 : Fin 1 → Memref sig .tc .vmem S1x64 .f32 := fun | 0 => Memref.whole cc2_stg3_0 | ⟨_ + 1, h⟩ => absurd h (Nat.not_lt.2 (Nat.le_add_left _ _))
abbrev sem2_3 : Fin 1 → DmaSem sig := fun | 0 => cc2_sem3_0 | ⟨_ + 1, h⟩ => absurd h (Nat.not_lt.2 (Nat.le_add_left _ _))
abbrev reads2_3 : Fin grid2.rank → Bool := ![false]

abbrev stage2_4 : Fin 1 → Memref sig .tc .vmem S64x128 .f32 := fun | 0 => Memref.whole cc2_stg4_0 | ⟨_ + 1, h⟩ => absurd h (Nat.not_lt.2 (Nat.le_add_left _ _))
abbrev sem2_4 : Fin 1 → DmaSem sig := fun | 0 => cc2_sem4_0 | ⟨_ + 1, h⟩ => absurd h (Nat.not_lt.2 (Nat.le_add_left _ _))
abbrev reads2_4 : Fin grid2.rank → Bool := ![false]

abbrev stage2_5 : Fin 2 → Memref sig .tc .vmem S2000x64 .f32 := fun | 0 => Memref.whole cc2_stg5_0 | 1 => Memref.whole cc2_stg5_1 | ⟨_ + 2, h⟩ => absurd h (Nat.not_lt.2 (Nat.le_add_left _ _))
abbrev sem2_5 : Fin 2 → DmaSem sig := fun | 0 => cc2_sem5_0 | 1 => cc2_sem5_1 | ⟨_ + 2, h⟩ => absurd h (Nat.not_lt.2 (Nat.le_add_left _ _))
abbrev reads2_5 : Fin grid2.rank → Bool := ![true]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S_S50000 : S_.BroadcastsInDim S50000 (![] : Fin 0 → Fin S50000.rank)
  bcast_S800000_S800000x1_0 : S800000.BroadcastsInDim S800000x1 (![0] : Fin 1 → Fin S800000x1.rank)
  shapeCasts_S50000_S50000x1 : S50000.ShapeCasts S50000x1
  bcast_S_S50000x128 : S_.BroadcastsInDim S50000x128 (![] : Fin 0 → Fin S50000x128.rank)
  bcast_S50000x1_S50000x128_0_1 : S50000x1.BroadcastsInDim S50000x128 (![0, 1] : Fin 2 → Fin S50000x128.rank)
  shapeCasts_S128_S1x128 : S128.ShapeCasts S1x128
  inb_S2000x128_S2000x128_0_0 : ∀ a, (![0, 0] : Fin 2 → Nat) a + S2000x128.size a ≤ S2000x128.size a
  h_S2000x128 : 0 < S2000x128.numel
  shapeCasts_S2000x128_S2000x128 : S2000x128.ShapeCasts S2000x128
  bitsLt_bf16_f32 : FTy.bits .bf16 < FTy.bits .f32
  inb_S128x128_S128x128_0_0 : ∀ a, (![0, 0] : Fin 2 → Nat) a + S128x128.size a ≤ S128x128.size a
  h_S128x128 : 0 < S128x128.numel
  transposes_S128x128_p1_0_S128x128 : S128x128.Transposes [1, 0] S128x128
  inb_S1x128_S1x128_0_0 : ∀ a, (![0, 0] : Fin 2 → Nat) a + S1x128.size a ≤ S1x128.size a
  h_S1x128 : 0 < S1x128.numel
  shapeCasts_S1x128_S1x128 : S1x128.ShapeCasts S1x128
  broadcasts_S1x128_S2000x128 : S1x128.Broadcasts S2000x128
  reduces_S2000x128_S2000 : S2000x128.Reduces [1] S2000
  shapeCasts_S2000_S2000x1 : S2000.ShapeCasts S2000x1
  broadcasts_S2000x1_S2000x128 : S2000x1.Broadcasts S2000x128
  shapeCasts_S64_S1x64 : S64.ShapeCasts S1x64
  inb_S64x128_S64x128_0_0 : ∀ a, (![0, 0] : Fin 2 → Nat) a + S64x128.size a ≤ S64x128.size a
  h_S64x128 : 0 < S64x128.numel
  transposes_S64x128_p1_0_S128x64 : S64x128.Transposes [1, 0] S128x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S2000x64 : S1x64.Broadcasts S2000x64
  inb_S2000x64_S2000x64_0_0 : ∀ a, (![0, 0] : Fin 2 → Nat) a + S2000x64.size a ≤ S2000x64.size a
  h_S2000x64 : 0 < S2000x64.numel
  scatter_S50000_S800000x1_S800000_n_0_0_1_wf : ScatterDims.WF S50000 S800000x1 S800000 [] [0] [0] 1
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  dot_S2000x128_S128x128_S2000x128_1_0_0_1_n_n_wf : DotDims.WF S2000x128 S128x128 S2000x128 [1] [0] [0] [1] [] []
  dot_S2000x128_S128x64_S2000x64_1_0_0_1_n_n_wf : DotDims.WF S2000x128 S128x64 S2000x64 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S2000x128.size a ≤ S50000x128.size a
  hwx0_0 : ∀ i : grid0.Coords, EltTy.bits .f32 = 32 ∨ (Rect.block (s := S50000x128) S2000x128.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S2000x128.size a ≤ S50000x128.size a
  hwx0_1 : ∀ i : grid0.Coords, EltTy.bits .f32 = 32 ∨ (Rect.block (s := S50000x128) S2000x128.size (cc0_transform_1 i) (hinb0_1 i)).WholeWords (EltTy.packing .f32)
  hstage0_2 : ∀ j, (stage0_2 j).IsWhole
  nbuf0_2 : grid0.bufCount reads0_2 true = 1
  hreads0_2 : ∀ i i' : grid0.Coords, (∀ a, reads0_2 a = true → i a = i' a) → cc0_transform_2 i = cc0_transform_2 i'
  hinb0_2 : ∀ (i : grid0.Coords) a, (cc0_transform_2 i a + 1) * S128x128.size a ≤ S128x128.size a
  hwx0_2 : ∀ i : grid0.Coords, EltTy.bits .f32 = 32 ∨ (Rect.block (s := S128x128) S128x128.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1x128.size a ≤ S1x128.size a
  hwx0_3 : ∀ i : grid0.Coords, EltTy.bits .f32 = 32 ∨ (Rect.block (s := S1x128) S1x128.size (cc0_transform_3 i) (hinb0_3 i)).WholeWords (EltTy.packing .f32)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S128x128.size a ≤ S128x128.size a
  hwx0_4 : ∀ i : grid0.Coords, EltTy.bits .f32 = 32 ∨ (Rect.block (s := S128x128) S128x128.size (cc0_transform_4 i) (hinb0_4 i)).WholeWords (EltTy.packing .f32)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1x128.size a ≤ S1x128.size a
  hwx0_5 : ∀ i : grid0.Coords, EltTy.bits .f32 = 32 ∨ (Rect.block (s := S1x128) S1x128.size (cc0_transform_5 i) (hinb0_5 i)).WholeWords (EltTy.packing .f32)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x128.size a ≤ S1x128.size a
  hwx0_6 : ∀ i : grid0.Coords, EltTy.bits .f32 = 32 ∨ (Rect.block (s := S1x128) S1x128.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S2000x128.size a ≤ S50000x128.size a
  hwx0_7 : ∀ i : grid0.Coords, EltTy.bits .f32 = 32 ∨ (Rect.block (s := S50000x128) S2000x128.size (cc0_transform_7 i) (hinb0_7 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S2000x128.size a ≤ S50000x128.size a
  hwx1_0 : ∀ i : grid1.Coords, EltTy.bits .f32 = 32 ∨ (Rect.block (s := S50000x128) S2000x128.size (cc1_transform_0 i) (hinb1_0 i)).WholeWords (EltTy.packing .f32)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S2000x128.size a ≤ S50000x128.size a
  hwx1_1 : ∀ i : grid1.Coords, EltTy.bits .f32 = 32 ∨ (Rect.block (s := S50000x128) S2000x128.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S128x128.size a ≤ S128x128.size a
  hwx1_2 : ∀ i : grid1.Coords, EltTy.bits .f32 = 32 ∨ (Rect.block (s := S128x128) S128x128.size (cc1_transform_2 i) (hinb1_2 i)).WholeWords (EltTy.packing .f32)
  hstage1_3 : ∀ j, (stage1_3 j).IsWhole
  nbuf1_3 : grid1.bufCount reads1_3 true = 1
  hreads1_3 : ∀ i i' : grid1.Coords, (∀ a, reads1_3 a = true → i a = i' a) → cc1_transform_3 i = cc1_transform_3 i'
  hinb1_3 : ∀ (i : grid1.Coords) a, (cc1_transform_3 i a + 1) * S1x128.size a ≤ S1x128.size a
  hwx1_3 : ∀ i : grid1.Coords, EltTy.bits .f32 = 32 ∨ (Rect.block (s := S1x128) S1x128.size (cc1_transform_3 i) (hinb1_3 i)).WholeWords (EltTy.packing .f32)
  hstage1_4 : ∀ j, (stage1_4 j).IsWhole
  nbuf1_4 : grid1.bufCount reads1_4 true = 1
  hreads1_4 : ∀ i i' : grid1.Coords, (∀ a, reads1_4 a = true → i a = i' a) → cc1_transform_4 i = cc1_transform_4 i'
  hinb1_4 : ∀ (i : grid1.Coords) a, (cc1_transform_4 i a + 1) * S128x128.size a ≤ S128x128.size a
  hwx1_4 : ∀ i : grid1.Coords, EltTy.bits .f32 = 32 ∨ (Rect.block (s := S128x128) S128x128.size (cc1_transform_4 i) (hinb1_4 i)).WholeWords (EltTy.packing .f32)
  hstage1_5 : ∀ j, (stage1_5 j).IsWhole
  nbuf1_5 : grid1.bufCount reads1_5 true = 1
  hreads1_5 : ∀ i i' : grid1.Coords, (∀ a, reads1_5 a = true → i a = i' a) → cc1_transform_5 i = cc1_transform_5 i'
  hinb1_5 : ∀ (i : grid1.Coords) a, (cc1_transform_5 i a + 1) * S1x128.size a ≤ S1x128.size a
  hwx1_5 : ∀ i : grid1.Coords, EltTy.bits .f32 = 32 ∨ (Rect.block (s := S1x128) S1x128.size (cc1_transform_5 i) (hinb1_5 i)).WholeWords (EltTy.packing .f32)
  hstage1_6 : ∀ j, (stage1_6 j).IsWhole
  nbuf1_6 : grid1.bufCount reads1_6 true = 1
  hreads1_6 : ∀ i i' : grid1.Coords, (∀ a, reads1_6 a = true → i a = i' a) → cc1_transform_6 i = cc1_transform_6 i'
  hinb1_6 : ∀ (i : grid1.Coords) a, (cc1_transform_6 i a + 1) * S1x128.size a ≤ S1x128.size a
  hwx1_6 : ∀ i : grid1.Coords, EltTy.bits .f32 = 32 ∨ (Rect.block (s := S1x128) S1x128.size (cc1_transform_6 i) (hinb1_6 i)).WholeWords (EltTy.packing .f32)
  hstage1_7 : ∀ j, (stage1_7 j).IsWhole
  nbuf1_7 : grid1.bufCount reads1_7 false = 2
  hreads1_7 : ∀ i i' : grid1.Coords, (∀ a, reads1_7 a = true → i a = i' a) → cc1_transform_7 i = cc1_transform_7 i'
  hinb1_7 : ∀ (i : grid1.Coords) a, (cc1_transform_7 i a + 1) * S2000x128.size a ≤ S50000x128.size a
  hwx1_7 : ∀ i : grid1.Coords, EltTy.bits .f32 = 32 ∨ (Rect.block (s := S50000x128) S2000x128.size (cc1_transform_7 i) (hinb1_7 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S2000x128.size a ≤ S50000x128.size a
  hwx2_0 : ∀ i : grid2.Coords, EltTy.bits .f32 = 32 ∨ (Rect.block (s := S50000x128) S2000x128.size (cc2_transform_0 i) (hinb2_0 i)).WholeWords (EltTy.packing .f32)
  hstage2_1 : ∀ j, (stage2_1 j).IsWhole
  nbuf2_1 : grid2.bufCount reads2_1 false = 2
  hreads2_1 : ∀ i i' : grid2.Coords, (∀ a, reads2_1 a = true → i a = i' a) → cc2_transform_1 i = cc2_transform_1 i'
  hinb2_1 : ∀ (i : grid2.Coords) a, (cc2_transform_1 i a + 1) * S2000x128.size a ≤ S50000x128.size a
  hwx2_1 : ∀ i : grid2.Coords, EltTy.bits .f32 = 32 ∨ (Rect.block (s := S50000x128) S2000x128.size (cc2_transform_1 i) (hinb2_1 i)).WholeWords (EltTy.packing .f32)
  hstage2_2 : ∀ j, (stage2_2 j).IsWhole
  nbuf2_2 : grid2.bufCount reads2_2 true = 1
  hreads2_2 : ∀ i i' : grid2.Coords, (∀ a, reads2_2 a = true → i a = i' a) → cc2_transform_2 i = cc2_transform_2 i'
  hinb2_2 : ∀ (i : grid2.Coords) a, (cc2_transform_2 i a + 1) * S64x128.size a ≤ S64x128.size a
  hwx2_2 : ∀ i : grid2.Coords, EltTy.bits .f32 = 32 ∨ (Rect.block (s := S64x128) S64x128.size (cc2_transform_2 i) (hinb2_2 i)).WholeWords (EltTy.packing .f32)
  hstage2_3 : ∀ j, (stage2_3 j).IsWhole
  nbuf2_3 : grid2.bufCount reads2_3 true = 1
  hreads2_3 : ∀ i i' : grid2.Coords, (∀ a, reads2_3 a = true → i a = i' a) → cc2_transform_3 i = cc2_transform_3 i'
  hinb2_3 : ∀ (i : grid2.Coords) a, (cc2_transform_3 i a + 1) * S1x64.size a ≤ S1x64.size a
  hwx2_3 : ∀ i : grid2.Coords, EltTy.bits .f32 = 32 ∨ (Rect.block (s := S1x64) S1x64.size (cc2_transform_3 i) (hinb2_3 i)).WholeWords (EltTy.packing .f32)
  hstage2_4 : ∀ j, (stage2_4 j).IsWhole
  nbuf2_4 : grid2.bufCount reads2_4 true = 1
  hreads2_4 : ∀ i i' : grid2.Coords, (∀ a, reads2_4 a = true → i a = i' a) → cc2_transform_4 i = cc2_transform_4 i'
  hinb2_4 : ∀ (i : grid2.Coords) a, (cc2_transform_4 i a + 1) * S64x128.size a ≤ S64x128.size a
  hwx2_4 : ∀ i : grid2.Coords, EltTy.bits .f32 = 32 ∨ (Rect.block (s := S64x128) S64x128.size (cc2_transform_4 i) (hinb2_4 i)).WholeWords (EltTy.packing .f32)
  hstage2_5 : ∀ j, (stage2_5 j).IsWhole
  nbuf2_5 : grid2.bufCount reads2_5 false = 2
  hreads2_5 : ∀ i i' : grid2.Coords, (∀ a, reads2_5 a = true → i a = i' a) → cc2_transform_5 i = cc2_transform_5 i'
  hinb2_5 : ∀ (i : grid2.Coords) a, (cc2_transform_5 i a + 1) * S2000x64.size a ≤ S50000x64.size a
  hwx2_5 : ∀ i : grid2.Coords, EltTy.bits .f32 = 32 ∨ (Rect.block (s := S50000x64) S2000x64.size (cc2_transform_5 i) (hinb2_5 i)).WholeWords (EltTy.packing .f32)

variable [Facts₀]

def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def dot_S2000x128_S128x128_S2000x128_1_0_0_1_n_n : DotDims S2000x128 S128x128 S2000x128 where
  lhsContracting := [1]
  rhsContracting := [0]
  lhsNonContracting := [0]
  rhsNonContracting := [1]
  lhsBatch := []
  rhsBatch := []
  wf := dot_S2000x128_S128x128_S2000x128_1_0_0_1_n_n_wf
def dot_S2000x128_S128x64_S2000x64_1_0_0_1_n_n : DotDims S2000x128 S128x64 S2000x64 where
  lhsContracting := [1]
  rhsContracting := [0]
  lhsNonContracting := [0]
  rhsNonContracting := [1]
  lhsBatch := []
  rhsBatch := []
  wf := dot_S2000x128_S128x64_S2000x64_1_0_0_1_n_n_wf

abbrev win0_0 : Pipeline.Window sig grid0 :=
  Pipeline.Window.ofSpec (Memref.whole main_v24) S2000x128.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg0) S2000x128.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_arg2) S128x128.size cc0_transform_2 reads0_2 false true 1 stage0_2 sem0_2
    hrank0 hreads0_2 hinb0_2 nbuf0_2 (Memref.isWhole_whole _) hwx0_2 hstage0_2

abbrev win0_3 : Pipeline.Window sig grid0 :=
  Pipeline.Window.ofSpec (Memref.whole main_v25) S1x128.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_arg4) S128x128.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v26) S1x128.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v27) S1x128.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v28) S2000x128.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

abbrev win1_0 : Pipeline.Window sig grid1 :=
  Pipeline.Window.ofSpec (Memref.whole main_v40) S2000x128.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v28) S2000x128.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg5) S128x128.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v41) S1x128.size cc1_transform_3 reads1_3 false true 1 stage1_3 sem1_3
    hrank1 hreads1_3 hinb1_3 nbuf1_3 (Memref.isWhole_whole _) hwx1_3 hstage1_3

abbrev win1_4 : Pipeline.Window sig grid1 :=
  Pipeline.Window.ofSpec (Memref.whole main_arg7) S128x128.size cc1_transform_4 reads1_4 false true 1 stage1_4 sem1_4
    hrank1 hreads1_4 hinb1_4 nbuf1_4 (Memref.isWhole_whole _) hwx1_4 hstage1_4

abbrev win1_5 : Pipeline.Window sig grid1 :=
  Pipeline.Window.ofSpec (Memref.whole main_v42) S1x128.size cc1_transform_5 reads1_5 false true 1 stage1_5 sem1_5
    hrank1 hreads1_5 hinb1_5 nbuf1_5 (Memref.isWhole_whole _) hwx1_5 hstage1_5

abbrev win1_6 : Pipeline.Window sig grid1 :=
  Pipeline.Window.ofSpec (Memref.whole main_v43) S1x128.size cc1_transform_6 reads1_6 false true 1 stage1_6 sem1_6
    hrank1 hreads1_6 hinb1_6 nbuf1_6 (Memref.isWhole_whole _) hwx1_6 hstage1_6

abbrev win1_7 : Pipeline.Window sig grid1 :=
  Pipeline.Window.ofSpec (Memref.whole main_v44) S2000x128.size cc1_transform_7 reads1_7 true false 2 stage1_7 sem1_7
    hrank1 hreads1_7 hinb1_7 nbuf1_7 (Memref.isWhole_whole _) hwx1_7 hstage1_7

abbrev win1 : Fin 8 → Pipeline.Window sig grid1 := fun | 0 => win1_0 | 1 => win1_1 | 2 => win1_2 | 3 => win1_3 | 4 => win1_4 | 5 => win1_5 | 6 => win1_6 | 7 => win1_7 | ⟨_ + 8, h⟩ => absurd h (Nat.not_lt.2 (Nat.le_add_left _ _))
abbrev spec1 : Fin 8 → Pipeline.WinSpec sig grid1.rank := fun w => (win1 w).toWinSpec

abbrev win2_0 : Pipeline.Window sig grid2 :=
  Pipeline.Window.ofSpec (Memref.whole main_v56) S2000x128.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_v44) S2000x128.size cc2_transform_1 reads2_1 false false 2 stage2_1 sem2_1
    hrank2 hreads2_1 hinb2_1 nbuf2_1 (Memref.isWhole_whole _) hwx2_1 hstage2_1

abbrev win2_2 : Pipeline.Window sig grid2 :=
  Pipeline.Window.ofSpec (Memref.whole main_arg8) S64x128.size cc2_transform_2 reads2_2 false true 1 stage2_2 sem2_2
    hrank2 hreads2_2 hinb2_2 nbuf2_2 (Memref.isWhole_whole _) hwx2_2 hstage2_2

abbrev win2_3 : Pipeline.Window sig grid2 :=
  Pipeline.Window.ofSpec (Memref.whole main_v57) S1x64.size cc2_transform_3 reads2_3 false true 1 stage2_3 sem2_3
    hrank2 hreads2_3 hinb2_3 nbuf2_3 (Memref.isWhole_whole _) hwx2_3 hstage2_3

abbrev win2_4 : Pipeline.Window sig grid2 :=
  Pipeline.Window.ofSpec (Memref.whole main_arg10) S64x128.size cc2_transform_4 reads2_4 false true 1 stage2_4 sem2_4
    hrank2 hreads2_4 hinb2_4 nbuf2_4 (Memref.isWhole_whole _) hwx2_4 hstage2_4

abbrev win2_5 : Pipeline.Window sig grid2 :=
  Pipeline.Window.ofSpec (Memref.whole main_v58) S2000x64.size cc2_transform_5 reads2_5 true false 2 stage2_5 sem2_5
    hrank2 hreads2_5 hinb2_5 nbuf2_5 (Memref.isWhole_whole _) hwx2_5 hstage2_5

abbrev win2 : Fin 6 → Pipeline.Window sig grid2 := fun | 0 => win2_0 | 1 => win2_1 | 2 => win2_2 | 3 => win2_3 | 4 => win2_4 | 5 => win2_5 | ⟨_ + 6, h⟩ => absurd h (Nat.not_lt.2 (Nat.le_add_left _ _))
abbrev spec2 : Fin 6 → Pipeline.WinSpec sig grid2.rank := fun w => (win2 w).toWinSpec

class Facts : Prop extends Facts₀ where

variable [Facts]
-- ==== ReferenceIdeal.lean ====
abbrev S50000x128 : Shape := ⟨2, ![50000, 128]⟩
abbrev S2x800000 : Shape := ⟨2, ![2, 800000]⟩
abbrev S128x128 : Shape := ⟨2, ![128, 128]⟩
abbrev S128 : Shape := ⟨1, ![128]⟩
abbrev S64x128 : Shape := ⟨2, ![64, 128]⟩
abbrev S64 : Shape := ⟨1, ![64]⟩
abbrev S1x800000 : Shape := ⟨2, ![1, 800000]⟩
abbrev S800000 : Shape := ⟨1, ![800000]⟩
abbrev S_ : Shape := ⟨0, ![]⟩
abbrev S800000x1 : Shape := ⟨2, ![800000, 1]⟩
abbrev S800000x128 : Shape := ⟨2, ![800000, 128]⟩
abbrev S50000 : Shape := ⟨1, ![50000]⟩
abbrev S50000x1 : Shape := ⟨2, ![50000, 1]⟩
abbrev S1x128 : Shape := ⟨2, ![1, 128]⟩
abbrev S128x64 : Shape := ⟨2, ![128, 64]⟩
abbrev S50000x64 : Shape := ⟨2, ![50000, 64]⟩
abbrev S1x64 : Shape := ⟨2, ![1, 64]⟩

abbrev nBuf : Space → Nat
  | .hbm => 182
  | .vmem => 0
  | .smem => 0
  | _ => 0

abbrev hbmTy0_0 (i : Nat) : BufTy := match i % 128 with
  | 0 => ⟨S50000x128, .f32⟩
  | 1 => ⟨S2x800000, .i32⟩
  | 2 => ⟨S128x128, .f32⟩
  | 3 => ⟨S128, .f32⟩
  | 4 => ⟨S128x128, .f32⟩
  | 5 => ⟨S128x128, .f32⟩
  | 6 => ⟨S128, .f32⟩
  | 7 => ⟨S128x128, .f32⟩
  | 8 => ⟨S64x128, .f32⟩
  | 9 => ⟨S64, .f32⟩
  | 10 => ⟨S64x128, .f32⟩
  | 11 => ⟨S128, .f32⟩
  | 12 => ⟨S128, .f32⟩
  | 13 => ⟨S128, .f32⟩
  | 14 => ⟨S128, .f32⟩
  | 15 => ⟨S1x800000, .i32⟩
  | 16 => ⟨S800000, .i32⟩
  | 17 => ⟨S1x800000, .i32⟩
  | 18 => ⟨S800000, .i32⟩
  | 19 => ⟨S_, .i32⟩
  | 20 => ⟨S800000, .i32⟩
  | 21 => ⟨S800000, .i1⟩
  | 22 => ⟨S_, .i32⟩
  | 23 => ⟨S800000, .i32⟩
  | 24 => ⟨S800000, .i32⟩
  | 25 => ⟨S800000, .i32⟩
  | 26 => ⟨S800000x1, .i32⟩
  | 27 => ⟨S800000x128, .f32⟩
  | 28 => ⟨S_, .f32⟩
  | 29 => ⟨S50000x128, .f32⟩
  | 30 => ⟨S800000x1, .i32⟩
  | 31 => ⟨S50000x128, .f32⟩
  | 32 => ⟨S_, .f32⟩
  | 33 => ⟨S800000, .f32⟩
  | 34 => ⟨S_, .f32⟩
  | 35 => ⟨S50000, .f32⟩
  | 36 => ⟨S800000x1, .i32⟩
  | 37 => ⟨S50000, .f32⟩
  | 38 => ⟨S_, .f32⟩
  | 39 => ⟨S50000, .f32⟩
  | 40 => ⟨S50000, .f32⟩
  | 41 => ⟨S50000x1, .f32⟩
  | 42 => ⟨S50000x128, .f32⟩
  | 43 => ⟨S50000x128, .f32⟩
  | 44 => ⟨S128x128, .f32⟩
  | 45 => ⟨S50000x128, .f32⟩
  | 46 => ⟨S1x128, .f32⟩
  | 47 => ⟨S50000x128, .f32⟩
  | 48 => ⟨S50000x128, .f32⟩
  | 49 => ⟨S128x128, .f32⟩
  | 50 => ⟨S50000x128, .f32⟩
  | 51 => ⟨S50000x128, .f32⟩
  | 52 => ⟨S_, .f32⟩
  | 53 => ⟨S50000x128, .f32⟩
  | 54 => ⟨S50000x128, .f32⟩
  | 55 => ⟨S_, .f32⟩
  | 56 => ⟨S50000, .f32⟩
  | 57 => ⟨S50000x1, .f32⟩
  | 58 => ⟨S_, .f32⟩
  | 59 => ⟨S50000x1, .f32⟩
  | 60 => ⟨S50000x1, .f32⟩
  | 61 => ⟨S50000x128, .f32⟩
  | 62 => ⟨S50000x128, .f32⟩
  | 63 => ⟨S50000x128, .f32⟩
  | 64 => ⟨S_, .f32⟩
  | 65 => ⟨S50000, .f32⟩
  | 66 => ⟨S50000x1, .f32⟩
  | 67 => ⟨S_, .f32⟩
  | 68 => ⟨S50000x1, .f32⟩
  | 69 => ⟨S50000x1, .f32⟩
  | 70 => ⟨S50000x128, .f32⟩
  | 71 => ⟨S50000x128, .f32⟩
  | 72 => ⟨S_, .f32⟩
  | 73 => ⟨S50000x1, .f32⟩
  | 74 => ⟨S50000x1, .f32⟩
  | 75 => ⟨S50000x1, .f32⟩
  | 76 => ⟨S50000x128, .f32⟩
  | 77 => ⟨S50000x128, .f32⟩
  | 78 => ⟨S1x128, .f32⟩
  | 79 => ⟨S50000x128, .f32⟩
  | 80 => ⟨S50000x128, .f32⟩
  | 81 => ⟨S1x128, .f32⟩
  | 82 => ⟨S50000x128, .f32⟩
  | 83 => ⟨S50000x128, .f32⟩
  | 84 => ⟨S_, .i32⟩
  | 85 => ⟨S800000, .i32⟩
  | 86 => ⟨S800000, .i1⟩
  | 87 => ⟨S_, .i32⟩
  | 88 => ⟨S800000, .i32⟩
  | 89 => ⟨S800000, .i32⟩
  | 90 => ⟨S800000, .i32⟩
  | 91 => ⟨S800000x1, .i32⟩
  | 92 => ⟨S800000x128, .f32⟩
  | 93 => ⟨S_, .f32⟩
  | 94 => ⟨S50000x128, .f32⟩
  | 95 => ⟨S800000x1, .i32⟩
  | 96 => ⟨S50000x128, .f32⟩
  | 97 => ⟨S_, .f32⟩
  | 98 => ⟨S800000, .f32⟩
  | 99 => ⟨S_, .f32⟩
  | 100 => ⟨S50000, .f32⟩
  | 101 => ⟨S800000x1, .i32⟩
  | 102 => ⟨S50000, .f32⟩
  | 103 => ⟨S_, .f32⟩
  | 104 => ⟨S50000, .f32⟩
  | 105 => ⟨S50000, .f32⟩
  | 106 => ⟨S50000x1, .f32⟩
  | 107 => ⟨S50000x128, .f32⟩
  | 108 => ⟨S50000x128, .f32⟩
  | 109 => ⟨S128x128, .f32⟩
  | 110 => ⟨S50000x128, .f32⟩
  | 111 => ⟨S1x128, .f32⟩
  | 112 => ⟨S50000x128, .f32⟩
  | 113 => ⟨S50000x128, .f32⟩
  | 114 => ⟨S128x128, .f32⟩
  | 115 => ⟨S50000x128, .f32⟩
  | 116 => ⟨S50000x128, .f32⟩
  | 117 => ⟨S_, .f32⟩
  | 118 => ⟨S50000x128, .f32⟩
  | 119 => ⟨S50000x128, .f32⟩
  | 120 => ⟨S_, .f32⟩
  | 121 => ⟨S50000, .f32⟩
  | 122 => ⟨S50000x1, .f32⟩
  | 123 => ⟨S_, .f32⟩
  | 124 => ⟨S50000x1, .f32⟩
  | 125 => ⟨S50000x1, .f32⟩
  | 126 => ⟨S50000x128, .f32⟩
  | 127 => ⟨S50000x128, .f32⟩
  | _ => ⟨S50000x128, .f32⟩

abbrev hbmTy0_1 (i : Nat) : BufTy := match i % 128 with
  | 0 => ⟨S50000x128, .f32⟩
  | 1 => ⟨S_, .f32⟩
  | 2 => ⟨S50000, .f32⟩
  | 3 => ⟨S50000x1, .f32⟩
  | 4 => ⟨S_, .f32⟩
  | 5 => ⟨S50000x1, .f32⟩
  | 6 => ⟨S50000x1, .f32⟩
  | 7 => ⟨S50000x128, .f32⟩
  | 8 => ⟨S50000x128, .f32⟩
  | 9 => ⟨S_, .f32⟩
  | 10 => ⟨S50000x1, .f32⟩
  | 11 => ⟨S50000x1, .f32⟩
  | 12 => ⟨S50000x1, .f32⟩
  | 13 => ⟨S50000x128, .f32⟩
  | 14 => ⟨S50000x128, .f32⟩
  | 15 => ⟨S1x128, .f32⟩
  | 16 => ⟨S50000x128, .f32⟩
  | 17 => ⟨S50000x128, .f32⟩
  | 18 => ⟨S1x128, .f32⟩
  | 19 => ⟨S50000x128, .f32⟩
  | 20 => ⟨S50000x128, .f32⟩
  | 21 => ⟨S_, .i32⟩
  | 22 => ⟨S800000, .i32⟩
  | 23 => ⟨S800000, .i1⟩
  | 24 => ⟨S_, .i32⟩
  | 25 => ⟨S800000, .i32⟩
  | 26 => ⟨S800000, .i32⟩
  | 27 => ⟨S800000, .i32⟩
  | 28 => ⟨S800000x1, .i32⟩
  | 29 => ⟨S800000x128, .f32⟩
  | 30 => ⟨S_, .f32⟩
  | 31 => ⟨S50000x128, .f32⟩
  | 32 => ⟨S800000x1, .i32⟩
  | 33 => ⟨S50000x128, .f32⟩
  | 34 => ⟨S_, .f32⟩
  | 35 => ⟨S800000, .f32⟩
  | 36 => ⟨S_, .f32⟩
  | 37 => ⟨S50000, .f32⟩
  | 38 => ⟨S800000x1, .i32⟩
  | 39 => ⟨S50000, .f32⟩
  | 40 => ⟨S_, .f32⟩
  | 41 => ⟨S50000, .f32⟩
  | 42 => ⟨S50000, .f32⟩
  | 43 => ⟨S50000x1, .f32⟩
  | 44 => ⟨S50000x128, .f32⟩
  | 45 => ⟨S50000x128, .f32⟩
  | 46 => ⟨S128x64, .f32⟩
  | 47 => ⟨S50000x64, .f32⟩
  | 48 => ⟨S1x64, .f32⟩
  | 49 => ⟨S50000x64, .f32⟩
  | 50 => ⟨S50000x64, .f32⟩
  | 51 => ⟨S128x64, .f32⟩
  | 52 => ⟨S50000x64, .f32⟩
  | 53 => ⟨S50000x64, .f32⟩
  | _ => ⟨S50000x128, .f32⟩

abbrev hbmTy (i : Nat) : BufTy := match i / 128 with
  | 0 => hbmTy0_0 i
  | 1 => hbmTy0_1 i
  | _ => ⟨S50000x128, .f32⟩

abbrev bufTy : (tb : Table) → Fin (tcTables nBuf tb) → BufTy
  | .hbm, ⟨i, _⟩ => hbmTy i
  | _, _ => ⟨S50000x128, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_arg6 : Ref sig .tc := ⟨.hbm, 6, rfl⟩
abbrev main_arg7 : Ref sig .tc := ⟨.hbm, 7, rfl⟩
abbrev main_arg8 : Ref sig .tc := ⟨.hbm, 8, rfl⟩
abbrev main_arg9 : Ref sig .tc := ⟨.hbm, 9, rfl⟩
abbrev main_arg10 : Ref sig .tc := ⟨.hbm, 10, rfl⟩
abbrev main_arg11 : Ref sig .tc := ⟨.hbm, 11, rfl⟩
abbrev main_arg12 : Ref sig .tc := ⟨.hbm, 12, rfl⟩
abbrev main_arg13 : Ref sig .tc := ⟨.hbm, 13, rfl⟩
abbrev main_arg14 : Ref sig .tc := ⟨.hbm, 14, rfl⟩
abbrev main_v0 : Ref sig .tc := ⟨.hbm, 15, rfl⟩
abbrev main_v1 : Ref sig .tc := ⟨.hbm, 16, rfl⟩
abbrev main_v2 : Ref sig .tc := ⟨.hbm, 17, rfl⟩
abbrev main_v3 : Ref sig .tc := ⟨.hbm, 18, rfl⟩
abbrev main_c : Ref sig .tc := ⟨.hbm, 19, rfl⟩
abbrev main_v4 : Ref sig .tc := ⟨.hbm, 20, rfl⟩
abbrev main_v5 : Ref sig .tc := ⟨.hbm, 21, rfl⟩
abbrev main_c_0 : Ref sig .tc := ⟨.hbm, 22, rfl⟩
abbrev main_v6 : Ref sig .tc := ⟨.hbm, 23, rfl⟩
abbrev main_v7 : Ref sig .tc := ⟨.hbm, 24, rfl⟩
abbrev main_v8 : Ref sig .tc := ⟨.hbm, 25, rfl⟩
abbrev main_v9 : Ref sig .tc := ⟨.hbm, 26, rfl⟩
abbrev main_v10 : Ref sig .tc := ⟨.hbm, 27, rfl⟩
abbrev main_cst : Ref sig .tc := ⟨.hbm, 28, rfl⟩
abbrev main_v11 : Ref sig .tc := ⟨.hbm, 29, rfl⟩
abbrev main_v12 : Ref sig .tc := ⟨.hbm, 30, rfl⟩
abbrev main_v13 : Ref sig .tc := ⟨.hbm, 31, rfl⟩
abbrev main_cst_1 : Ref sig .tc := ⟨.hbm, 32, rfl⟩
abbrev main_v14 : Ref sig .tc := ⟨.hbm, 33, rfl⟩
abbrev main_cst_2 : Ref sig .tc := ⟨.hbm, 34, rfl⟩
abbrev main_v15 : Ref sig .tc := ⟨.hbm, 35, rfl⟩
abbrev main_v16 : Ref sig .tc := ⟨.hbm, 36, rfl⟩
abbrev main_v17 : Ref sig .tc := ⟨.hbm, 37, rfl⟩
abbrev main_cst_3 : Ref sig .tc := ⟨.hbm, 38, rfl⟩
abbrev main_v18 : Ref sig .tc := ⟨.hbm, 39, rfl⟩
abbrev main_v19 : Ref sig .tc := ⟨.hbm, 40, rfl⟩
abbrev main_v20 : Ref sig .tc := ⟨.hbm, 41, rfl⟩
abbrev main_v21 : Ref sig .tc := ⟨.hbm, 42, rfl⟩
abbrev main_v22 : Ref sig .tc := ⟨.hbm, 43, rfl⟩
abbrev main_v23 : Ref sig .tc := ⟨.hbm, 44, rfl⟩
abbrev main_v24 : Ref sig .tc := ⟨.hbm, 45, rfl⟩
abbrev main_v25 : Ref sig .tc := ⟨.hbm, 46, rfl⟩
abbrev main_v26 : Ref sig .tc := ⟨.hbm, 47, rfl⟩
abbrev main_v27 : Ref sig .tc := ⟨.hbm, 48, rfl⟩
abbrev main_v28 : Ref sig .tc := ⟨.hbm, 49, rfl⟩
abbrev main_v29 : Ref sig .tc := ⟨.hbm, 50, rfl⟩
abbrev main_v30 : Ref sig .tc := ⟨.hbm, 51, rfl⟩
abbrev main_call0_cst : Ref sig .tc := ⟨.hbm, 52, rfl⟩
abbrev main_call0_v0 : Ref sig .tc := ⟨.hbm, 53, rfl⟩
abbrev main_v31 : Ref sig .tc := ⟨.hbm, 54, rfl⟩
abbrev main_cst_4 : Ref sig .tc := ⟨.hbm, 55, rfl⟩
abbrev main_v32 : Ref sig .tc := ⟨.hbm, 56, rfl⟩
abbrev main_v33 : Ref sig .tc := ⟨.hbm, 57, rfl⟩
abbrev main_cst_5 : Ref sig .tc := ⟨.hbm, 58, rfl⟩
abbrev main_v34 : Ref sig .tc := ⟨.hbm, 59, rfl⟩
abbrev main_v35 : Ref sig .tc := ⟨.hbm, 60, rfl⟩
abbrev main_v36 : Ref sig .tc := ⟨.hbm, 61, rfl⟩
abbrev main_v37 : Ref sig .tc := ⟨.hbm, 62, rfl⟩
abbrev main_v38 : Ref sig .tc := ⟨.hbm, 63, rfl⟩
abbrev main_cst_6 : Ref sig .tc := ⟨.hbm, 64, rfl⟩
abbrev main_v39 : Ref sig .tc := ⟨.hbm, 65, rfl⟩
abbrev main_v40 : Ref sig .tc := ⟨.hbm, 66, rfl⟩
abbrev main_cst_7 : Ref sig .tc := ⟨.hbm, 67, rfl⟩
abbrev main_v41 : Ref sig .tc := ⟨.hbm, 68, rfl⟩
abbrev main_v42 : Ref sig .tc := ⟨.hbm, 69, rfl⟩
abbrev main_v43 : Ref sig .tc := ⟨.hbm, 70, rfl⟩
abbrev main_v44 : Ref sig .tc := ⟨.hbm, 71, rfl⟩
abbrev main_cst_8 : Ref sig .tc := ⟨.hbm, 72, rfl⟩
abbrev main_v45 : Ref sig .tc := ⟨.hbm, 73, rfl⟩
abbrev main_v46 : Ref sig .tc := ⟨.hbm, 74, rfl⟩
abbrev main_v47 : Ref sig .tc := ⟨.hbm, 75, rfl⟩
abbrev main_v48 : Ref sig .tc := ⟨.hbm, 76, rfl⟩
abbrev main_v49 : Ref sig .tc := ⟨.hbm, 77, rfl⟩
abbrev main_v50 : Ref sig .tc := ⟨.hbm, 78, rfl⟩
abbrev main_v51 : Ref sig .tc := ⟨.hbm, 79, rfl⟩
abbrev main_v52 : Ref sig .tc := ⟨.hbm, 80, rfl⟩
abbrev main_v53 : Ref sig .tc := ⟨.hbm, 81, rfl⟩
abbrev main_v54 : Ref sig .tc := ⟨.hbm, 82, rfl⟩
abbrev main_v55 : Ref sig .tc := ⟨.hbm, 83, rfl⟩
abbrev main_c_9 : Ref sig .tc := ⟨.hbm, 84, rfl⟩
abbrev main_v56 : Ref sig .tc := ⟨.hbm, 85, rfl⟩
abbrev main_v57 : Ref sig .tc := ⟨.hbm, 86, rfl⟩
abbrev main_c_10 : Ref sig .tc := ⟨.hbm, 87, rfl⟩
abbrev main_v58 : Ref sig .tc := ⟨.hbm, 88, rfl⟩
abbrev main_v59 : Ref sig .tc := ⟨.hbm, 89, rfl⟩
abbrev main_v60 : Ref sig .tc := ⟨.hbm, 90, rfl⟩
abbrev main_v61 : Ref sig .tc := ⟨.hbm, 91, rfl⟩
abbrev main_v62 : Ref sig .tc := ⟨.hbm, 92, rfl⟩
abbrev main_cst_11 : Ref sig .tc := ⟨.hbm, 93, rfl⟩
abbrev main_v63 : Ref sig .tc := ⟨.hbm, 94, rfl⟩
abbrev main_v64 : Ref sig .tc := ⟨.hbm, 95, rfl⟩
abbrev main_v65 : Ref sig .tc := ⟨.hbm, 96, rfl⟩
abbrev main_cst_12 : Ref sig .tc := ⟨.hbm, 97, rfl⟩
abbrev main_v66 : Ref sig .tc := ⟨.hbm, 98, rfl⟩
abbrev main_cst_13 : Ref sig .tc := ⟨.hbm, 99, rfl⟩
abbrev main_v67 : Ref sig .tc := ⟨.hbm, 100, rfl⟩
abbrev main_v68 : Ref sig .tc := ⟨.hbm, 101, rfl⟩
abbrev main_v69 : Ref sig .tc := ⟨.hbm, 102, rfl⟩
abbrev main_cst_14 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_call1_cst : Ref sig .tc := ⟨.hbm, 117, rfl⟩
abbrev main_call1_v0 : Ref sig .tc := ⟨.hbm, 118, rfl⟩
abbrev main_v83 : Ref sig .tc := ⟨.hbm, 119, rfl⟩
abbrev main_cst_15 : Ref sig .tc := ⟨.hbm, 120, rfl⟩
abbrev main_v84 : Ref sig .tc := ⟨.hbm, 121, rfl⟩
abbrev main_v85 : Ref sig .tc := ⟨.hbm, 122, rfl⟩
abbrev main_cst_16 : Ref sig .tc := ⟨.hbm, 123, rfl⟩
abbrev main_v86 : Ref sig .tc := ⟨.hbm, 124, rfl⟩
abbrev main_v87 : Ref sig .tc := ⟨.hbm, 125, rfl⟩
abbrev main_v88 : Ref sig .tc := ⟨.hbm, 126, rfl⟩
abbrev main_v89 : Ref sig .tc := ⟨.hbm, 127, rfl⟩
abbrev main_v90 : Ref sig .tc := ⟨.hbm, 128, rfl⟩
abbrev main_cst_17 : Ref sig .tc := ⟨.hbm, 129, rfl⟩
abbrev main_v91 : Ref sig .tc := ⟨.hbm, 130, rfl⟩
abbrev main_v92 : Ref sig .tc := ⟨.hbm, 131, rfl⟩
abbrev main_cst_18 : Ref sig .tc := ⟨.hbm, 132, rfl⟩
abbrev main_v93 : Ref sig .tc := ⟨.hbm, 133, rfl⟩
abbrev main_v94 : Ref sig .tc := ⟨.hbm, 134, rfl⟩
abbrev main_v95 : Ref sig .tc := ⟨.hbm, 135, rfl⟩
abbrev main_v96 : Ref sig .tc := ⟨.hbm, 136, rfl⟩
abbrev main_cst_19 : Ref sig .tc := ⟨.hbm, 137, rfl⟩
abbrev main_v97 : Ref sig .tc := ⟨.hbm, 138, rfl⟩
abbrev main_v98 : Ref sig .tc := ⟨.hbm, 139, rfl⟩
abbrev main_v99 : Ref sig .tc := ⟨.hbm, 140, rfl⟩
abbrev main_v100 : Ref sig .tc := ⟨.hbm, 141, rfl⟩
abbrev main_v101 : Ref sig .tc := ⟨.hbm, 142, rfl⟩
abbrev main_v102 : Ref sig .tc := ⟨.hbm, 143, rfl⟩
abbrev main_v103 : Ref sig .tc := ⟨.hbm, 144, rfl⟩
abbrev main_v104 : Ref sig .tc := ⟨.hbm, 145, rfl⟩
abbrev main_v105 : Ref sig .tc := ⟨.hbm, 146, rfl⟩
abbrev main_v106 : Ref sig .tc := ⟨.hbm, 147, rfl⟩
abbrev main_v107 : Ref sig .tc := ⟨.hbm, 148, rfl⟩
abbrev main_c_20 : Ref sig .tc := ⟨.hbm, 149, rfl⟩
abbrev main_v108 : Ref sig .tc := ⟨.hbm, 150, rfl⟩
abbrev main_v109 : Ref sig .tc := ⟨.hbm, 151, rfl⟩
abbrev main_c_21 : Ref sig .tc := ⟨.hbm, 152, rfl⟩
abbrev main_v110 : Ref sig .tc := ⟨.hbm, 153, rfl⟩
abbrev main_v111 : Ref sig .tc := ⟨.hbm, 154, rfl⟩
abbrev main_v112 : Ref sig .tc := ⟨.hbm, 155, rfl⟩
abbrev main_v113 : Ref sig .tc := ⟨.hbm, 156, rfl⟩
abbrev main_v114 : Ref sig .tc := ⟨.hbm, 157, rfl⟩
abbrev main_cst_22 : Ref sig .tc := ⟨.hbm, 158, rfl⟩
abbrev main_v115 : Ref sig .tc := ⟨.hbm, 159, rfl⟩
abbrev main_v116 : Ref sig .tc := ⟨.hbm, 160, rfl⟩
abbrev main_v117 : Ref sig .tc := ⟨.hbm, 161, rfl⟩
abbrev main_cst_23 : Ref sig .tc := ⟨.hbm, 162, rfl⟩
abbrev main_v118 : Ref sig .tc := ⟨.hbm, 163, rfl⟩
abbrev main_cst_24 : Ref sig .tc := ⟨.hbm, 164, rfl⟩
abbrev main_v119 : Ref sig .tc := ⟨.hbm, 165, rfl⟩
abbrev main_v120 : Ref sig .tc := ⟨.hbm, 166, rfl⟩
abbrev main_v121 : Ref sig .tc := ⟨.hbm, 167, rfl⟩
abbrev main_cst_25 : Ref sig .tc := ⟨.hbm, 168, rfl⟩
abbrev main_v122 : Ref sig .tc := ⟨.hbm, 169, rfl⟩
abbrev main_v123 : Ref sig .tc := ⟨.hbm, 170, rfl⟩
abbrev main_v124 : Ref sig .tc := ⟨.hbm, 171, rfl⟩
abbrev main_v125 : Ref sig .tc := ⟨.hbm, 172, rfl⟩
abbrev main_v126 : Ref sig .tc := ⟨.hbm, 173, rfl⟩
abbrev main_v127 : Ref sig .tc := ⟨.hbm, 174, rfl⟩
abbrev main_v128 : Ref sig .tc := ⟨.hbm, 175, rfl⟩
abbrev main_v129 : Ref sig .tc := ⟨.hbm, 176, rfl⟩
abbrev main_v130 : Ref sig .tc := ⟨.hbm, 177, rfl⟩
abbrev main_v131 : Ref sig .tc := ⟨.hbm, 178, rfl⟩
abbrev main_v132 : Ref sig .tc := ⟨.hbm, 179, rfl⟩
abbrev main_v133 : Ref sig .tc := ⟨.hbm, 180, rfl⟩
abbrev main_v134 : Ref sig .tc := ⟨.hbm, 181, rfl⟩

abbrev nD : Nat := 1
abbrev τ : Topo := Topo.v7x

variable {F : FTy → Type} [FloatOps F]

class Facts₀ : Prop where
  slices_S2x800000_S1x800000_0_0 : S2x800000.Slices ![0, 0] S1x800000
  shapeCasts_S1x800000_S800000 : S1x800000.ShapeCasts S800000
  slices_S2x800000_S1x800000_1_0 : S2x800000.Slices ![1, 0] S1x800000
  bcast_S_S800000 : S_.BroadcastsInDim S800000 (![] : Fin 0 → Fin S800000.rank)
  bcast_S800000_S800000x1_0 : S800000.BroadcastsInDim S800000x1 (![0] : Fin 1 → Fin S800000x1.rank)
  bcast_S_S50000x128 : S_.BroadcastsInDim S50000x128 (![] : Fin 0 → Fin S50000x128.rank)
  bcast_S_S50000 : S_.BroadcastsInDim S50000 (![] : Fin 0 → Fin S50000.rank)
  bcast_S50000_S50000x1_0 : S50000.BroadcastsInDim S50000x1 (![0] : Fin 1 → Fin S50000x1.rank)
  bcast_S50000x1_S50000x128_0_1 : S50000x1.BroadcastsInDim S50000x128 (![0, 1] : Fin 2 → Fin S50000x128.rank)
  transposes_S128x128_S128x128_1_0 : S128x128.Transposes [1, 0] S128x128
  bcast_S128_S1x128_1 : S128.BroadcastsInDim S1x128 (![1] : Fin 1 → Fin S1x128.rank)
  bcast_S1x128_S50000x128_0_1 : S1x128.BroadcastsInDim S50000x128 (![0, 1] : Fin 2 → Fin S50000x128.rank)
  reducesTo_S50000x128_S50000_d1 : S50000x128.ReducesTo [1] S50000
  h_S_ : 0 < S_.numel
  bcast_S_S50000x1 : S_.BroadcastsInDim S50000x1 (![] : Fin 0 → Fin S50000x1.rank)
  transposes_S64x128_S128x64_1_0 : S64x128.Transposes [1, 0] S128x64
  bcast_S64_S1x64_1 : S64.BroadcastsInDim S1x64 (![1] : Fin 1 → Fin S1x64.rank)
  bcast_S1x64_S50000x64_0_1 : S1x64.BroadcastsInDim S50000x64 (![0, 1] : Fin 2 → Fin S50000x64.rank)
  gather_S50000x128_S800000x1_S800000x128_1_0_n_n_0_1_1128_wf : GatherDims.WF S50000x128 S800000x1 S800000x128 [1] [0] [] [0] [] 1 ![1, 128]
  scatter_S50000x128_S800000x1_S800000x128_1_0_0_1_wf : ScatterDims.WF S50000x128 S800000x1 S800000x128 [1] [0] [0] 1
  scatter_S50000_S800000x1_S800000_n_0_0_1_wf : ScatterDims.WF S50000 S800000x1 S800000 [] [0] [0] 1
  dot_S50000x128_S128x128_S50000x128_1_0_0_1_n_n_wf : DotDims.WF S50000x128 S128x128 S50000x128 [1] [0] [0] [1] [] []
  dot_S50000x128_S128x64_S50000x64_1_0_0_1_n_n_wf : DotDims.WF S50000x128 S128x64 S50000x64 [1] [0] [0] [1] [] []

variable [Facts₀]

def gather_S50000x128_S800000x1_S800000x128_1_0_n_n_0_1_1128 : GatherDims S50000x128 S800000x1 S800000x128 where
  offsetDims := [1]
  collapsedSliceDims := [0]
  operandBatchingDims := []
  startIndicesBatchingDims := []
  startIndexMap := [0]
  indexVectorDim := 1
  sliceSizes := ![1, 128]
  wf := gather_S50000x128_S800000x1_S800000x128_1_0_n_n_0_1_1128_wf
def scatter_S50000x128_S800000x1_S800000x128_1_0_0_1 : ScatterDims S50000x128 S800000x1 S800000x128 where
  updateWindowDims := [1]
  insertedWindowDims := [0]
  scatterDimsToOperandDims := [0]
  indexVectorDim := 1
  wf := scatter_S50000x128_S800000x1_S800000x128_1_0_0_1_wf
def scatter_S50000_S800000x1_S800000_n_0_0_1 : ScatterDims S50000 S800000x1 S800000 where
  updateWindowDims := []
  insertedWindowDims := [0]
  scatterDimsToOperandDims := [0]
  indexVectorDim := 1
  wf := scatter_S50000_S800000x1_S800000_n_0_0_1_wf
def dot_S50000x128_S128x128_S50000x128_1_0_0_1_n_n : DotDims S50000x128 S128x128 S50000x128 where
  lhsContracting := [1]
  rhsContracting := [0]
  lhsNonContracting := [0]
  rhsNonContracting := [1]
  lhsBatch := []
  rhsBatch := []
  wf := dot_S50000x128_S128x128_S50000x128_1_0_0_1_n_n_wf
def dot_S50000x128_S128x64_S50000x64_1_0_0_1_n_n : DotDims S50000x128 S128x64 S50000x64 where
  lhsContracting := [1]
  rhsContracting := [0]
  lhsNonContracting := [0]
  rhsNonContracting := [1]
  lhsBatch := []
  rhsBatch := []
  wf := dot_S50000x128_S128x64_S50000x64_1_0_0_1_n_n_wf

class Facts : Prop extends Facts₀ where

variable [Facts]
-- ==== Proof.KernelRun.lean ====
/-
  The tiled program's run, with its result named.

  The program is three tiled regions among stretches of host operations. Its run is followed segment by segment:
  the buffer contents at each boundary are a fold from the launch memory — a stretch of host operations applies its
  operations' functions, a region leaves in each of its arrays what its write-backs leave and every other buffer as it
  found it. Every weakly fair execution terminates, nothing faults, and the final memory holds in every buffer that
  outlives the regions the last boundary's contents. Read at the result buffer this names the result: the contents
  the last region leaves in its output array. Read at the arguments it says they end as launched.
-/
import proofs.«156522_j45260365365373_2_alg».proof.Proof.Gen.KernelIdeal.Frame

set_option maxRecDepth 16384

noncomputable section

namespace Cert.KernelIdeal.RunValue

open Cert.KernelIdeal Cert.KernelIdeal.Gen
open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

variable {F : FTy → Type} [FloatOps F]

local notation "𝕄" => MT nD τ sig Unit (Elt F) ℕ (UR sig nD τ) ℕ

variable (m : (ℓ : Loc nD τ sig) → Buf (Elt F) ℓ) (ρ : Dev nD → PrngReg)

set_option backward.isDefEq.respectTransparency.types false in
/-- From any memory with zero counters every weakly fair execution of the program terminates without a fault, the
    result buffer holding what the last boundary's contents give it and every argument as launched. -/
theorem run_result : θ_run defs (onTc (τ := τ) (main (F := F))) ⟨m, fun _ => 0, ρ⟩ (fun r => ∀ c : Dev nD,
      r.2.mem ((c.tc : Thread nD τ).loc main_v58) = W6 m ρ c (Proc.devRef .tc main_v58)
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4)
      ∧ r.2.mem ((c.tc : Thread nD τ).loc main_arg5) = m ((c.tc : Thread nD τ).loc main_arg5)
      ∧ r.2.mem ((c.tc : Thread nD τ).loc main_arg6) = m ((c.tc : Thread nD τ).loc main_arg6)
      ∧ r.2.mem ((c.tc : Thread nD τ).loc main_arg7) = m ((c.tc : Thread nD τ).loc main_arg7)
      ∧ r.2.mem ((c.tc : Thread nD τ).loc main_arg8) = m ((c.tc : Thread nD τ).loc main_arg8)
      ∧ r.2.mem ((c.tc : Thread nD τ).loc main_arg9) = m ((c.tc : Thread nD τ).loc main_arg9)
      ∧ r.2.mem ((c.tc : Thread nD τ).loc main_arg10) = m ((c.tc : Thread nD τ).loc main_arg10)
      ∧ r.2.mem ((c.tc : Thread nD τ).loc main_arg11) = m ((c.tc : Thread nD τ).loc main_arg11)
      ∧ r.2.mem ((c.tc : Thread nD τ).loc main_arg12) = m ((c.tc : Thread nD τ).loc main_arg12)
      ∧ r.2.mem ((c.tc : Thread nD τ).loc main_arg13) = m ((c.tc : Thread nD τ).loc main_arg13)
      ∧ r.2.mem ((c.tc : Thread nD τ).loc main_arg14) = m ((c.tc : Thread nD τ).loc main_arg14)) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl, fun _ => .rfl, fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W6 m ρ c b)
    (hfin := fun c s' => by
      iintro ⟨⟨Hh, -⟩, HSI⟩
      unfold StableHlo.held
      imodintro
      iapply (pointsTo_read_all (Pipeline.ucRefs τ sig) (fun b => (((c : Thread nD τ)).1, b)) (W6 m ρ c) s')
      isplitl [Hh] <;> iassumption)
    (hQ := fun s h c =>
      ⟨h c _ (mem_uc main_v58 (by decide)),
       (h c _ (mem_uc main_arg0 (by decide))).trans (W6_main_arg0 m ρ c),
       (h c _ (mem_uc main_arg1 (by decide))).trans (W6_main_arg1 m ρ c),
       (h c _ (mem_uc main_arg2 (by decide))).trans (W6_main_arg2 m ρ c),
       (h c _ (mem_uc main_arg3 (by decide))).trans (W6_main_arg3 m ρ c),
       (h c _ (mem_uc main_arg4 (by decide))).trans (W6_main_arg4 m ρ c),
       (h c _ (mem_uc main_arg5 (by decide))).trans (W6_main_arg5 m ρ c),
       (h c _ (mem_uc main_arg6 (by decide))).trans (W6_main_arg6 m ρ c),
       (h c _ (mem_uc main_arg7 (by decide))).trans (W6_main_arg7 m ρ c),
       (h c _ (mem_uc main_arg8 (by decide))).trans (W6_main_arg8 m ρ c),
       (h c _ (mem_uc main_arg9 (by decide))).trans (W6_main_arg9 m ρ c),
       (h c _ (mem_uc main_arg10 (by decide))).trans (W6_main_arg10 m ρ c),
       (h c _ (mem_uc main_arg11 (by decide))).trans (W6_main_arg11 m ρ c),
       (h c _ (mem_uc main_arg12 (by decide))).trans (W6_main_arg12 m ρ c),
       (h c _ (mem_uc main_arg13 (by decide))).trans (W6_main_arg13 m ρ c),
       (h c _ (mem_uc main_arg14 (by decide))).trans (W6_main_arg14 m ρ c)⟩)

end Cert.KernelIdeal.RunValue

end
-- ==== Proof.Spec.lean ====
/-
  One layer of neighbourhood averaging followed by two linear maps, and the normalisation of a row, as plain
  functions of rows over the extended reals.

  A node's update takes the average `a` of its neighbours' feature rows and its own row `x` (128 channels each)
  to `lin Wl bl Wr a x q = (∑ k, a k · Wl q k + bl q) + ∑ k, x k · Wr q k` for each output channel `q`.
  The hidden layers clamp this below at zero and then normalise the row: with `mu h` the mean of the 128 entries
  of `h` and `var h` the mean of the squared deviations from it, entry `q` becomes
  `(h q - mu h) · rsqrt (var h + eps) · g q + b q`.
  Every entry of a layer's result depends on ONE row of each of its two row arguments: `layerAct_congr`,
  `layerLin_congr`. This is what lets a computation done block of rows by block of rows be compared with one done
  on the whole array.
  The average itself is a sum `s` divided by a count clamped below at one, `s / max c 1`, or the product of `s` with
  the reciprocal `1 / max c 1`; on the extended reals the two agree for every `s` because the divisor is not zero
  (`mul_recip_eq_div`).
-/
import Idealize.ShloMosaic.PureOps.Ideal
import Idealize.ShloMosaic.PureOps.Ideal.Laws
import Idealize.ShloMosaic.Lib.ValueIdx

noncomputable section

namespace Cert.Sage

open Idealize.ShloMosaic Idealize.ShloMosaic.ValueIdx
open scoped BigOperators

/-- The word of `128.0`, the divisor of both means, read as an extended real. -/
abbrev c128 : EReal := Ideal.ofBits .f32 0x43000000#32
/-- The word of the variance's offset. -/
abbrev eps : EReal := Ideal.ofBits .f32 0x3727C5AC#32
/-- The word of `1.0`. -/
abbrev one32 : EReal := Ideal.ofBits .f32 0x3F800000#32

/-- A matrix as a function of its two coordinates. -/
def mat {a b : ℕ} (A : (⟨2, ![a, b]⟩ : Shape).Idx → EReal) : Fin a → Fin b → EReal := fun p q => A (ix2 p q)
/-- A vector as a function of its coordinate. -/
def vec {a : ℕ} (v : (⟨1, ![a]⟩ : Shape).Idx → EReal) : Fin a → EReal := fun p => v (ix1 p)
/-- The one row of a one-row matrix. -/
def row0 {b : ℕ} (A : (⟨2, ![1, b]⟩ : Shape).Idx → EReal) : Fin b → EReal := fun q => A (ix2 (0 : Fin 1) q)

/-- The two linear maps and the bias, at output channel `q`. -/
def lin {C : ℕ} (Wl : Fin C → Fin 128 → EReal) (bl : Fin C → EReal) (Wr : Fin C → Fin 128 → EReal)
    (a x : Fin 128 → EReal) (q : Fin C) : EReal :=
  (∑ k : Fin 128, a k * Wl q k + bl q) + ∑ k : Fin 128, x k * Wr q k

/-- The mean of a row of 128 entries. -/
def mu (h : Fin 128 → EReal) : EReal := Ideal.div (∑ k : Fin 128, h k) c128
/-- The mean of the squared deviations from the mean. -/
def var (h : Fin 128 → EReal) : EReal := Ideal.div (∑ k : Fin 128, (h k - mu h) * (h k - mu h)) c128
/-- The normalised row, scaled by `g` and shifted by `b`, at channel `q`. -/
def lnorm (g b : Fin 128 → EReal) (h : Fin 128 → EReal) (q : Fin 128) : EReal :=
  (h q - mu h) * Ideal.rsqrt (var h + eps) * g q + b q

/-- A hidden layer at node `r`, channel `q`: the linear part clamped below at zero, then normalised. -/
def layerAct {n : ℕ} (M X : Fin n → Fin 128 → EReal) (Wl : Fin 128 → Fin 128 → EReal) (bl : Fin 128 → EReal)
    (Wr : Fin 128 → Fin 128 → EReal) (g b : Fin 128 → EReal) (r : Fin n) (q : Fin 128) : EReal :=
  lnorm g b (fun q' => max (lin Wl bl Wr (M r) (X r) q') 0) q

/-- The last layer at node `r`, channel `q`: the linear part alone. -/
def layerLin {n C : ℕ} (M X : Fin n → Fin 128 → EReal) (Wl : Fin C → Fin 128 → EReal) (bl : Fin C → EReal)
    (Wr : Fin C → Fin 128 → EReal) (r : Fin n) (q : Fin C) : EReal :=
  lin Wl bl Wr (M r) (X r) q

/-- A hidden layer's entry at node `r` reads only row `r` of its two row arguments. -/
theorem layerAct_congr {n n' : ℕ} (M X : Fin n → Fin 128 → EReal) (M' X' : Fin n' → Fin 128 → EReal)
    (Wl : Fin 128 → Fin 128 → EReal) (bl : Fin 128 → EReal) (Wr : Fin 128 → Fin 128 → EReal) (g b : Fin 128 → EReal)
    (r : Fin n) (r' : Fin n') (hM : M r = M' r') (hX : X r = X' r') (q : Fin 128) :
    layerAct M X Wl bl Wr g b r q = layerAct M' X' Wl bl Wr g b r' q := by
  unfold layerAct; rw [hM, hX]

/-- The same for the last layer. -/
theorem layerLin_congr {n n' C : ℕ} (M X : Fin n → Fin 128 → EReal) (M' X' : Fin n' → Fin 128 → EReal)
    (Wl : Fin C → Fin 128 → EReal) (bl : Fin C → EReal) (Wr : Fin C → Fin 128 → EReal)
    (r : Fin n) (r' : Fin n') (hM : M r = M' r') (hX : X r = X' r') (q : Fin C) :
    layerLin M X Wl bl Wr r q = layerLin M' X' Wl bl Wr r' q := by
  unfold layerLin; rw [hM, hX]

/-- The word of `1.0` denotes one. -/
theorem one32_eq : one32 = 1 := by
  simp [one32, Ideal.ofBits, Ideal.ieee]
  rw [← EReal.coe_mul]
  norm_num

/-- A count clamped below at one is not zero. -/
theorem max_one_ne_zero (c : EReal) : max c one32 ≠ 0 := by
  rw [one32_eq]
  exact ne_of_gt (lt_of_lt_of_le zero_lt_one (le_max_right c 1))

/-- Multiplying by the reciprocal of a nonzero divisor is dividing by it, for every extended real `s`. -/
theorem mul_recip_eq_div (s y : EReal) (hy : y ≠ 0) : s * Ideal.div one32 y = Ideal.div s y := by
  unfold Ideal.div
  rw [if_neg hy, if_neg hy, one32_eq, one_mul]

end Cert.Sage

end
-- ==== Proof.LibKeepdims.lean ====
/-
  A sum along the rows of a matrix kept as a column, read at an index.

  `jnp.sum(x, axis=-1, keepdims=True)` of an `[a, b]` block is printed as three steps: the sum over the second
  axis into an `[a]` vector, that vector re-laid as an `[a, 1]` column, and (where it meets the block again) the
  column repeated along the rows to `[a, b]`. Read at an index `(p, c)` each step is elementary:
  * the sum at `p` is `∑ k, x (p, k)` over the `b` entries of row `p` (at the exact instance, with the neutral
    accumulator, which the reading drops);
  * the column at `(p, 0)` is the vector at `p`: row-major positions `p · 1 + 0 = p`;
  * the repeated column at `(p, c)` is the column at `(p, 0)`, whatever `c` is.
  All three are stated for any extents `a`, `b`.
-/
import Idealize.ShloMosaic.Lib.ValueLayout
import Idealize.ShloMosaic.PureOps.Ideal.Laws

noncomputable section

namespace Cert.LibKeepdims

open Idealize.ShloMosaic Idealize.ShloMosaic.ValueIdx

variable {α : Type}

/-- An `[a]` vector re-laid as an `[a, 1]` column reads, at `(i, u)`, the vector at `i`, whatever the unit
    coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column repeated along the rows to `[a, b]` reads, at `(p, c)`, the column's entry `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

/-- At the exact instance, the sum of an `[a, b]` block over its second axis, from the neutral accumulator, is at
    `p` the sum of the `b` entries of row `p`. -/
theorem multiReduction_add_row {a b : ℕ} {φ : FTy} (src : FVec Ideal ⟨2, ![a, b]⟩ φ) (acc : BitVec φ.bits)
    (h : Shape.Reduces ⟨2, ![a, b]⟩ [1] ⟨1, ![a]⟩) (hφ : FKind.Formats φ) (hacc : acc = FKind.add.neutral φ hφ) (p : Fin a) :
    multiReduction .add [1] ⟨1, ![a]⟩ src acc h hφ hacc (ix1 p) = ∑ k : Fin b, src (ix2 p k) :=
  (Ideal.multiReduction_add_single src acc h hφ hacc (ix1 p)).trans
    (Finset.sum_congr rfl fun k _ => congrArg src (funext fun ax => Fin.ext (by
      match ax with
      | ⟨0, _⟩ => rfl
      | ⟨1, _⟩ => rfl)))

end Cert.LibKeepdims

end
-- ==== Proof.LibPlainMatmul.lean ====
/-
  Two families of small facts about arrays read at coordinates, over literal rank-2 and rank-3 shapes of any sizes.

  * A plain rows-by-columns matrix product — the left operand contracted on its columns, the right on its rows, no
    batch axis — into the zero accumulator, over the extended reals: at `(p, q)` it is the sum over the shared axis
    of the products of row `p` of the left operand and column `q` of the right. A product record of any program
    with these dimension numbers unifies with `plainDims` by unfolding, so the lemma applies to it through
    `refine (matmul_zero_plain _ _ _ p q).trans ?_`.
  * Unit axes added by a shape cast (`[a, c] → [a, 1, c]`, `[c] → [1, 1, c]`) and broadcasts along one or two unit
    axes (`[a, 1, c]`, `[1, b, c]`, `[1, 1, c] → [a, b, c]`), each read at explicit coordinates: a unit axis
    contributes nothing to the row-major position, and a broadcast reads its operand at coordinate zero of the
    axes it spreads.
-/
import Idealize.ShloMosaic.Lib.ValueIdx
import Idealize.ShloMosaic.Lib.Pipeline.Value
import Idealize.ShloMosaic.Lib.ValueLayout
import Idealize.ShloMosaic.PureOps.Ideal.Laws

noncomputable section

namespace Cert.LibPlainMatmul

open Idealize.ShloMosaic Idealize.ShloMosaic.ValueIdx
open scoped BigOperators

/-! ## A rows-by-columns product into the zero accumulator -/

/-- The dimension numbers of a plain m × k by k × n product: the left operand contracted on its columns, the right on
    its rows, no batch axis. -/
abbrev plainDims {m k n : Nat} (wf : DotDims.WF (⟨2, ![m, k]⟩ : Shape) ⟨2, ![k, n]⟩ ⟨2, ![m, n]⟩ [1] [0] [0] [1] [] []) :
    DotDims ⟨2, ![m, k]⟩ ⟨2, ![k, n]⟩ ⟨2, ![m, n]⟩ := ⟨[1], [0], [0], [1], [], [], wf⟩

section PlainDims
variable {m k n : Nat} (wf : DotDims.WF (⟨2, ![m, k]⟩ : Shape) ⟨2, ![k, n]⟩ ⟨2, ![m, n]⟩ [1] [0] [0] [1] [] [])

/-- The left operand is read in the result's row … -/
theorem plain_lhs_row (j : (⟨2, ![m, n]⟩ : Shape).Idx) (c : (plainDims wf).contr.Idx) :
    ((plainDims wf).lhsIdx j c 0).val = (j 0).val := by
  unfold DotDims.lhsIdx
  rw [dif_neg (show ¬(0 : Fin (⟨2, ![m, k]⟩ : Shape).rank) ∈ (plainDims wf).lhsBatch from List.not_mem_nil),
    dif_pos (show (0 : Fin (⟨2, ![m, k]⟩ : Shape).rank) ∈ (plainDims wf).lhsNonContracting from List.mem_singleton.mpr rfl)]
  rfl

/-- … and the right operand in the result's column. -/
theorem plain_rhs_col (j : (⟨2, ![m, n]⟩ : Shape).Idx) (c : (plainDims wf).contr.Idx) :
    ((plainDims wf).rhsIdx j c 1).val = (j 1).val := by
  unfold DotDims.rhsIdx
  rw [dif_neg (show ¬(1 : Fin (⟨2, ![k, n]⟩ : Shape).rank) ∈ (plainDims wf).rhsBatch from List.not_mem_nil),
    dif_pos (show (1 : Fin (⟨2, ![k, n]⟩ : Shape).rank) ∈ (plainDims wf).rhsNonContracting from List.mem_singleton.mpr rfl)]
  rfl

/-- Such a product into the zero accumulator reads, at (p, q), the sum over the shared axis of the products of row p
    of the left operand and column q of the right. -/
theorem matmul_zero_plain {φ₁ φ₂ : FTy} (l : FVec Ideal ⟨2, ![m, k]⟩ φ₁) (r : FVec Ideal ⟨2, ![k, n]⟩ φ₂)
    (p : Fin m) (q : Fin n) :
    FloatOps.matmul (plainDims wf) none l r (constant (F := Ideal) ⟨2, ![m, n]⟩ .f32 0x00000000#32) (ix2 p q)
      = ∑ c : Fin k, l (ix2 p c) * r (ix2 c q) := by
  rw [Ideal.matmul_constant_zero_apply, ← Equiv.sum_comp (contrEquiv1 (plainDims wf) k rfl rfl).symm]
  refine Finset.sum_congr rfl fun c _ => ?_
  have hc := contrEquiv1_symm_val (plainDims wf) k rfl rfl c
  have el : (plainDims wf).lhsIdx (ix2 p q) ((contrEquiv1 (plainDims wf) k rfl rfl).symm c) = ix2 p c :=
    funext fun a => Fin.ext (by
      match a with
      | ⟨0, _⟩ => exact plain_lhs_row wf _ _
      | ⟨1, _⟩ => exact ((plainDims wf).lhsIdx_val_of_single rfl _ _).trans hc)
  have er : (plainDims wf).rhsIdx (ix2 p q) ((contrEquiv1 (plainDims wf) k rfl rfl).symm c) = ix2 c q :=
    funext fun a => Fin.ext (by
      match a with
      | ⟨0, _⟩ => exact ((plainDims wf).rhsIdx_val_of_single rfl _ _).trans hc
      | ⟨1, _⟩ => exact plain_rhs_col wf _ _)
  rw [el, er]

end PlainDims

/-! ## Unit axes added, and broadcasts along an axis, read at coordinates -/

section Layout
variable {α : Type}

/-- An [a, c] array cast to [a, 1, c] reads, at (p, z, s), the operand at (p, s). -/
theorem shapeCast_ac_a1c_apply {a c : ℕ} (x : (⟨2, ![a, c]⟩ : Shape).Idx → α)
    (h : (⟨2, ![a, c]⟩ : Shape).ShapeCasts ⟨3, ![a, 1, c]⟩) (p : Fin a) (z : Fin 1) (s : Fin c) :
    shapeCast ⟨3, ![a, 1, c]⟩ x h (ix3 p z s) = x (ix2 p s) :=
  shapeCast_apply x h _ _ (by
    have hz : z.val = 0 := by omega
    rw [Shape.rowMajor_val_three, Shape.rowMajor_val_two]
    show p.val * c + s.val = (p.val * 1 + z.val) * c + s.val
    rw [hz, Nat.mul_one, Nat.add_zero])

/-- A [c] array cast to [1, 1, c] reads, at (y, z, s), the operand at s. -/
theorem shapeCast_c_11c_apply {c : ℕ} (x : (⟨1, ![c]⟩ : Shape).Idx → α)
    (h : (⟨1, ![c]⟩ : Shape).ShapeCasts ⟨3, ![1, 1, c]⟩) (y z : Fin 1) (s : Fin c) :
    shapeCast ⟨3, ![1, 1, c]⟩ x h (ix3 y z s) = x (ix1 s) :=
  shapeCast_apply x h _ _ (by
    have hy : y.val = 0 := by omega
    have hz : z.val = 0 := by omega
    rw [Shape.rowMajor_val_three, Shape.rowMajor_val_one]
    show s.val = (y.val * 1 + z.val) * c + s.val
    simp only [hy, hz, Nat.zero_mul, Nat.zero_add, Nat.mul_one])

/-- An [a, 1, c] array broadcast to [a, b, c] reads, at (p, q, s), the operand at (p, 0, s). -/
theorem broadcastTo_a1c_abc_apply {a b c : ℕ} (x : (⟨3, ![a, 1, c]⟩ : Shape).Idx → α)
    (h : (⟨3, ![a, 1, c]⟩ : Shape).Broadcasts ⟨3, ![a, b, c]⟩) (p : Fin a) (q : Fin b) (s : Fin c) :
    broadcastTo ⟨3, ![a, b, c]⟩ x h (ix3 p q s) = x (ix3 p (0 : Fin 1) s) := by
  refine broadcastTo_apply x h (ix3 p q s) (ix3 p (0 : Fin 1) s) fun ax => ?_
  match ax with
  | ⟨0, _⟩ =>
    show p.val = if a = 1 then 0 else p.val
    split
    · have := p.isLt; omega
    · rfl
  | ⟨1, _⟩ => rfl
  | ⟨2, _⟩ =>
    show s.val = if c = 1 then 0 else s.val
    split
    · have := s.isLt; omega
    · rfl

/-- A [1, b, c] array broadcast to [a, b, c] reads, at (p, q, s), the operand at (0, q, s). -/
theorem broadcastTo_1bc_abc_apply {a b c : ℕ} (x : (⟨3, ![1, b, c]⟩ : Shape).Idx → α)
    (h : (⟨3, ![1, b, c]⟩ : Shape).Broadcasts ⟨3, ![a, b, c]⟩) (p : Fin a) (q : Fin b) (s : Fin c) :
    broadcastTo ⟨3, ![a, b, c]⟩ x h (ix3 p q s) = x (ix3 (0 : Fin 1) q s) := by
  refine broadcastTo_apply x h (ix3 p q s) (ix3 (0 : Fin 1) q s) fun ax => ?_
  match ax with
  | ⟨0, _⟩ => rfl
  | ⟨1, _⟩ =>
    show q.val = if b = 1 then 0 else q.val
    split
    · have := q.isLt; omega
    · rfl
  | ⟨2, _⟩ =>
    show s.val = if c = 1 then 0 else s.val
    split
    · have := s.isLt; omega
    · rfl

/-- A [1, 1, c] array broadcast to [a, b, c] reads, at (p, q, s), the operand at (0, 0, s). -/
theorem broadcastTo_11c_abc_apply {a b c : ℕ} (x : (⟨3, ![1, 1, c]⟩ : Shape).Idx → α)
    (h : (⟨3, ![1, 1, c]⟩ : Shape).Broadcasts ⟨3, ![a, b, c]⟩) (p : Fin a) (q : Fin b) (s : Fin c) :
    broadcastTo ⟨3, ![a, b, c]⟩ x h (ix3 p q s) = x (ix3 (0 : Fin 1) (0 : Fin 1) s) := by
  refine broadcastTo_apply x h (ix3 p q s) (ix3 (0 : Fin 1) (0 : Fin 1) s) fun ax => ?_
  match ax with
  | ⟨0, _⟩ => rfl
  | ⟨1, _⟩ => rfl
  | ⟨2, _⟩ =>
    show s.val = if c = 1 then 0 else s.val
    split
    · have := s.isLt; omega
    · rfl

end Layout

end Cert.LibPlainMatmul

end
-- ==== Proof.KernelBody.lean ====
/-
  What each layer's tiled body computes on one block of 2000 rows, entry by entry.

  A hidden layer's body takes a block `M` of neighbourhood averages and a block `X` of the nodes' own rows (2000 rows
  of 128 channels each), two 128 × 128 weights, a bias row and the two rows `g`, `beta` of the normalisation. It forms
  `M · Wlᵀ + bias + X · Wrᵀ`, clamps it below at zero, and normalises every row: the row's mean is taken off and the
  result is scaled by the reciprocal root of the row's variance plus a small offset, then by `g`, and shifted by
  `beta`. The last layer's body is the linear part alone, onto 64 channels.

  Read at an entry `(p, q)` over the extended reals, nothing of the arrangement is left:
  * a product against a transposed weight is `∑ c, l (p, c) · W (q, c)` (`matmulT_apply`): the row of the left operand
    against the ROW of the weight;
  * a row broadcast over the block reads its one row; a same-shape re-laying is the identity; the change of float
    format before each product is the identity over the extended reals;
  * the sum of each row kept as a column, divided by 128 and spread back over the row, is the row's mean at every
    entry of that row (`meanCol_apply`, `centred_apply`); done again on the squares of the centred block it is the
    row's variance (`varCol_apply`).
  So the entry `(p, q)` of a hidden layer's block is `layerAct` at row `p` of the two blocks (`out0_7_apply`,
  `out1_7_apply`), and that of the last layer's block is `layerLin` (`out2_5_apply`): each depends on row `p` of
  the blocks only.
-/
import proofs.«156522_j45260365365373_2_alg».proof.Proof.Gen.KernelIdeal.Frame
import proofs.«156522_j45260365365373_2_alg».proof.Proof.Spec
import proofs.«156522_j45260365365373_2_alg».proof.Proof.LibKeepdims
import proofs.«156522_j45260365365373_2_alg».proof.Proof.LibPlainMatmul

noncomputable section

namespace Cert.Sage.Body

open Idealize.ShloMosaic Idealize.ShloMosaic.ValueIdx Idealize.SL.Sem
open Cert.Sage Cert.KernelIdeal Cert.KernelIdeal.Gen Cert.LibPlainMatmul Cert.LibKeepdims
open scoped BigOperators

/-! ## The last layer's body -/

/-- A rows-by-columns product of `l` with the transpose of a weight `W`, into the zero accumulator: at `(p, q)`
    the sum over the shared axis of row `p` of `l` against ROW `q` of `W`. -/
theorem matmulT_apply {m k n : Nat}
    (wf : DotDims.WF (⟨2, ![m, k]⟩ : Shape) ⟨2, ![k, n]⟩ ⟨2, ![m, n]⟩ [1] [0] [0] [1] [] [])
    (ht : (⟨2, ![n, k]⟩ : Shape).Transposes [1, 0] ⟨2, ![k, n]⟩)
    {φ₁ φ₂ : FTy} (l : FVec Ideal ⟨2, ![m, k]⟩ φ₁) (W : FVec Ideal ⟨2, ![n, k]⟩ φ₂) (p : Fin m) (q : Fin n) :
    FloatOps.matmul (plainDims wf) none l (transpose ⟨2, ![k, n]⟩ [1, 0] W ht)
        (constant (F := Ideal) ⟨2, ![m, n]⟩ .f32 0x00000000#32) (ix2 p q)
      = ∑ c : Fin k, l (ix2 p c) * W (ix2 q c) :=
  (matmul_zero_plain wf l _ p q).trans
    (Finset.sum_congr rfl fun c _ => congrArg (l (ix2 p c) * ·) (transpose_ix2_apply W ht c q))

/-- The last layer's block at `(p, q)`: the linear part of row `p` of the two input blocks. -/
theorem k2_pay1_apply (v0 v3 : Vec Ideal S2000x128 .f32) (v6 v8 : Vec Ideal S64x128 .f32) (v12 : Vec Ideal S1x64 .f32)
    (p : Fin 2000) (q : Fin 64) :
    k2_pay1 (F := Ideal) v0 v3 v6 v8 v12 (ix2 p q) = lin (mat v6) (row0 v12) (mat v8) (mat v0 p) (mat v3 p) q := by
  unfold k2_pay1 lin
  simp only [addf_apply, shapeCast_self]
  refine congrArg₂ (· + ·) (congrArg₂ (· + ·) ?_ ?_) ?_
  · exact matmulT_apply _ _ v0 v6 p q
  · exact broadcastTo_1b_ab_apply v12 _ p q
  · exact matmulT_apply _ _ v3 v8 p q

/-- The zero offset of a whole-buffer rectangle. -/
theorem off_zero : (![0, 0] : Fin 2 → Nat) = fun _ => 0 := funext fun a => by fin_cases a <;> rfl

/-- What the last layer's body leaves in its output block, entry by entry: the linear part of row `p`. -/
theorem out2_5_apply (x0 x1 : Vec Ideal S2000x128 .f32) (x2 : Vec Ideal S64x128 .f32) (x3 : Vec Ideal S1x64 .f32)
    (x4 : Vec Ideal S64x128 .f32) (p : Fin 2000) (q : Fin 64) :
    out2_5 (F := Ideal) x0 x1 x2 x3 x4 (ix2 p q) = layerLin (mat x0) (mat x1) (mat x2) (row0 x3) (mat x4) p q := by
  unfold out2_5
  rw [View.canon_unit_zero off_zero]
  simp only [View.ld_unit_zero (S := S2000x128) off_zero, View.ld_unit_zero (S := S64x128) off_zero,
    View.ld_unit_zero (S := S1x64) off_zero]
  exact k2_pay1_apply x0 x1 x2 x4 x3 p q

/-! ## The row normalisation, read at an index -/

/-- The reciprocal square root of an array, read at an index. -/
theorem rsqrt_apply {s : Shape} {φ : FTy} (a : FVec Ideal s φ) (i : s.Idx) : rsqrt a i = Ideal.rsqrt (a i) := rfl

/-- A scalar constant over the extended reals is its word's value. -/
theorem scalar_ofBits {φ : FTy} (b : BitVec φ.bits) : Scalar.ofBits (F := Ideal) φ b = Ideal.ofBits φ b := rfl

/-- A row `h` with its mean taken off, scaled by the reciprocal root of its variance plus the offset. -/
def normRow (h : Fin 128 → EReal) (q : Fin 128) : EReal := (h q - mu h) * Ideal.rsqrt (var h + eps)

/-- The means of the rows of a block, as a column: the row sums over 128. -/
def meanCol (hφ : FKind.Formats .f32) (hacc : (0x00000000#32 : BitVec (FTy.f32).bits) = FKind.add.neutral .f32 hφ)
    (H : FVec Ideal S2000x128 .f32) : FVec Ideal S2000x1 .f32 :=
  divf (shapeCast S2000x1 (multiReduction .add [1] S2000 H 0x00000000#32 reduces_S2000x128_S2000 hφ hacc) shapeCasts_S2000_S2000x1)
    (broadcast S2000x1 (Scalar.ofBits .f32 0x43000000#32))

/-- A block with each row's mean taken off. -/
def centred (hφ : FKind.Formats .f32) (hacc : (0x00000000#32 : BitVec (FTy.f32).bits) = FKind.add.neutral .f32 hφ)
    (H : FVec Ideal S2000x128 .f32) : FVec Ideal S2000x128 .f32 :=
  subf H (broadcastTo S2000x128 (meanCol hφ hacc H) broadcasts_S2000x1_S2000x128)

/-- The normalised block: the centred block times the reciprocal root of (the mean of its squares plus the offset). -/
def normBlock (hφ : FKind.Formats .f32) (hacc : (0x00000000#32 : BitVec (FTy.f32).bits) = FKind.add.neutral .f32 hφ)
    (H : FVec Ideal S2000x128 .f32) : FVec Ideal S2000x128 .f32 :=
  mulf (centred hφ hacc H)
    (broadcastTo S2000x128
      (rsqrt (addf (meanCol hφ hacc (mulf (centred hφ hacc H) (centred hφ hacc H)))
        (broadcast S2000x1 (Scalar.ofBits .f32 0x3727C5AC#32))))
      broadcasts_S2000x1_S2000x128)

variable (hφ : FKind.Formats .f32) (hacc : (0x00000000#32 : BitVec (FTy.f32).bits) = FKind.add.neutral .f32 hφ)

/-- The column of means at `(p, u)` is the mean of row `p`. -/
theorem meanCol_apply (H : FVec Ideal S2000x128 .f32) (p : Fin 2000) (u : Fin 1) :
    meanCol hφ hacc H (ix2 p u) = mu (mat H p) :=
  congrArg (Ideal.div · c128)
    ((shapeCast_a_a1_apply _ shapeCasts_S2000_S2000x1 p u).trans
      (multiReduction_add_row H _ reduces_S2000x128_S2000 hφ hacc p))

/-- The centred block at `(p, k)` is the entry less the mean of row `p`. -/
theorem centred_apply (H : FVec Ideal S2000x128 .f32) (p : Fin 2000) (k : Fin 128) :
    centred hφ hacc H (ix2 p k) = mat H p k - mu (mat H p) :=
  congrArg (H (ix2 p k) - ·)
    ((broadcastTo_a1_ab_apply _ broadcasts_S2000x1_S2000x128 p k).trans (meanCol_apply hφ hacc H p 0))

/-- The mean of the squares of the centred block, at `(p, u)`, is the variance of row `p`. -/
theorem varCol_apply (H : FVec Ideal S2000x128 .f32) (p : Fin 2000) (u : Fin 1) :
    meanCol hφ hacc (mulf (centred hφ hacc H) (centred hφ hacc H)) (ix2 p u) = var (mat H p) :=
  (meanCol_apply hφ hacc _ p u).trans
    (congrArg (fun r : Fin 128 → EReal => Ideal.div (∑ k : Fin 128, r k) c128)
      (funext fun k => congrArg₂ (· * ·) (centred_apply hφ hacc H p k) (centred_apply hφ hacc H p k)))

/-- The normalised block at `(p, q)` is the normalised row `p` at `q`. -/
theorem normBlock_apply (H : FVec Ideal S2000x128 .f32) (p : Fin 2000) (q : Fin 128) :
    normBlock hφ hacc H (ix2 p q) = normRow (mat H p) q :=
  congrArg₂ (· * ·) (centred_apply hφ hacc H p q)
    ((broadcastTo_a1_ab_apply _ broadcasts_S2000x1_S2000x128 p q).trans
      (congrArg (fun z => Ideal.rsqrt (z + eps)) (varCol_apply hφ hacc H p 0)))

/-! ## The hidden layers' bodies -/

/-- The hidden layers' product against a transposed 128 × 128 weight, at `(p, q)`. -/
theorem mm128_apply (l : FVec Ideal S2000x128 .bf16) (W : FVec Ideal S128x128 .bf16) (p : Fin 2000) (q : Fin 128) :
    matmul dot_S2000x128_S128x128_S2000x128_1_0_0_1_n_n none l
        (transpose S128x128 [1, 0] W transposes_S128x128_p1_0_S128x128)
        (constant (F := Ideal) S2000x128 .f32 0x00000000#32) (ix2 p q)
      = ∑ c : Fin 128, l (ix2 p c) * W (ix2 q c) :=
  matmulT_apply _ _ l W p q

/-- The first payload of the first hidden layer (everything up to the scaling by `g`): at `(p, q)`, the normalised
    row of the linear part of row `p` clamped below at zero. -/
theorem k0_pay2_apply (v0 v3 : Vec Ideal S2000x128 .f32) (v5 v7 : Vec Ideal S128x128 .f32) (v11 : Vec Ideal S1x128 .f32)
    (p : Fin 2000) (q : Fin 128) :
    k0_pay2 (F := Ideal) v0 v3 v5 v7 v11 (ix2 p q)
      = normRow (fun q' => max (lin (mat v5) (row0 v11) (mat v7) (mat v0 p) (mat v3 p) q') 0) q := by
  unfold k0_pay2
  refine (normBlock_apply _ _ _ p q).trans (congrArg (normRow · q) (funext fun k => ?_))
  show maximumf _ _ (ix2 p k) = _
  rw [maximumf_apply, addf_apply, addf_apply, mm128_apply, mm128_apply, broadcastTo_1b_ab_apply, broadcast_apply,
    shapeCast_self, shapeCast_self, scalar_ofBits, Ideal.ofBits_zero_f32]
  rfl

/-- Its second payload: the scaling by the row `g` and the shift by the row `beta`. -/
theorem k0_pay1_apply (v37 : FVec Ideal S2000x128 .f32) (v38 v42 : Vec Ideal S1x128 .f32) (p : Fin 2000) (q : Fin 128) :
    k0_pay1 (F := Ideal) v37 v38 v42 (ix2 p q) = v37 (ix2 p q) * row0 v38 q + row0 v42 q := by
  unfold k0_pay1
  rw [addf_apply, mulf_apply, broadcastTo_1b_ab_apply, broadcastTo_1b_ab_apply, shapeCast_self, shapeCast_self]
  rfl

/-- What the first hidden layer's body leaves in its output block, entry by entry: the layer at row `p`. -/
theorem out0_7_apply (x0 x1 : Vec Ideal S2000x128 .f32) (x2 : Vec Ideal S128x128 .f32) (x3 : Vec Ideal S1x128 .f32)
    (x4 : Vec Ideal S128x128 .f32) (x5 x6 : Vec Ideal S1x128 .f32) (p : Fin 2000) (q : Fin 128) :
    out0_7 (F := Ideal) x0 x1 x2 x3 x4 x5 x6 (ix2 p q)
      = layerAct (mat x0) (mat x1) (mat x2) (row0 x3) (mat x4) (row0 x5) (row0 x6) p q := by
  unfold out0_7
  rw [View.canon_unit_zero off_zero]
  simp only [View.ld_unit_zero (S := S2000x128) off_zero, View.ld_unit_zero (S := S128x128) off_zero,
    View.ld_unit_zero (S := S1x128) off_zero]
  rw [k0_pay1_apply, k0_pay2_apply]
  rfl

/-- The first payload of the second hidden layer (everything up to the scaling by `g`): at `(p, q)`, the normalised
    row of the linear part of row `p` clamped below at zero. -/
theorem k1_pay2_apply (v0 v3 : Vec Ideal S2000x128 .f32) (v5 v7 : Vec Ideal S128x128 .f32) (v11 : Vec Ideal S1x128 .f32)
    (p : Fin 2000) (q : Fin 128) :
    k1_pay2 (F := Ideal) v0 v3 v5 v7 v11 (ix2 p q)
      = normRow (fun q' => max (lin (mat v5) (row0 v11) (mat v7) (mat v0 p) (mat v3 p) q') 0) q := by
  unfold k1_pay2
  refine (normBlock_apply _ _ _ p q).trans (congrArg (normRow · q) (funext fun k => ?_))
  show maximumf _ _ (ix2 p k) = _
  rw [maximumf_apply, addf_apply, addf_apply, mm128_apply, mm128_apply, broadcastTo_1b_ab_apply, broadcast_apply,
    shapeCast_self, shapeCast_self, shapeCast_self, scalar_ofBits, Ideal.ofBits_zero_f32]
  rfl

/-- Its second payload: the scaling by the row `g` and the shift by the row `beta`. -/
theorem k1_pay1_apply (v37 : FVec Ideal S2000x128 .f32) (v38 v42 : Vec Ideal S1x128 .f32) (p : Fin 2000) (q : Fin 128) :
    k1_pay1 (F := Ideal) v37 v38 v42 (ix2 p q) = v37 (ix2 p q) * row0 v38 q + row0 v42 q := by
  unfold k1_pay1
  rw [addf_apply, mulf_apply, broadcastTo_1b_ab_apply, broadcastTo_1b_ab_apply, shapeCast_self, shapeCast_self]
  rfl

/-- What the second hidden layer's body leaves in its output block, entry by entry: the layer at row `p`. -/
theorem out1_7_apply (x0 x1 : Vec Ideal S2000x128 .f32) (x2 : Vec Ideal S128x128 .f32) (x3 : Vec Ideal S1x128 .f32)
    (x4 : Vec Ideal S128x128 .f32) (x5 x6 : Vec Ideal S1x128 .f32) (p : Fin 2000) (q : Fin 128) :
    out1_7 (F := Ideal) x0 x1 x2 x3 x4 x5 x6 (ix2 p q)
      = layerAct (mat x0) (mat x1) (mat x2) (row0 x3) (mat x4) (row0 x5) (row0 x6) p q := by
  unfold out1_7
  rw [View.canon_unit_zero off_zero]
  simp only [View.ld_unit_zero (S := S2000x128) off_zero, View.ld_unit_zero (S := S128x128) off_zero,
    View.ld_unit_zero (S := S1x128) off_zero]
  rw [k1_pay1_apply, k1_pay2_apply]
  rfl

end Cert.Sage.Body

end
-- ==== Proof.KernelBlocks.lean ====
/-
  From blocks of rows to whole arrays.

  Each of the three layers is computed block of 2000 rows by block of 2000 rows: at grid point `t` the body reads rows
  `2000·t … 2000·t + 1999` of its two row arguments (the neighbours' average and the nodes' own features) and the whole
  weight and bias arrays, and writes rows `2000·t … 2000·t + 1999` of the result. An entry of a layer at row `r` depends
  only on row `r` of the two row arguments (`layerAct_congr`, `layerLin_congr`), so what point `t` writes is block `t` of
  ONE function of the whole arrays (`G0`, `G1`, `G2`); the 25 blocks cover the 50000 rows (row `r` lies in block
  `r / 2000`), so after the region the result array is that function (`final0`, `final1`, `final2`), whatever the arrays
  held when the region was entered (`V`).
-/
import proofs.«156522_j45260365365373_2_alg».proof.Proof.Gen.KernelIdeal.Frame
import proofs.«156522_j45260365365373_2_alg».proof.Proof.Spec
import proofs.«156522_j45260365365373_2_alg».proof.Proof.KernelBody
import Idealize.ShloMosaic.Lib.Pipeline.Value
import Idealize.ShloMosaic.Lib.ValueIdx

noncomputable section

namespace Cert.Sage.Blocks

open Cert.KernelIdeal Cert.KernelIdeal.Gen Idealize.ShloMosaic Idealize.ShloMosaic.TcCoe Idealize.SL.Sem
open Idealize.ShloMosaic.Pipeline (Dat)
open Idealize.ShloMosaic.ValueIdx Cert.Sage

variable (V : (c : Dev nD) → (b : Ref sig .tc) → Buf (Elt Ideal) ((c : Thread nD τ).loc b))

/-! # The first hidden layer's region -/

/-- The block index maps over the grid: the three row-tiled windows are at block `(t, 0)`, the weight and bias windows at
    block `(0, 0)`. -/
theorem index0 : ∀ t : Fin cfg0.N,
    win0_0.index t (0 : Fin 2) = t.val ∧ win0_0.index t (1 : Fin 2) = 0
    ∧ win0_1.index t (0 : Fin 2) = t.val ∧ win0_1.index t (1 : Fin 2) = 0
    ∧ win0_7.index t (0 : Fin 2) = t.val ∧ win0_7.index t (1 : Fin 2) = 0
    ∧ win0_2.index t (0 : Fin 2) = 0 ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0 :=
  (by decide +kernel : ∀ t : Fin grid0.N, _)

/-- Row `p` of block `t` of the averaged-neighbour array is row `2000·t + p` of the array. -/
theorem iblk0_0_apply (c : Dev nD) (t : Fin cfg0.N) (p : Fin 2000) (k : Fin 128) (r : Fin 50000)
    (hr : r.val = 2000 * t.val + p.val) :
    (iblk0 V c 0 t : Vec Ideal S2000x128 .f32) (ix2 p k) = (V c main_v24 : S50000x128.Idx → EReal) (ix2 r k) := by
  have hi := index0 t
  unfold iblk0
  rw [View.read_apply]
  show V c main_v24 _ = V c main_v24 _
  refine congrArg _ (funext fun a => Fin.ext ?_)
  match a with
  | ⟨0, _⟩ => show win0_0.index t (0 : Fin 2) * 2000 + 1 * p.val = r.val; rw [hi.1, hr]; omega
  | ⟨1, _⟩ => show win0_0.index t (1 : Fin 2) * 128 + 1 * k.val = k.val; rw [hi.2.1]; omega

/-- Row `p` of block `t` of the feature array is row `2000·t + p` of the array. -/
theorem iblk0_1_apply (c : Dev nD) (t : Fin cfg0.N) (p : Fin 2000) (k : Fin 128) (r : Fin 50000)
    (hr : r.val = 2000 * t.val + p.val) :
    (iblk0 V c 1 t : Vec Ideal S2000x128 .f32) (ix2 p k) = (V c main_arg0 : S50000x128.Idx → EReal) (ix2 r k) := by
  have hi := index0 t
  unfold iblk0
  rw [View.read_apply]
  show V c main_arg0 _ = V c main_arg0 _
  refine congrArg _ (funext fun a => Fin.ext ?_)
  match a with
  | ⟨0, _⟩ => show win0_1.index t (0 : Fin 2) * 2000 + 1 * p.val = r.val; rw [hi.2.2.1, hr]; omega
  | ⟨1, _⟩ => show win0_1.index t (1 : Fin 2) * 128 + 1 * k.val = k.val; rw [hi.2.2.2.1]; omega

/-- The weight and bias windows' one block is the whole array. -/
theorem iblk0_2_eq (c : Dev nD) (t : Fin cfg0.N) :
    (iblk0 V c 2 t : Vec Ideal S128x128 .f32) = (V c main_arg2 : S128x128.Idx → EReal) := by
  have hi := index0 t
  funext y
  unfold iblk0
  rw [View.read_apply]
  show V c main_arg2 _ = V c main_arg2 _
  refine congrArg _ (funext fun a => Fin.ext ?_)
  match a with
  | ⟨0, _⟩ => show win0_2.index t (0 : Fin 2) * 128 + 1 * (y 0).val = (y 0).val; rw [hi.2.2.2.2.2.2.1]; omega
  | ⟨1, _⟩ => show win0_2.index t (1 : Fin 2) * 128 + 1 * (y 1).val = (y 1).val; rw [hi.2.2.2.2.2.2.2.1]; omega

theorem iblk0_3_eq (c : Dev nD) (t : Fin cfg0.N) :
    (iblk0 V c 3 t : Vec Ideal S1x128 .f32) = (V c main_v25 : S1x128.Idx → EReal) := by
  have hi := index0 t
  funext y
  unfold iblk0
  rw [View.read_apply]
  show V c main_v25 _ = V c main_v25 _
  refine congrArg _ (funext fun a => Fin.ext ?_)
  match a with
  | ⟨0, _⟩ => show win0_3.index t (0 : Fin 2) * 1 + 1 * (y 0).val = (y 0).val; rw [hi.2.2.2.2.2.2.2.2.1]; omega
  | ⟨1, _⟩ => show win0_3.index t (1 : Fin 2) * 128 + 1 * (y 1).val = (y 1).val; rw [hi.2.2.2.2.2.2.2.2.2.1]; omega

theorem iblk0_4_eq (c : Dev nD) (t : Fin cfg0.N) :
    (iblk0 V c 4 t : Vec Ideal S128x128 .f32) = (V c main_arg4 : S128x128.Idx → EReal) := by
  have hi := index0 t
  funext y
  unfold iblk0
  rw [View.read_apply]
  show V c main_arg4 _ = V c main_arg4 _
  refine congrArg _ (funext fun a => Fin.ext ?_)
  match a with
  | ⟨0, _⟩ => show win0_4.index t (0 : Fin 2) * 128 + 1 * (y 0).val = (y 0).val; rw [hi.2.2.2.2.2.2.2.2.2.2.1]; omega
  | ⟨1, _⟩ => show win0_4.index t (1 : Fin 2) * 128 + 1 * (y 1).val = (y 1).val; rw [hi.2.2.2.2.2.2.2.2.2.2.2.1]; omega

theorem iblk0_5_eq (c : Dev nD) (t : Fin cfg0.N) :
    (iblk0 V c 5 t : Vec Ideal S1x128 .f32) = (V c main_v26 : S1x128.Idx → EReal) := by
  have hi := index0 t
  funext y
  unfold iblk0
  rw [View.read_apply]
  show V c main_v26 _ = V c main_v26 _
  refine congrArg _ (funext fun a => Fin.ext ?_)
  match a with
  | ⟨0, _⟩ => show win0_5.index t (0 : Fin 2) * 1 + 1 * (y 0).val = (y 0).val; rw [hi.2.2.2.2.2.2.2.2.2.2.2.2.1]; omega
  | ⟨1, _⟩ => show win0_5.index t (1 : Fin 2) * 128 + 1 * (y 1).val = (y 1).val; rw [hi.2.2.2.2.2.2.2.2.2.2.2.2.2.1]; omega

theorem iblk0_6_eq (c : Dev nD) (t : Fin cfg0.N) :
    (iblk0 V c 6 t : Vec Ideal S1x128 .f32) = (V c main_v27 : S1x128.Idx → EReal) := by
  have hi := index0 t
  funext y
  unfold iblk0
  rw [View.read_apply]
  show V c main_v27 _ = V c main_v27 _
  refine congrArg _ (funext fun a => Fin.ext ?_)
  match a with
  | ⟨0, _⟩ => show win0_6.index t (0 : Fin 2) * 1 + 1 * (y 0).val = (y 0).val; rw [hi.2.2.2.2.2.2.2.2.2.2.2.2.2.2.1]; omega
  | ⟨1, _⟩ => show win0_6.index t (1 : Fin 2) * 128 + 1 * (y 1).val = (y 1).val; rw [hi.2.2.2.2.2.2.2.2.2.2.2.2.2.2.2]; omega

/-- The first hidden layer as one function of the whole arrays the region finds, index by index. -/
def G0 (c : Dev nD) : S50000x128.Idx → EReal := fun i =>
  layerAct (mat (V c main_v24)) (mat (V c main_arg0)) (mat (V c main_arg2)) (row0 (V c main_v25))
    (mat (V c main_arg4)) (row0 (V c main_v26)) (row0 (V c main_v27)) (i 0) (i 1)

/-- What the body leaves at row `p` of block `t` is the layer at row `2000·t + p` of the whole arrays: the entry reads one
    row of each row-tiled block, and the weights' blocks are the weights. -/
theorem out0_7_blk (c : Dev nD) (t : Fin cfg0.N) (p : Fin 2000) (q : Fin 128) (r : Fin 50000)
    (hr : r.val = 2000 * t.val + p.val) :
    out0_7 (F := Ideal) (iblk0 V c 0 t) (iblk0 V c 1 t) (iblk0 V c 2 t) (iblk0 V c 3 t) (iblk0 V c 4 t) (iblk0 V c 5 t)
        (iblk0 V c 6 t) (ix2 p q)
      = layerAct (mat (V c main_v24)) (mat (V c main_arg0)) (mat (V c main_arg2)) (row0 (V c main_v25))
          (mat (V c main_arg4)) (row0 (V c main_v26)) (row0 (V c main_v27)) r q := by
  refine (Body.out0_7_apply (iblk0 V c 0 t) (iblk0 V c 1 t) (iblk0 V c 2 t) (iblk0 V c 3 t) (iblk0 V c 4 t)
    (iblk0 V c 5 t) (iblk0 V c 6 t) p q).trans ?_
  rw [iblk0_2_eq V c t, iblk0_3_eq V c t, iblk0_4_eq V c t, iblk0_5_eq V c t, iblk0_6_eq V c t]
  exact layerAct_congr _ _ _ _ _ _ _ _ _ p r (funext fun k => iblk0_0_apply V c t p k r hr)
    (funext fun k => iblk0_1_apply V c t p k r hr) q

/-- What point `t` writes back is block `t` of `G0`. -/
theorem flushed0_eq (c : Dev nD) (t : Fin cfg0.N) :
    (dat0 (F := Ideal) V c).flushed 7 t = ((cfg0.win 7).blk t).view.read (Elt Ideal) (G0 V c) := by
  show (cfg0.win 7).cut (grid0.coords t) ((dat0 V c).after 7 t) = _
  rw [after0_7]
  have hi := index0 t
  funext y
  have h0 : (y 0).val < 2000 := (y 0).isLt
  have h1 : (y 1).val < 128 := (y 1).isLt
  have hN : t.val < 25 := lt_of_lt_of_eq t.isLt N_0
  rw [View.read_apply]
  have hy : (cfg0.win 7).xinj (grid0.coords t) y = ix2 (⟨(y 0).val, h0⟩ : Fin 2000) (⟨(y 1).val, h1⟩ : Fin 128) :=
    funext fun a => by match a with | ⟨0, _⟩ => rfl | ⟨1, _⟩ => rfl
  have he : ((cfg0.win 7).blk t).view.emb y
      = ix2 (⟨2000 * t.val + (y 0).val, by omega⟩ : Fin 50000) (⟨(y 1).val, h1⟩ : Fin 128) :=
    funext fun a => Fin.ext (by
      match a with
      | ⟨0, _⟩ => show win0_7.index t (0 : Fin 2) * 2000 + 1 * (y 0).val = 2000 * t.val + (y 0).val; rw [hi.2.2.2.2.1]; omega
      | ⟨1, _⟩ => show win0_7.index t (1 : Fin 2) * 128 + 1 * (y 1).val = (y 1).val; rw [hi.2.2.2.2.2.1]; omega)
  show out0_7 (F := Ideal) (iblk0 V c 0 t) (iblk0 V c 1 t) (iblk0 V c 2 t) (iblk0 V c 3 t) (iblk0 V c 4 t) (iblk0 V c 5 t)
        (iblk0 V c 6 t) ((cfg0.win 7).xinj (grid0.coords t) y) = G0 V c (((cfg0.win 7).blk t).view.emb y)
  rw [hy, he]
  exact out0_7_blk V c t _ _ _ rfl

/-- An index of the array is in point `t`'s block iff each coordinate is in the block's range on its axis. -/
theorem mem_blk0 (t : Fin cfg0.N) (i : S50000x128.Idx) :
    i ∈ ((cfg0.win 7).blk t).view.set ↔ ∀ a : Fin 2, win0_7.index t a * S2000x128.size a ≤ (i a).val
      ∧ (i a).val < win0_7.index t a * S2000x128.size a + S2000x128.size a := by
  show i ∈ ((View.whole main_v28).slice (win0_7.rect t)).set ↔ _
  rw [View.set_slice_whole, Rect.mem_set_unit]
  exact Iff.rfl

/-- Row `r` of the array is in the block of point `r / 2000`: the 25 blocks cover the array. -/
theorem cover0 (i : S50000x128.Idx) :
    ∃ t : Fin cfg0.N, (cfg0.win 7).flush t = true ∧ i ∈ ((cfg0.win 7).blk t).view.set := by
  have hi0 : (i 0).val < 50000 := (i 0).isLt
  have hi1 : (i 1).val < 128 := (i 1).isLt
  have hN : cfg0.N = 25 := N_0
  obtain ⟨t, ht⟩ : ∃ t : Fin cfg0.N, t.val = (i 0).val / 2000 := ⟨⟨(i 0).val / 2000, by rw [hN]; omega⟩, rfl⟩
  have hi := index0 t
  refine ⟨t, flush0_7 t, ?_⟩
  rw [mem_blk0]
  intro a
  match a with
  | ⟨0, _⟩ =>
    show win0_7.index t (0 : Fin 2) * 2000 ≤ (i 0).val ∧ (i 0).val < win0_7.index t (0 : Fin 2) * 2000 + 2000
    rw [hi.2.2.2.2.1, ht]; omega
  | ⟨1, _⟩ =>
    show win0_7.index t (1 : Fin 2) * 128 ≤ (i 1).val ∧ (i 1).val < win0_7.index t (1 : Fin 2) * 128 + 128
    rw [hi.2.2.2.2.2.1]; omega

/-- After the region, the first hidden layer's array is `G0` of the arrays the region found. -/
theorem final0 (c : Dev nD) : (dat0 (F := Ideal) V c).arrAt 7 cfg0.N = G0 V c :=
  (dat0 V c).arrAt_eq_of_cover 7 (G0 V c) (fun t _ => flushed0_eq V c t) cover0

/-- The same at an entry. -/
theorem final0_apply (c : Dev nD) (r : Fin 50000) (q : Fin 128) :
    (dat0 (F := Ideal) V c).arrAt 7 cfg0.N (ix2 r q)
      = layerAct (mat (V c main_v24)) (mat (V c main_arg0)) (mat (V c main_arg2)) (row0 (V c main_v25))
          (mat (V c main_arg4)) (row0 (V c main_v26)) (row0 (V c main_v27)) r q := by
  rw [final0 V c]; rfl

/-! # The second hidden layer's region -/

/-- The block index maps over the grid: the three row-tiled windows are at block `(t, 0)`, the weight and bias windows at
    block `(0, 0)`. -/
theorem index1 : ∀ t : Fin cfg1.N,
    win1_0.index t (0 : Fin 2) = t.val ∧ win1_0.index t (1 : Fin 2) = 0
    ∧ win1_1.index t (0 : Fin 2) = t.val ∧ win1_1.index t (1 : Fin 2) = 0
    ∧ win1_7.index t (0 : Fin 2) = t.val ∧ win1_7.index t (1 : Fin 2) = 0
    ∧ win1_2.index t (0 : Fin 2) = 0 ∧ win1_2.index t (1 : Fin 2) = 0
    ∧ win1_3.index t (0 : Fin 2) = 0 ∧ win1_3.index t (1 : Fin 2) = 0
    ∧ win1_4.index t (0 : Fin 2) = 0 ∧ win1_4.index t (1 : Fin 2) = 0
    ∧ win1_5.index t (0 : Fin 2) = 0 ∧ win1_5.index t (1 : Fin 2) = 0
    ∧ win1_6.index t (0 : Fin 2) = 0 ∧ win1_6.index t (1 : Fin 2) = 0 :=
  (by decide +kernel : ∀ t : Fin grid1.N, _)

/-- Row `p` of block `t` of the averaged-neighbour array is row `2000·t + p` of the array. -/
theorem iblk1_0_apply (c : Dev nD) (t : Fin cfg1.N) (p : Fin 2000) (k : Fin 128) (r : Fin 50000)
    (hr : r.val = 2000 * t.val + p.val) :
    (iblk1 V c 0 t : Vec Ideal S2000x128 .f32) (ix2 p k) = (V c main_v40 : S50000x128.Idx → EReal) (ix2 r k) := by
  have hi := index1 t
  unfold iblk1
  rw [View.read_apply]
  show V c main_v40 _ = V c main_v40 _
  refine congrArg _ (funext fun a => Fin.ext ?_)
  match a with
  | ⟨0, _⟩ => show win1_0.index t (0 : Fin 2) * 2000 + 1 * p.val = r.val; rw [hi.1, hr]; omega
  | ⟨1, _⟩ => show win1_0.index t (1 : Fin 2) * 128 + 1 * k.val = k.val; rw [hi.2.1]; omega

/-- Row `p` of block `t` of the feature array is row `2000·t + p` of the array. -/
theorem iblk1_1_apply (c : Dev nD) (t : Fin cfg1.N) (p : Fin 2000) (k : Fin 128) (r : Fin 50000)
    (hr : r.val = 2000 * t.val + p.val) :
    (iblk1 V c 1 t : Vec Ideal S2000x128 .f32) (ix2 p k) = (V c main_v28 : S50000x128.Idx → EReal) (ix2 r k) := by
  have hi := index1 t
  unfold iblk1
  rw [View.read_apply]
  show V c main_v28 _ = V c main_v28 _
  refine congrArg _ (funext fun a => Fin.ext ?_)
  match a with
  | ⟨0, _⟩ => show win1_1.index t (0 : Fin 2) * 2000 + 1 * p.val = r.val; rw [hi.2.2.1, hr]; omega
  | ⟨1, _⟩ => show win1_1.index t (1 : Fin 2) * 128 + 1 * k.val = k.val; rw [hi.2.2.2.1]; omega

/-- The weight and bias windows' one block is the whole array. -/
theorem iblk1_2_eq (c : Dev nD) (t : Fin cfg1.N) :
    (iblk1 V c 2 t : Vec Ideal S128x128 .f32) = (V c main_arg5 : S128x128.Idx → EReal) := by
  have hi := index1 t
  funext y
  unfold iblk1
  rw [View.read_apply]
  show V c main_arg5 _ = V c main_arg5 _
  refine congrArg _ (funext fun a => Fin.ext ?_)
  match a with
  | ⟨0, _⟩ => show win1_2.index t (0 : Fin 2) * 128 + 1 * (y 0).val = (y 0).val; rw [hi.2.2.2.2.2.2.1]; omega
  | ⟨1, _⟩ => show win1_2.index t (1 : Fin 2) * 128 + 1 * (y 1).val = (y 1).val; rw [hi.2.2.2.2.2.2.2.1]; omega

theorem iblk1_3_eq (c : Dev nD) (t : Fin cfg1.N) :
    (iblk1 V c 3 t : Vec Ideal S1x128 .f32) = (V c main_v41 : S1x128.Idx → EReal) := by
  have hi := index1 t
  funext y
  unfold iblk1
  rw [View.read_apply]
  show V c main_v41 _ = V c main_v41 _
  refine congrArg _ (funext fun a => Fin.ext ?_)
  match a with
  | ⟨0, _⟩ => show win1_3.index t (0 : Fin 2) * 1 + 1 * (y 0).val = (y 0).val; rw [hi.2.2.2.2.2.2.2.2.1]; omega
  | ⟨1, _⟩ => show win1_3.index t (1 : Fin 2) * 128 + 1 * (y 1).val = (y 1).val; rw [hi.2.2.2.2.2.2.2.2.2.1]; omega

theorem iblk1_4_eq (c : Dev nD) (t : Fin cfg1.N) :
    (iblk1 V c 4 t : Vec Ideal S128x128 .f32) = (V c main_arg7 : S128x128.Idx → EReal) := by
  have hi := index1 t
  funext y
  unfold iblk1
  rw [View.read_apply]
  show V c main_arg7 _ = V c main_arg7 _
  refine congrArg _ (funext fun a => Fin.ext ?_)
  match a with
  | ⟨0, _⟩ => show win1_4.index t (0 : Fin 2) * 128 + 1 * (y 0).val = (y 0).val; rw [hi.2.2.2.2.2.2.2.2.2.2.1]; omega
  | ⟨1, _⟩ => show win1_4.index t (1 : Fin 2) * 128 + 1 * (y 1).val = (y 1).val; rw [hi.2.2.2.2.2.2.2.2.2.2.2.1]; omega

theorem iblk1_5_eq (c : Dev nD) (t : Fin cfg1.N) :
    (iblk1 V c 5 t : Vec Ideal S1x128 .f32) = (V c main_v42 : S1x128.Idx → EReal) := by
  have hi := index1 t
  funext y
  unfold iblk1
  rw [View.read_apply]
  show V c main_v42 _ = V c main_v42 _
  refine congrArg _ (funext fun a => Fin.ext ?_)
  match a with
  | ⟨0, _⟩ => show win1_5.index t (0 : Fin 2) * 1 + 1 * (y 0).val = (y 0).val; rw [hi.2.2.2.2.2.2.2.2.2.2.2.2.1]; omega
  | ⟨1, _⟩ => show win1_5.index t (1 : Fin 2) * 128 + 1 * (y 1).val = (y 1).val; rw [hi.2.2.2.2.2.2.2.2.2.2.2.2.2.1]; omega

theorem iblk1_6_eq (c : Dev nD) (t : Fin cfg1.N) :
    (iblk1 V c 6 t : Vec Ideal S1x128 .f32) = (V c main_v43 : S1x128.Idx → EReal) := by
  have hi := index1 t
  funext y
  unfold iblk1
  rw [View.read_apply]
  show V c main_v43 _ = V c main_v43 _
  refine congrArg _ (funext fun a => Fin.ext ?_)
  match a with
  | ⟨0, _⟩ => show win1_6.index t (0 : Fin 2) * 1 + 1 * (y 0).val = (y 0).val; rw [hi.2.2.2.2.2.2.2.2.2.2.2.2.2.2.1]; omega
  | ⟨1, _⟩ => show win1_6.index t (1 : Fin 2) * 128 + 1 * (y 1).val = (y 1).val; rw [hi.2.2.2.2.2.2.2.2.2.2.2.2.2.2.2]; omega

/-- The second hidden layer as one function of the whole arrays the region finds, index by index. -/
def G1 (c : Dev nD) : S50000x128.Idx → EReal := fun i =>
  layerAct (mat (V c main_v40)) (mat (V c main_v28)) (mat (V c main_arg5)) (row0 (V c main_v41))
    (mat (V c main_arg7)) (row0 (V c main_v42)) (row0 (V c main_v43)) (i 0) (i 1)

/-- What the body leaves at row `p` of block `t` is the layer at row `2000·t + p` of the whole arrays: the entry reads one
    row of each row-tiled block, and the weights' blocks are the weights. -/
theorem out1_7_blk (c : Dev nD) (t : Fin cfg1.N) (p : Fin 2000) (q : Fin 128) (r : Fin 50000)
    (hr : r.val = 2000 * t.val + p.val) :
    out1_7 (F := Ideal) (iblk1 V c 0 t) (iblk1 V c 1 t) (iblk1 V c 2 t) (iblk1 V c 3 t) (iblk1 V c 4 t) (iblk1 V c 5 t)
        (iblk1 V c 6 t) (ix2 p q)
      = layerAct (mat (V c main_v40)) (mat (V c main_v28)) (mat (V c main_arg5)) (row0 (V c main_v41))
          (mat (V c main_arg7)) (row0 (V c main_v42)) (row0 (V c main_v43)) r q := by
  refine (Body.out1_7_apply (iblk1 V c 0 t) (iblk1 V c 1 t) (iblk1 V c 2 t) (iblk1 V c 3 t) (iblk1 V c 4 t)
    (iblk1 V c 5 t) (iblk1 V c 6 t) p q).trans ?_
  rw [iblk1_2_eq V c t, iblk1_3_eq V c t, iblk1_4_eq V c t, iblk1_5_eq V c t, iblk1_6_eq V c t]
  exact layerAct_congr _ _ _ _ _ _ _ _ _ p r (funext fun k => iblk1_0_apply V c t p k r hr)
    (funext fun k => iblk1_1_apply V c t p k r hr) q

/-- What point `t` writes back is block `t` of `G1`. -/
theorem flushed1_eq (c : Dev nD) (t : Fin cfg1.N) :
    (dat1 (F := Ideal) V c).flushed 7 t = ((cfg1.win 7).blk t).view.read (Elt Ideal) (G1 V c) := by
  show (cfg1.win 7).cut (grid1.coords t) ((dat1 V c).after 7 t) = _
  rw [after1_7]
  have hi := index1 t
  funext y
  have h0 : (y 0).val < 2000 := (y 0).isLt
  have h1 : (y 1).val < 128 := (y 1).isLt
  have hN : t.val < 25 := lt_of_lt_of_eq t.isLt N_1
  rw [View.read_apply]
  have hy : (cfg1.win 7).xinj (grid1.coords t) y = ix2 (⟨(y 0).val, h0⟩ : Fin 2000) (⟨(y 1).val, h1⟩ : Fin 128) :=
    funext fun a => by match a with | ⟨0, _⟩ => rfl | ⟨1, _⟩ => rfl
  have he : ((cfg1.win 7).blk t).view.emb y
      = ix2 (⟨2000 * t.val + (y 0).val, by omega⟩ : Fin 50000) (⟨(y 1).val, h1⟩ : Fin 128) :=
    funext fun a => Fin.ext (by
      match a with
      | ⟨0, _⟩ => show win1_7.index t (0 : Fin 2) * 2000 + 1 * (y 0).val = 2000 * t.val + (y 0).val; rw [hi.2.2.2.2.1]; omega
      | ⟨1, _⟩ => show win1_7.index t (1 : Fin 2) * 128 + 1 * (y 1).val = (y 1).val; rw [hi.2.2.2.2.2.1]; omega)
  show out1_7 (F := Ideal) (iblk1 V c 0 t) (iblk1 V c 1 t) (iblk1 V c 2 t) (iblk1 V c 3 t) (iblk1 V c 4 t) (iblk1 V c 5 t)
        (iblk1 V c 6 t) ((cfg1.win 7).xinj (grid1.coords t) y) = G1 V c (((cfg1.win 7).blk t).view.emb y)
  rw [hy, he]
  exact out1_7_blk V c t _ _ _ rfl

/-- An index of the array is in point `t`'s block iff each coordinate is in the block's range on its axis. -/
theorem mem_blk1 (t : Fin cfg1.N) (i : S50000x128.Idx) :
    i ∈ ((cfg1.win 7).blk t).view.set ↔ ∀ a : Fin 2, win1_7.index t a * S2000x128.size a ≤ (i a).val
      ∧ (i a).val < win1_7.index t a * S2000x128.size a + S2000x128.size a := by
  show i ∈ ((View.whole main_v44).slice (win1_7.rect t)).set ↔ _
  rw [View.set_slice_whole, Rect.mem_set_unit]
  exact Iff.rfl

/-- Row `r` of the array is in the block of point `r / 2000`: the 25 blocks cover the array. -/
theorem cover1 (i : S50000x128.Idx) :
    ∃ t : Fin cfg1.N, (cfg1.win 7).flush t = true ∧ i ∈ ((cfg1.win 7).blk t).view.set := by
  have hi0 : (i 0).val < 50000 := (i 0).isLt
  have hi1 : (i 1).val < 128 := (i 1).isLt
  have hN : cfg1.N = 25 := N_1
  obtain ⟨t, ht⟩ : ∃ t : Fin cfg1.N, t.val = (i 0).val / 2000 := ⟨⟨(i 0).val / 2000, by rw [hN]; omega⟩, rfl⟩
  have hi := index1 t
  refine ⟨t, flush1_7 t, ?_⟩
  rw [mem_blk1]
  intro a
  match a with
  | ⟨0, _⟩ =>
    show win1_7.index t (0 : Fin 2) * 2000 ≤ (i 0).val ∧ (i 0).val < win1_7.index t (0 : Fin 2) * 2000 + 2000
    rw [hi.2.2.2.2.1, ht]; omega
  | ⟨1, _⟩ =>
    show win1_7.index t (1 : Fin 2) * 128 ≤ (i 1).val ∧ (i 1).val < win1_7.index t (1 : Fin 2) * 128 + 128
    rw [hi.2.2.2.2.2.1]; omega

/-- After the region, the second hidden layer's array is `G1` of the arrays the region found. -/
theorem final1 (c : Dev nD) : (dat1 (F := Ideal) V c).arrAt 7 cfg1.N = G1 V c :=
  (dat1 V c).arrAt_eq_of_cover 7 (G1 V c) (fun t _ => flushed1_eq V c t) cover1

/-- The same at an entry. -/
theorem final1_apply (c : Dev nD) (r : Fin 50000) (q : Fin 128) :
    (dat1 (F := Ideal) V c).arrAt 7 cfg1.N (ix2 r q)
      = layerAct (mat (V c main_v40)) (mat (V c main_v28)) (mat (V c main_arg5)) (row0 (V c main_v41))
          (mat (V c main_arg7)) (row0 (V c main_v42)) (row0 (V c main_v43)) r q := by
  rw [final1 V c]; rfl

/-! # The last layer's region -/

/-- The block index maps over the grid: the three row-tiled windows are at block `(t, 0)`, the weight and bias windows at
    block `(0, 0)`. -/
theorem index2 : ∀ t : Fin cfg2.N,
    win2_0.index t (0 : Fin 2) = t.val ∧ win2_0.index t (1 : Fin 2) = 0
    ∧ win2_1.index t (0 : Fin 2) = t.val ∧ win2_1.index t (1 : Fin 2) = 0
    ∧ win2_5.index t (0 : Fin 2) = t.val ∧ win2_5.index t (1 : Fin 2) = 0
    ∧ win2_2.index t (0 : Fin 2) = 0 ∧ win2_2.index t (1 : Fin 2) = 0
    ∧ win2_3.index t (0 : Fin 2) = 0 ∧ win2_3.index t (1 : Fin 2) = 0
    ∧ win2_4.index t (0 : Fin 2) = 0 ∧ win2_4.index t (1 : Fin 2) = 0 :=
  (by decide +kernel : ∀ t : Fin grid2.N, _)

/-- Row `p` of block `t` of the averaged-neighbour array is row `2000·t + p` of the array. -/
theorem iblk2_0_apply (c : Dev nD) (t : Fin cfg2.N) (p : Fin 2000) (k : Fin 128) (r : Fin 50000)
    (hr : r.val = 2000 * t.val + p.val) :
    (iblk2 V c 0 t : Vec Ideal S2000x128 .f32) (ix2 p k) = (V c main_v56 : S50000x128.Idx → EReal) (ix2 r k) := by
  have hi := index2 t
  unfold iblk2
  rw [View.read_apply]
  show V c main_v56 _ = V c main_v56 _
  refine congrArg _ (funext fun a => Fin.ext ?_)
  match a with
  | ⟨0, _⟩ => show win2_0.index t (0 : Fin 2) * 2000 + 1 * p.val = r.val; rw [hi.1, hr]; omega
  | ⟨1, _⟩ => show win2_0.index t (1 : Fin 2) * 128 + 1 * k.val = k.val; rw [hi.2.1]; omega

/-- Row `p` of block `t` of the feature array is row `2000·t + p` of the array. -/
theorem iblk2_1_apply (c : Dev nD) (t : Fin cfg2.N) (p : Fin 2000) (k : Fin 128) (r : Fin 50000)
    (hr : r.val = 2000 * t.val + p.val) :
    (iblk2 V c 1 t : Vec Ideal S2000x128 .f32) (ix2 p k) = (V c main_v44 : S50000x128.Idx → EReal) (ix2 r k) := by
  have hi := index2 t
  unfold iblk2
  rw [View.read_apply]
  show V c main_v44 _ = V c main_v44 _
  refine congrArg _ (funext fun a => Fin.ext ?_)
  match a with
  | ⟨0, _⟩ => show win2_1.index t (0 : Fin 2) * 2000 + 1 * p.val = r.val; rw [hi.2.2.1, hr]; omega
  | ⟨1, _⟩ => show win2_1.index t (1 : Fin 2) * 128 + 1 * k.val = k.val; rw [hi.2.2.2.1]; omega

/-- The weight and bias windows' one block is the whole array. -/
theorem iblk2_2_eq (c : Dev nD) (t : Fin cfg2.N) :
    (iblk2 V c 2 t : Vec Ideal S64x128 .f32) = (V c main_arg8 : S64x128.Idx → EReal) := by
  have hi := index2 t
  funext y
  unfold iblk2
  rw [View.read_apply]
  show V c main_arg8 _ = V c main_arg8 _
  refine congrArg _ (funext fun a => Fin.ext ?_)
  match a with
  | ⟨0, _⟩ => show win2_2.index t (0 : Fin 2) * 64 + 1 * (y 0).val = (y 0).val; rw [hi.2.2.2.2.2.2.1]; omega
  | ⟨1, _⟩ => show win2_2.index t (1 : Fin 2) * 128 + 1 * (y 1).val = (y 1).val; rw [hi.2.2.2.2.2.2.2.1]; omega

theorem iblk2_3_eq (c : Dev nD) (t : Fin cfg2.N) :
    (iblk2 V c 3 t : Vec Ideal S1x64 .f32) = (V c main_v57 : S1x64.Idx → EReal) := by
  have hi := index2 t
  funext y
  unfold iblk2
  rw [View.read_apply]
  show V c main_v57 _ = V c main_v57 _
  refine congrArg _ (funext fun a => Fin.ext ?_)
  match a with
  | ⟨0, _⟩ => show win2_3.index t (0 : Fin 2) * 1 + 1 * (y 0).val = (y 0).val; rw [hi.2.2.2.2.2.2.2.2.1]; omega
  | ⟨1, _⟩ => show win2_3.index t (1 : Fin 2) * 64 + 1 * (y 1).val = (y 1).val; rw [hi.2.2.2.2.2.2.2.2.2.1]; omega

theorem iblk2_4_eq (c : Dev nD) (t : Fin cfg2.N) :
    (iblk2 V c 4 t : Vec Ideal S64x128 .f32) = (V c main_arg10 : S64x128.Idx → EReal) := by
  have hi := index2 t
  funext y
  unfold iblk2
  rw [View.read_apply]
  show V c main_arg10 _ = V c main_arg10 _
  refine congrArg _ (funext fun a => Fin.ext ?_)
  match a with
  | ⟨0, _⟩ => show win2_4.index t (0 : Fin 2) * 64 + 1 * (y 0).val = (y 0).val; rw [hi.2.2.2.2.2.2.2.2.2.2.1]; omega
  | ⟨1, _⟩ => show win2_4.index t (1 : Fin 2) * 128 + 1 * (y 1).val = (y 1).val; rw [hi.2.2.2.2.2.2.2.2.2.2.2]; omega

/-- The last layer as one function of the whole arrays the region finds, index by index. -/
def G2 (c : Dev nD) : S50000x64.Idx → EReal := fun i =>
  layerLin (mat (V c main_v56)) (mat (V c main_v44)) (mat (V c main_arg8)) (row0 (V c main_v57))
    (mat (V c main_arg10)) (i 0) (i 1)

/-- What the body leaves at row `p` of block `t` is the layer at row `2000·t + p` of the whole arrays: the entry reads one
    row of each row-tiled block, and the weights' blocks are the weights. -/
theorem out2_5_blk (c : Dev nD) (t : Fin cfg2.N) (p : Fin 2000) (q : Fin 64) (r : Fin 50000)
    (hr : r.val = 2000 * t.val + p.val) :
    out2_5 (F := Ideal) (iblk2 V c 0 t) (iblk2 V c 1 t) (iblk2 V c 2 t) (iblk2 V c 3 t) (iblk2 V c 4 t) (ix2 p q)
      = layerLin (mat (V c main_v56)) (mat (V c main_v44)) (mat (V c main_arg8)) (row0 (V c main_v57))
          (mat (V c main_arg10)) r q := by
  refine (Body.out2_5_apply (iblk2 V c 0 t) (iblk2 V c 1 t) (iblk2 V c 2 t) (iblk2 V c 3 t) (iblk2 V c 4 t) p q).trans ?_
  rw [iblk2_2_eq V c t, iblk2_3_eq V c t, iblk2_4_eq V c t]
  exact layerLin_congr _ _ _ _ _ _ _ p r (funext fun k => iblk2_0_apply V c t p k r hr)
    (funext fun k => iblk2_1_apply V c t p k r hr) q

/-- What point `t` writes back is block `t` of `G2`. -/
theorem flushed2_eq (c : Dev nD) (t : Fin cfg2.N) :
    (dat2 (F := Ideal) V c).flushed 5 t = ((cfg2.win 5).blk t).view.read (Elt Ideal) (G2 V c) := by
  show (cfg2.win 5).cut (grid2.coords t) ((dat2 V c).after 5 t) = _
  rw [after2_5]
  have hi := index2 t
  funext y
  have h0 : (y 0).val < 2000 := (y 0).isLt
  have h1 : (y 1).val < 64 := (y 1).isLt
  have hN : t.val < 25 := lt_of_lt_of_eq t.isLt N_2
  rw [View.read_apply]
  have hy : (cfg2.win 5).xinj (grid2.coords t) y = ix2 (⟨(y 0).val, h0⟩ : Fin 2000) (⟨(y 1).val, h1⟩ : Fin 64) :=
    funext fun a => by match a with | ⟨0, _⟩ => rfl | ⟨1, _⟩ => rfl
  have he : ((cfg2.win 5).blk t).view.emb y
      = ix2 (⟨2000 * t.val + (y 0).val, by omega⟩ : Fin 50000) (⟨(y 1).val, h1⟩ : Fin 64) :=
    funext fun a => Fin.ext (by
      match a with
      | ⟨0, _⟩ => show win2_5.index t (0 : Fin 2) * 2000 + 1 * (y 0).val = 2000 * t.val + (y 0).val; rw [hi.2.2.2.2.1]; omega
      | ⟨1, _⟩ => show win2_5.index t (1 : Fin 2) * 64 + 1 * (y 1).val = (y 1).val; rw [hi.2.2.2.2.2.1]; omega)
  show out2_5 (F := Ideal) (iblk2 V c 0 t) (iblk2 V c 1 t) (iblk2 V c 2 t) (iblk2 V c 3 t) (iblk2 V c 4 t)
        ((cfg2.win 5).xinj (grid2.coords t) y) = G2 V c (((cfg2.win 5).blk t).view.emb y)
  rw [hy, he]
  exact out2_5_blk V c t _ _ _ rfl

/-- An index of the array is in point `t`'s block iff each coordinate is in the block's range on its axis. -/
theorem mem_blk2 (t : Fin cfg2.N) (i : S50000x64.Idx) :
    i ∈ ((cfg2.win 5).blk t).view.set ↔ ∀ a : Fin 2, win2_5.index t a * S2000x64.size a ≤ (i a).val
      ∧ (i a).val < win2_5.index t a * S2000x64.size a + S2000x64.size a := by
  show i ∈ ((View.whole main_v58).slice (win2_5.rect t)).set ↔ _
  rw [View.set_slice_whole, Rect.mem_set_unit]
  exact Iff.rfl

/-- Row `r` of the array is in the block of point `r / 2000`: the 25 blocks cover the array. -/
theorem cover2 (i : S50000x64.Idx) :
    ∃ t : Fin cfg2.N, (cfg2.win 5).flush t = true ∧ i ∈ ((cfg2.win 5).blk t).view.set := by
  have hi0 : (i 0).val < 50000 := (i 0).isLt
  have hi1 : (i 1).val < 64 := (i 1).isLt
  have hN : cfg2.N = 25 := N_2
  obtain ⟨t, ht⟩ : ∃ t : Fin cfg2.N, t.val = (i 0).val / 2000 := ⟨⟨(i 0).val / 2000, by rw [hN]; omega⟩, rfl⟩
  have hi := index2 t
  refine ⟨t, flush2_5 t, ?_⟩
  rw [mem_blk2]
  intro a
  match a with
  | ⟨0, _⟩ =>
    show win2_5.index t (0 : Fin 2) * 2000 ≤ (i 0).val ∧ (i 0).val < win2_5.index t (0 : Fin 2) * 2000 + 2000
    rw [hi.2.2.2.2.1, ht]; omega
  | ⟨1, _⟩ =>
    show win2_5.index t (1 : Fin 2) * 64 ≤ (i 1).val ∧ (i 1).val < win2_5.index t (1 : Fin 2) * 64 + 64
    rw [hi.2.2.2.2.2.1]; omega

/-- After the region, the last layer's array is `G2` of the arrays the region found. -/
theorem final2 (c : Dev nD) : (dat2 (F := Ideal) V c).arrAt 5 cfg2.N = G2 V c :=
  (dat2 V c).arrAt_eq_of_cover 5 (G2 V c) (fun t _ => flushed2_eq V c t) cover2

/-- The same at an entry. -/
theorem final2_apply (c : Dev nD) (r : Fin 50000) (q : Fin 64) :
    (dat2 (F := Ideal) V c).arrAt 5 cfg2.N (ix2 r q)
      = layerLin (mat (V c main_v56)) (mat (V c main_v44)) (mat (V c main_arg8)) (row0 (V c main_v57))
          (mat (V c main_arg10)) r q := by
  rw [final2 V c]; rfl

end Cert.Sage.Blocks

end
-- ==== Proof.KernelHost.lean ====
/-
  What each tiled region finds in its arrays when it is entered.

  Between the regions the host gathers the feature rows of every edge's source node, adds them up at the edge's
  target node, and scales row `n` of the sums by the reciprocal of node `n`'s clamped in-degree: `meanK`. The
  edge list, the in-degrees and their reciprocals are computed once, before the first region, and no region writes
  them; the weights and the normalisation's scale and shift are arguments, which nothing writes. So region 0 is
  entered with `meanK` of the input features, region 1 with `meanK` of what region 0 left in its output array,
  region 2 with `meanK` of what region 1 left, each beside that same array as its own-row operand, and each
  bias or scale vector re-laid as a one-row matrix.
-/
import proofs.«156522_j45260365365373_2_alg».proof.Proof.Gen.KernelIdeal.Frame
import Idealize.ShloMosaic.Lib.StableHlo.Run
import Idealize.ShloMosaic.PureOps.Ideal

set_option maxRecDepth 16384

noncomputable section

namespace Cert.Sage.Host

open Cert.KernelIdeal Cert.KernelIdeal.Gen
open Idealize.ShloMosaic Idealize.ShloMosaic.TcCoe Idealize.SL.Sem Idealize.ShloMosaic.StableHlo

/-- Row `k` of the edge list as a vector of node numbers. -/
def srcRow (e : (⟨S2x800000, .i32⟩ : BufTy).Contents (Elt Ideal)) : (⟨S800000, .i32⟩ : BufTy).Contents (Elt Ideal) :=
  shapeCast _ (extractStridedSlice S1x800000 ![0, 0] e slices_S2x800000_S1x800000_0_0) shapeCasts_S1x800000_S800000
def dstRow (e : (⟨S2x800000, .i32⟩ : BufTy).Contents (Elt Ideal)) : (⟨S800000, .i32⟩ : BufTy).Contents (Elt Ideal) :=
  shapeCast _ (extractStridedSlice S1x800000 ![1, 0] e slices_S2x800000_S1x800000_1_0) shapeCasts_S1x800000_S800000

/-- The in-degree of every node: a one added at each edge's target. -/
def cnt (v3 : (⟨S800000, .i32⟩ : BufTy).Contents (Elt Ideal)) : (⟨S50000, .f32⟩ : BufTy).Contents (Elt Ideal) :=
  Host.scatterAdd (F := Ideal) scatter_S50000_S800000x1_S800000_n_0_0_1
    (broadcastInDim S50000 ![] bcast_S_S50000 (constant (F := Ideal) S_ .f32 0x00000000#32))
    (broadcastInDim S800000x1 ![0] bcast_S800000_S800000x1_0 v3)
    (broadcastInDim S800000 ![] bcast_S_S800000 (constant (F := Ideal) S_ .f32 0x3F800000#32))

/-- The reciprocal of the in-degree clamped below at one, as a column. -/
def cntInv (v3 : (⟨S800000, .i32⟩ : BufTy).Contents (Elt Ideal)) : (⟨S50000x1, .f32⟩ : BufTy).Contents (Elt Ideal) :=
  shapeCast _ (Host.divf (F := Ideal) (broadcastInDim S50000 ![] bcast_S_S50000 (constant (F := Ideal) S_ .f32 0x3F800000#32))
    (maximumf (cnt v3) (broadcastInDim S50000 ![] bcast_S_S50000 (constant (F := Ideal) S_ .f32 0x3F800000#32)))) shapeCasts_S50000_S50000x1

/-- The rows of `H` gathered at every edge's source (a negative node number wrapped once) and added up at its target. -/
def agg (H : (⟨S50000x128, .f32⟩ : BufTy).Contents (Elt Ideal)) (v1 v3 : (⟨S800000, .i32⟩ : BufTy).Contents (Elt Ideal)) :
    (⟨S50000x128, .f32⟩ : BufTy).Contents (Elt Ideal) :=
  Host.scatterAdd (F := Ideal) scatter_S50000x128_S800000x1_S800000x128_1_0_0_1
    (broadcastInDim S50000x128 ![] bcast_S_S50000x128 (constant (F := Ideal) S_ .f32 0x00000000#32))
    (broadcastInDim S800000x1 ![0] bcast_S800000_S800000x1_0 v3)
    (Host.gather gather_S50000x128_S800000x1_S800000x128_1_0_n_n_0_1_1128 H
      (broadcastInDim S800000x1 ![0] bcast_S800000_S800000x1_0
        (select (cmpi .slt v1 (broadcastInDim S800000 ![] bcast_S_S800000 (constantI S_ 32 0#32)))
          (addi v1 (broadcastInDim S800000 ![] bcast_S_S800000 (constantI S_ 32 50000#32))) v1)))

/-- The sums scaled row by row by the column `v12`. -/
def meanK (H : (⟨S50000x128, .f32⟩ : BufTy).Contents (Elt Ideal)) (v1 v3 : (⟨S800000, .i32⟩ : BufTy).Contents (Elt Ideal))
    (v12 : (⟨S50000x1, .f32⟩ : BufTy).Contents (Elt Ideal)) : (⟨S50000x128, .f32⟩ : BufTy).Contents (Elt Ideal) :=
  mulf (F := Ideal) (agg H v1 v3 : FVec Ideal S50000x128 .f32)
    (broadcastInDim S50000x128 ![0, 1] bcast_S50000x1_S50000x128_0_1 (v12 : FVec Ideal S50000x1 .f32) : FVec Ideal S50000x128 .f32)

variable (m : (ℓ : Loc nD τ sig) → Buf (Elt Ideal) ℓ) (ρ : Dev nD → PrngReg)

/-- A buffer no operation of a stretch writes is left as the stretch found it. -/
macro "unwritten" : tactic => `(tactic| (
  refine StableHlo.after_of_forall_not_mem _ _ (List.forall_iff_forall_mem.mp ?_)
  simp only [hostOps0, hostOps1, hostOps2, List.flatten_cons, List.flatten_nil, List.append_nil, List.cons_append,
    List.nil_append, List.Forall, StableHlo.nullary_writes, StableHlo.unary_writes, StableHlo.binary_writes,
    StableHlo.ternary_writes, StableHlo.quaternary_writes, StableHlo.reshape_writes, StableHlo.binaryIndexed_writes,
    Finset.mem_singleton]
  repeat' apply And.intro
  all_goals exact StableHlo.devRef_ne_of_ne (by decide)))

/-! ## Before region 0 -/

theorem W1_v1 (c : Dev nD) : W1 m ρ c (Proc.devRef .tc main_v1) = srcRow (m ((c : Thread nD τ).loc main_arg1)) := by
  show StableHlo.after hostOps0 (W0 m ρ c) (Proc.devRef .tc main_v1) = _
  after_results; rfl
theorem W1_v3 (c : Dev nD) : W1 m ρ c (Proc.devRef .tc main_v3) = dstRow (m ((c : Thread nD τ).loc main_arg1)) := by
  show StableHlo.after hostOps0 (W0 m ρ c) (Proc.devRef .tc main_v3) = _
  after_results; rfl
theorem W1_v12 (c : Dev nD) : W1 m ρ c (Proc.devRef .tc main_v12) = cntInv (dstRow (m ((c : Thread nD τ).loc main_arg1))) := by
  show StableHlo.after hostOps0 (W0 m ρ c) (Proc.devRef .tc main_v12) = _
  after_results; rfl
set_option maxHeartbeats 8000000 in
theorem W1_v24 (c : Dev nD) : W1 m ρ c (Proc.devRef .tc main_v24) =
    meanK (m ((c : Thread nD τ).loc main_arg0)) (srcRow (m ((c : Thread nD τ).loc main_arg1))) (dstRow (m ((c : Thread nD τ).loc main_arg1)))
      (cntInv (dstRow (m ((c : Thread nD τ).loc main_arg1)))) := by
  show StableHlo.after hostOps0 (W0 m ρ c) (Proc.devRef .tc main_v24) = _
  after_results_simp <;> rfl

theorem W1_arg (c : Dev nD) (b : Ref sig .tc) (hb : b = main_arg0 ∨ b = main_arg2 ∨ b = main_arg4 ∨ b = main_arg5 ∨ b = main_arg6 ∨ b = main_arg7 ∨ b = main_arg8 ∨ b = main_arg9 ∨ b = main_arg10 ∨ b = main_arg13 ∨ b = main_arg14) :
    W1 m ρ c (Proc.devRef .tc b) = m ((c : Thread nD τ).loc b) := by
  show StableHlo.after hostOps0 (W0 m ρ c) (Proc.devRef .tc b) = W0 m ρ c (Proc.devRef .tc b)
  rcases hb with rfl | rfl | rfl | rfl | rfl | rfl | rfl | rfl | rfl | rfl | rfl <;> unwritten
theorem W1_v25 (c : Dev nD) : W1 m ρ c (Proc.devRef .tc main_v25) = shapeCast _ (m ((c : Thread nD τ).loc main_arg3)) shapeCasts_S128_S1x128 := by
  show StableHlo.after hostOps0 (W0 m ρ c) (Proc.devRef .tc main_v25) = _
  after_results; rfl
theorem W1_v26 (c : Dev nD) : W1 m ρ c (Proc.devRef .tc main_v26) = shapeCast _ (m ((c : Thread nD τ).loc main_arg11)) shapeCasts_S128_S1x128 := by
  show StableHlo.after hostOps0 (W0 m ρ c) (Proc.devRef .tc main_v26) = _
  after_results; rfl
theorem W1_v27 (c : Dev nD) : W1 m ρ c (Proc.devRef .tc main_v27) = shapeCast _ (m ((c : Thread nD τ).loc main_arg12)) shapeCasts_S128_S1x128 := by
  show StableHlo.after hostOps0 (W0 m ρ c) (Proc.devRef .tc main_v27) = _
  after_results; rfl

/-! ## Across region 0 and before region 1 -/

/-- Region 0 writes none of the buffers the later stretches read besides its own output. -/
theorem W2_keep (c : Dev nD) (b : Ref sig .tc) (hb : b = main_v1 ∨ b = main_v3 ∨ b = main_v12 ∨ b = main_arg5 ∨ b = main_arg6 ∨ b = main_arg7 ∨ b = main_arg8 ∨ b = main_arg9 ∨ b = main_arg10 ∨ b = main_arg13 ∨ b = main_arg14) :
    W2 m ρ c (Proc.devRef .tc b) = W1 m ρ c (Proc.devRef .tc b) := by
  rcases hb with rfl | rfl | rfl | rfl | rfl | rfl | rfl | rfl | rfl | rfl | rfl <;> exact W2_of_ne m ρ c _ (by decide)

theorem W3_keep (c : Dev nD) (b : Ref sig .tc) (hb : b = main_v1 ∨ b = main_v3 ∨ b = main_v12 ∨ b = main_v28 ∨ b = main_arg5 ∨ b = main_arg7 ∨ b = main_arg8 ∨ b = main_arg9 ∨ b = main_arg10) :
    W3 m ρ c (Proc.devRef .tc b) = W2 m ρ c (Proc.devRef .tc b) := by
  show StableHlo.after hostOps1 (W2 m ρ c) (Proc.devRef .tc b) = W2 m ρ c (Proc.devRef .tc b)
  rcases hb with rfl | rfl | rfl | rfl | rfl | rfl | rfl | rfl | rfl <;> unwritten

set_option maxHeartbeats 8000000 in
theorem W3_v40 (c : Dev nD) : W3 m ρ c (Proc.devRef .tc main_v40) =
    meanK (W2 m ρ c (Proc.devRef .tc main_v28)) (W2 m ρ c (Proc.devRef .tc main_v1)) (W2 m ρ c (Proc.devRef .tc main_v3))
      (W2 m ρ c (Proc.devRef .tc main_v12)) := by
  show StableHlo.after hostOps1 (W2 m ρ c) (Proc.devRef .tc main_v40) = _
  after_results_simp <;> rfl
theorem W3_v41 (c : Dev nD) : W3 m ρ c (Proc.devRef .tc main_v41) = shapeCast _ (W2 m ρ c (Proc.devRef .tc main_arg6)) shapeCasts_S128_S1x128 := by
  show StableHlo.after hostOps1 (W2 m ρ c) (Proc.devRef .tc main_v41) = _
  after_results; rfl
theorem W3_v42 (c : Dev nD) : W3 m ρ c (Proc.devRef .tc main_v42) = shapeCast _ (W2 m ρ c (Proc.devRef .tc main_arg13)) shapeCasts_S128_S1x128 := by
  show StableHlo.after hostOps1 (W2 m ρ c) (Proc.devRef .tc main_v42) = _
  after_results; rfl
theorem W3_v43 (c : Dev nD) : W3 m ρ c (Proc.devRef .tc main_v43) = shapeCast _ (W2 m ρ c (Proc.devRef .tc main_arg14)) shapeCasts_S128_S1x128 := by
  show StableHlo.after hostOps1 (W2 m ρ c) (Proc.devRef .tc main_v43) = _
  after_results; rfl

/-! ## Across region 1 and before region 2 -/

theorem W4_keep (c : Dev nD) (b : Ref sig .tc) (hb : b = main_v1 ∨ b = main_v3 ∨ b = main_v12 ∨ b = main_arg8 ∨ b = main_arg9 ∨ b = main_arg10) :
    W4 m ρ c (Proc.devRef .tc b) = W3 m ρ c (Proc.devRef .tc b) := by
  rcases hb with rfl | rfl | rfl | rfl | rfl | rfl <;> exact W4_of_ne m ρ c _ (by decide)

theorem W5_keep (c : Dev nD) (b : Ref sig .tc) (hb : b = main_v44 ∨ b = main_arg8 ∨ b = main_arg10) :
    W5 m ρ c (Proc.devRef .tc b) = W4 m ρ c (Proc.devRef .tc b) := by
  show StableHlo.after hostOps2 (W4 m ρ c) (Proc.devRef .tc b) = W4 m ρ c (Proc.devRef .tc b)
  rcases hb with rfl | rfl | rfl <;> unwritten

set_option maxHeartbeats 8000000 in
theorem W5_v56 (c : Dev nD) : W5 m ρ c (Proc.devRef .tc main_v56) =
    meanK (W4 m ρ c (Proc.devRef .tc main_v44)) (W4 m ρ c (Proc.devRef .tc main_v1)) (W4 m ρ c (Proc.devRef .tc main_v3))
      (W4 m ρ c (Proc.devRef .tc main_v12)) := by
  show StableHlo.after hostOps2 (W4 m ρ c) (Proc.devRef .tc main_v56) = _
  after_results_simp <;> rfl
theorem W5_v57 (c : Dev nD) : W5 m ρ c (Proc.devRef .tc main_v57) = shapeCast _ (W4 m ρ c (Proc.devRef .tc main_arg9)) shapeCasts_S64_S1x64 := by
  show StableHlo.after hostOps2 (W4 m ρ c) (Proc.devRef .tc main_v57) = _
  after_results; rfl

/-! ## The edge list, the reciprocal in-degrees and the arguments at every later boundary -/

theorem W2_v1 (c : Dev nD) : W2 m ρ c (Proc.devRef .tc main_v1) = srcRow (m ((c : Thread nD τ).loc main_arg1)) :=
  (W2_keep m ρ c _ (by simp)).trans (W1_v1 m ρ c)
theorem W2_v3 (c : Dev nD) : W2 m ρ c (Proc.devRef .tc main_v3) = dstRow (m ((c : Thread nD τ).loc main_arg1)) :=
  (W2_keep m ρ c _ (by simp)).trans (W1_v3 m ρ c)
theorem W2_v12 (c : Dev nD) : W2 m ρ c (Proc.devRef .tc main_v12) = cntInv (dstRow (m ((c : Thread nD τ).loc main_arg1))) :=
  (W2_keep m ρ c _ (by simp)).trans (W1_v12 m ρ c)
theorem W4_v1 (c : Dev nD) : W4 m ρ c (Proc.devRef .tc main_v1) = srcRow (m ((c : Thread nD τ).loc main_arg1)) :=
  (W4_keep m ρ c _ (by simp)).trans ((W3_keep m ρ c _ (by simp)).trans (W2_v1 m ρ c))
theorem W4_v3 (c : Dev nD) : W4 m ρ c (Proc.devRef .tc main_v3) = dstRow (m ((c : Thread nD τ).loc main_arg1)) :=
  (W4_keep m ρ c _ (by simp)).trans ((W3_keep m ρ c _ (by simp)).trans (W2_v3 m ρ c))
theorem W4_v12 (c : Dev nD) : W4 m ρ c (Proc.devRef .tc main_v12) = cntInv (dstRow (m ((c : Thread nD τ).loc main_arg1))) :=
  (W4_keep m ρ c _ (by simp)).trans ((W3_keep m ρ c _ (by simp)).trans (W2_v12 m ρ c))
theorem W2_arg (c : Dev nD) (b : Ref sig .tc) (hb : b = main_arg5 ∨ b = main_arg6 ∨ b = main_arg7 ∨ b = main_arg8 ∨ b = main_arg9 ∨ b = main_arg10 ∨ b = main_arg13 ∨ b = main_arg14) :
    W2 m ρ c (Proc.devRef .tc b) = m ((c : Thread nD τ).loc b) := by
  rcases hb with rfl | rfl | rfl | rfl | rfl | rfl | rfl | rfl <;> exact (W2_keep m ρ c _ (by simp)).trans (W1_arg m ρ c _ (by simp))
theorem W4_arg (c : Dev nD) (b : Ref sig .tc) (hb : b = main_arg8 ∨ b = main_arg9 ∨ b = main_arg10) :
    W4 m ρ c (Proc.devRef .tc b) = m ((c : Thread nD τ).loc b) := by
  rcases hb with rfl | rfl | rfl <;>
    exact (W4_keep m ρ c _ (by simp)).trans ((W3_keep m ρ c _ (by simp)).trans (W2_arg m ρ c _ (by simp)))

end Cert.Sage.Host

end
-- ==== Proof.Mean.lean ====
/-
  The neighbourhood average, computed two ways, is one function.

  One program scales row `n` of the summed neighbour rows by the reciprocal `1 / max (deg n) 1` of the clamped
  in-degree, the other divides it by `max (deg n) 1`. Entry `(n, k)` of the first is `s (n, k) · (1 / max (deg n) 1)`,
  of the second `s (n, k) / max (deg n) 1`, with the same sums `s` and the same in-degrees `deg` (the same gather and
  the same two scatter-adds of the same edge list). The divisor is at least one, so it is not zero, and for a nonzero
  divisor the product with the reciprocal is the quotient, whatever extended real `s (n, k)` is. The three layers
  average different rows over the same edge list, so the statement is made once per layer.
-/
import proofs.«156522_j45260365365373_2_alg».proof.Proof.KernelHost
import proofs.«156522_j45260365365373_2_alg».proof.Proof.Spec
import proofs.«156522_j45260365365373_2_alg».proof.Proof.Gen.ReferenceIdeal.Read

set_option maxRecDepth 16384

noncomputable section

namespace Cert.Sage.Mean

open Cert.KernelIdeal Cert.KernelIdeal.Gen Cert.Sage Cert.Sage.Host
open Idealize.ShloMosaic Idealize.ShloMosaic.ValueIdx

/-- A block of sums `S` scaled row by row by the reciprocals of the clamped entries of `C`, at `(n, k)`. -/
theorem scaled_apply (S : FVec Ideal S50000x128 .f32) (C : FVec Ideal S50000 .f32) (n : Fin 50000) (k : Fin 128) :
    (mulf (F := Ideal) S
      (broadcastInDim S50000x128 ![0, 1] bcast_S50000x1_S50000x128_0_1
        (shapeCast _ (Host.divf (F := Ideal) (broadcastInDim S50000 ![] bcast_S_S50000 (constant (F := Ideal) S_ .f32 0x3F800000#32))
          (maximumf C (broadcastInDim S50000 ![] bcast_S_S50000 (constant (F := Ideal) S_ .f32 0x3F800000#32)))) shapeCasts_S50000_S50000x1
          : FVec Ideal S50000x1 .f32) : FVec Ideal S50000x128 .f32)) (ix2 n k)
      = S (ix2 n k) * Ideal.div one32 (max (C (ix1 n)) one32) := by
  generalize hy : (shapeCast _ (Host.divf (F := Ideal) (broadcastInDim S50000 ![] bcast_S_S50000 (constant (F := Ideal) S_ .f32 0x3F800000#32))
          (maximumf C (broadcastInDim S50000 ![] bcast_S_S50000 (constant (F := Ideal) S_ .f32 0x3F800000#32)))) shapeCasts_S50000_S50000x1
          : FVec Ideal S50000x1 .f32) = y
  have e1 : (broadcastInDim S50000x128 ![0, 1] bcast_S50000x1_S50000x128_0_1 y : FVec Ideal S50000x128 .f32) (ix2 n k) = y (ix2 n (0 : Fin 1)) :=
    broadcastInDim_apply _ bcast_S50000x1_S50000x128_0_1 y (ix2 n k) (ix2 n (0 : Fin 1)) (fun a => match a with
      | ⟨0, _⟩ => by show n.val = if (50000 : Nat) = 1 then 0 else n.val; rw [if_neg (by decide)]
      | ⟨1, _⟩ => by show 0 = if (1 : Nat) = 1 then 0 else k.val; rw [if_pos rfl])
  have e2 : y (ix2 n (0 : Fin 1)) = Ideal.div one32 (max (C (ix1 n)) one32) := by
    rw [← hy]
    refine (shapeCast_apply _ shapeCasts_S50000_S50000x1 (ix2 n (0 : Fin 1)) (ix1 n) ?_).trans ?_
    · rw [Shape.rowMajor_val_two, Shape.rowMajor_val_one]
      show n.val = n.val * 1 + 0
      omega
    · rfl
  show FloatOps.mulf (F := Ideal) (φ := .f32) (S (ix2 n k))
    ((broadcastInDim S50000x128 ![0, 1] bcast_S50000x1_S50000x128_0_1 y : FVec Ideal S50000x128 .f32) (ix2 n k)) = _
  rw [e1, e2]; rfl

/-- The reciprocal form at `(n, k)`: the sum times the reciprocal of the clamped in-degree of node `n`. -/
theorem meanK_apply (H : (⟨S50000x128, .f32⟩ : BufTy).Contents (Elt Ideal)) (v1 v3 : (⟨S800000, .i32⟩ : BufTy).Contents (Elt Ideal))
    (n : Fin 50000) (k : Fin 128) :
    meanK H v1 v3 (cntInv v3) (ix2 n k) = agg H v1 v3 (ix2 n k) * Ideal.div one32 (max (cnt v3 (ix1 n)) one32) :=
  scaled_apply (agg H v1 v3) (cnt v3) n k

/-- Dividing by a divisor clamped below at one is multiplying by its reciprocal. -/
theorem div_form (s c : EReal) :
    FloatOps.hostDivf (F := Ideal) (φ := .f32) s (FloatOps.maximumf (F := Ideal) (φ := .f32) c (FloatOps.ofBits (F := Ideal) .f32 0x3F800000#32))
      = s * Ideal.div one32 (max c one32) :=
  (mul_recip_eq_div s (max c one32) (max_one_ne_zero c)).symm

/-- The first layer's average in the quotient form is the reciprocal form of the same rows. -/
theorem mean1 (x0 : (⟨S50000x128, .f32⟩ : BufTy).Contents (Elt Ideal)) (x1 : (⟨S2x800000, .i32⟩ : BufTy).Contents (Elt Ideal)) (n : Fin 50000) (k : Fin 128) :
    Cert.ReferenceIdeal.Read.val_main_v22 (F := Ideal) x0 x1 (ix2 n k)
      = meanK (x0) (srcRow x1) (dstRow x1) (cntInv (dstRow x1)) (ix2 n k) := by
  have e : Cert.ReferenceIdeal.Read.idx_main_v20 (Cert.ReferenceIdeal.Read.idx_main_v21 (ix2 n k)) = ix1 n :=
    funext fun a => Fin.ext (by match a with | ⟨0, _⟩ => rfl)
  have hs : Cert.ReferenceIdeal.Read.val_main_v13 (F := Ideal) x0 x1 = agg (x0) (srcRow x1) (dstRow x1) := rfl
  have hc : Cert.ReferenceIdeal.Read.val_main_v17 (F := Ideal) x1 = cnt (dstRow x1) := rfl
  rw [meanK_apply, Cert.ReferenceIdeal.Read.val_main_v22_apply, Cert.ReferenceIdeal.Read.val_main_v21_apply, Cert.ReferenceIdeal.Read.val_main_v20_apply, Cert.ReferenceIdeal.Read.val_main_v19_apply,
    Cert.ReferenceIdeal.Read.val_main_v18_apply, Cert.ReferenceIdeal.Read.val_main_cst_3_apply, e, hs, hc]
  exact div_form _ _

/-- The second layer's average in the quotient form is the reciprocal form of the same rows. -/
theorem mean2 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 : (⟨S128x128, .f32⟩ : BufTy).Contents (Elt Ideal)) (x11 x12 : (⟨S128, .f32⟩ : BufTy).Contents (Elt Ideal)) (n : Fin 50000) (k : Fin 128) :
    Cert.ReferenceIdeal.Read.val_main_v74 (F := Ideal) x0 x1 x2 x3 x4 x11 x12 (ix2 n k)
      = meanK (Cert.ReferenceIdeal.Read.val_main_v55 (F := Ideal) x0 x1 x2 x3 x4 x11 x12) (srcRow x1) (dstRow x1) (cntInv (dstRow x1)) (ix2 n k) := by
  have e : Cert.ReferenceIdeal.Read.idx_main_v72 (Cert.ReferenceIdeal.Read.idx_main_v73 (ix2 n k)) = ix1 n :=
    funext fun a => Fin.ext (by match a with | ⟨0, _⟩ => rfl)
  have hs : Cert.ReferenceIdeal.Read.val_main_v65 (F := Ideal) x0 x1 x2 x3 x4 x11 x12 = agg (Cert.ReferenceIdeal.Read.val_main_v55 (F := Ideal) x0 x1 x2 x3 x4 x11 x12) (srcRow x1) (dstRow x1) := rfl
  have hc : Cert.ReferenceIdeal.Read.val_main_v69 (F := Ideal) x1 = cnt (dstRow x1) := rfl
  rw [meanK_apply, Cert.ReferenceIdeal.Read.val_main_v74_apply, Cert.ReferenceIdeal.Read.val_main_v73_apply, Cert.ReferenceIdeal.Read.val_main_v72_apply, Cert.ReferenceIdeal.Read.val_main_v71_apply,
    Cert.ReferenceIdeal.Read.val_main_v70_apply, Cert.ReferenceIdeal.Read.val_main_cst_14_apply, e, hs, hc]
  exact div_form _ _

/-- The third layer's average in the quotient form is the reciprocal form of the same rows. -/
theorem mean3 (x0 : (⟨S50000x128, .f32⟩ : BufTy).Contents (Elt Ideal)) (x1 : (⟨S2x800000, .i32⟩ : BufTy).Contents (Elt Ideal)) (x2 : (⟨S128x128, .f32⟩ : BufTy).Contents (Elt Ideal)) (x3 : (⟨S128, .f32⟩ : BufTy).Contents (Elt Ideal)) (x4 x5 : (⟨S128x128, .f32⟩ : BufTy).Contents (Elt Ideal)) (x6 : (⟨S128, .f32⟩ : BufTy).Contents (Elt Ideal)) (x7 : (⟨S128x128, .f32⟩ : BufTy).Contents (Elt Ideal)) (x11 x12 x13 x14 : (⟨S128, .f32⟩ : BufTy).Contents (Elt Ideal)) (n : Fin 50000) (k : Fin 128) :
    Cert.ReferenceIdeal.Read.val_main_v126 (F := Ideal) x0 x1 x2 x3 x4 x5 x6 x7 x11 x12 x13 x14 (ix2 n k)
      = meanK (Cert.ReferenceIdeal.Read.val_main_v107 (F := Ideal) x0 x1 x2 x3 x4 x5 x6 x7 x11 x12 x13 x14) (srcRow x1) (dstRow x1) (cntInv (dstRow x1)) (ix2 n k) := by
  have e : Cert.ReferenceIdeal.Read.idx_main_v124 (Cert.ReferenceIdeal.Read.idx_main_v125 (ix2 n k)) = ix1 n :=
    funext fun a => Fin.ext (by match a with | ⟨0, _⟩ => rfl)
  have hs : Cert.ReferenceIdeal.Read.val_main_v117 (F := Ideal) x0 x1 x2 x3 x4 x5 x6 x7 x11 x12 x13 x14 = agg (Cert.ReferenceIdeal.Read.val_main_v107 (F := Ideal) x0 x1 x2 x3 x4 x5 x6 x7 x11 x12 x13 x14) (srcRow x1) (dstRow x1) := rfl
  have hc : Cert.ReferenceIdeal.Read.val_main_v121 (F := Ideal) x1 = cnt (dstRow x1) := rfl
  rw [meanK_apply, Cert.ReferenceIdeal.Read.val_main_v126_apply, Cert.ReferenceIdeal.Read.val_main_v125_apply, Cert.ReferenceIdeal.Read.val_main_v124_apply, Cert.ReferenceIdeal.Read.val_main_v123_apply,
    Cert.ReferenceIdeal.Read.val_main_v122_apply, Cert.ReferenceIdeal.Read.val_main_cst_25_apply, e, hs, hc]
  exact div_form _ _

end Cert.Sage.Mean

end
-- ==== Proof.RefLayers.lean ====
/-
  The reference's three layers, each read at one node and one channel.

  The reference computes a layer on the whole array of 50000 rows: it contracts the neighbours' mean and the
  node's own row with the two transposed weight matrices, adds the bias, and, in the two hidden layers, clamps
  below at zero and normalises each row. Read at node `r` and channel `q`, every operation touches row `r` only:
  a transposed weight at `(k, q)` is the weight at `(q, k)`, a value spread over rows or channels is read at its
  one row or channel, and a row sum is the sum over the 128 channels of row `r` started from the zero word, which
  is zero. Collecting these readings stage by stage gives the specification's `layerAct` for the first two
  layers and `layerLin` for the third, with the mean and the previous layer's result as the two row arguments.
-/
import proofs.«156522_j45260365365373_2_alg».proof.Proof.Gen.ReferenceIdeal.Read
import proofs.«156522_j45260365365373_2_alg».proof.Proof.Spec

noncomputable section

namespace Cert.Sage.Ref

open Cert.Sage Cert.ReferenceIdeal Cert.ReferenceIdeal.Read Idealize.ShloMosaic Idealize.ShloMosaic.ValueIdx
open scoped BigOperators

/-- Closes an equation between two indices of rank one or two, coordinate by coordinate. -/
macro "idx_eq" : tactic => `(tactic| (funext a; first
  | (match a with | ⟨0, _⟩ => rfl | ⟨1, _⟩ => rfl)
  | (match a with | ⟨0, _⟩ => rfl)))

variable (x0 : (⟨S50000x128, .f32⟩ : BufTy).Contents (Elt Ideal)) (x1 : (⟨S2x800000, .i32⟩ : BufTy).Contents (Elt Ideal))
  (x2 : (⟨S128x128, .f32⟩ : BufTy).Contents (Elt Ideal)) (x3 : (⟨S128, .f32⟩ : BufTy).Contents (Elt Ideal))
  (x4 x5 : (⟨S128x128, .f32⟩ : BufTy).Contents (Elt Ideal)) (x6 : (⟨S128, .f32⟩ : BufTy).Contents (Elt Ideal))
  (x7 : (⟨S128x128, .f32⟩ : BufTy).Contents (Elt Ideal)) (x8 : (⟨S64x128, .f32⟩ : BufTy).Contents (Elt Ideal))
  (x9 : (⟨S64, .f32⟩ : BufTy).Contents (Elt Ideal)) (x10 : (⟨S64x128, .f32⟩ : BufTy).Contents (Elt Ideal))
  (x11 x12 x13 x14 : (⟨S128, .f32⟩ : BufTy).Contents (Elt Ideal))

/-! ## Layer one

Index equations first, then each operation that is not pointwise read at an index built from its coordinates, then the
stages of the layer. -/

theorem lidxA1 (r : Fin 50000) (q k : Fin 128) : lidx_main_v24 (ix2 r q) k = ix2 r k := by idx_eq
theorem ridxA1 (r : Fin 50000) (q k : Fin 128) : ridx_main_v24 (ix2 r q) k = ix2 k q := by idx_eq
theorem idxTA1 (q k : Fin 128) : idx_main_v23 (ix2 k q) = ix2 q k := by idx_eq
theorem idxBb1 (r : Fin 50000) (q : Fin 128) : idx_main_v26 (ix2 r q) = ix2 (0 : Fin 1) q := by idx_eq
theorem idxBa1 (q : Fin 128) : idx_main_v25 (ix2 (0 : Fin 1) q) = ix1 q := by idx_eq
theorem lidxB1 (r : Fin 50000) (q k : Fin 128) : lidx_main_v29 (ix2 r q) k = ix2 r k := by idx_eq
theorem ridxB1 (r : Fin 50000) (q k : Fin 128) : ridx_main_v29 (ix2 r q) k = ix2 k q := by idx_eq
theorem idxTB1 (q k : Fin 128) : idx_main_v28 (ix2 k q) = ix2 q k := by idx_eq
theorem idxS11 (r : Fin 50000) (k : Fin 128) : idx_main_v32 (ix1 r) k = ix2 r k := by idx_eq
theorem idxC11 (r : Fin 50000) : idx_main_v33 (ix2 r (0 : Fin 1)) = ix1 r := by idx_eq
theorem idxM11 (r : Fin 50000) (q : Fin 128) : idx_main_v36 (ix2 r q) = ix2 r (0 : Fin 1) := by idx_eq
theorem idxS21 (r : Fin 50000) (k : Fin 128) : idx_main_v39 (ix1 r) k = ix2 r k := by idx_eq
theorem idxC21 (r : Fin 50000) : idx_main_v40 (ix2 r (0 : Fin 1)) = ix1 r := by idx_eq
theorem idxM21 (r : Fin 50000) (q : Fin 128) : idx_main_v43 (ix2 r q) = ix2 r (0 : Fin 1) := by idx_eq
theorem idxR1 (r : Fin 50000) (q : Fin 128) : idx_main_v48 (ix2 r q) = ix2 r (0 : Fin 1) := by idx_eq
theorem idxGb1 (r : Fin 50000) (q : Fin 128) : idx_main_v51 (ix2 r q) = ix2 (0 : Fin 1) q := by idx_eq
theorem idxGa1 (q : Fin 128) : idx_main_v50 (ix2 (0 : Fin 1) q) = ix1 q := by idx_eq
theorem idxHb1 (r : Fin 50000) (q : Fin 128) : idx_main_v54 (ix2 r q) = ix2 (0 : Fin 1) q := by idx_eq
theorem idxHa1 (q : Fin 128) : idx_main_v53 (ix2 (0 : Fin 1) q) = ix1 q := by idx_eq

/-- The transposed left weights at `(k, q)` are the weights at `(q, k)`. -/
theorem rdTA1 (k q : Fin 128) : val_main_v23 (F := Ideal) x2 (ix2 k q) = x2 (ix2 q k) := by
  rw [val_main_v23_apply, idxTA1]
/-- The contraction of the neighbours' mean with the left weights. -/
theorem rdDA1 (r : Fin 50000) (q : Fin 128) :
    val_main_v24 (F := Ideal) x0 x1 x2 (ix2 r q) = ∑ k : Fin 128, (val_main_v22 (F := Ideal) x0 x1) (ix2 r k) * x2 (ix2 q k) := by
  rw [val_main_v24_apply]
  exact Finset.sum_congr rfl fun k _ => by rw [lidxA1, ridxA1, rdTA1]
/-- The bias, spread over the rows. -/
theorem rdBias1 (r : Fin 50000) (q : Fin 128) : val_main_v26 (F := Ideal) x3 (ix2 r q) = x3 (ix1 q) := by
  rw [val_main_v26_apply, idxBb1, val_main_v25_apply, idxBa1]
/-- The transposed right weights. -/
theorem rdTB1 (k q : Fin 128) : val_main_v28 (F := Ideal) x4 (ix2 k q) = x4 (ix2 q k) := by
  rw [val_main_v28_apply, idxTB1]
/-- The contraction of the node's own row with the right weights. -/
theorem rdDB1 (r : Fin 50000) (q : Fin 128) :
    val_main_v29 (F := Ideal) x0 x4 (ix2 r q) = ∑ k : Fin 128, x0 (ix2 r k) * x4 (ix2 q k) := by
  rw [val_main_v29_apply]
  exact Finset.sum_congr rfl fun k _ => by rw [lidxB1, ridxB1, rdTB1]
/-- The clamp's zero. -/
theorem rdZ1 (r : Fin 50000) (q : Fin 128) : val_main_call0_v0 (F := Ideal) (ix2 r q) = 0 := by
  rw [val_main_call0_v0_apply, val_main_call0_cst_apply, Ideal.ofBits_def, Ideal.ofBits_zero_f32]
/-- The first row sum starts from the zero word. -/
theorem rdS11 (r : Fin 50000) :
    val_main_v32 (F := Ideal) x0 x1 x2 x3 x4 (ix1 r) = ∑ k : Fin 128, val_main_v31 (F := Ideal) x0 x1 x2 x3 x4 (ix2 r k) := by
  rw [val_main_v32_apply, val_main_cst_4_apply, Ideal.ofBits_def, Ideal.ofBits_zero_f32, zero_add]
  exact Finset.sum_congr rfl fun k _ => by rw [idxS11]
theorem rdC11 (r : Fin 50000) : val_main_v33 (F := Ideal) x0 x1 x2 x3 x4 (ix2 r (0 : Fin 1)) = val_main_v32 (F := Ideal) x0 x1 x2 x3 x4 (ix1 r) := by
  rw [val_main_v33_apply, idxC11]
theorem rdN11 (r : Fin 50000) : val_main_v34 (F := Ideal) (ix2 r (0 : Fin 1)) = c128 := by
  rw [val_main_v34_apply, val_main_cst_5_apply, Ideal.ofBits_def]
theorem rdM11 (r : Fin 50000) (q : Fin 128) : val_main_v36 (F := Ideal) x0 x1 x2 x3 x4 (ix2 r q) = val_main_v35 (F := Ideal) x0 x1 x2 x3 x4 (ix2 r (0 : Fin 1)) := by
  rw [val_main_v36_apply, idxM11]
/-- The second row sum, likewise. -/
theorem rdS21 (r : Fin 50000) :
    val_main_v39 (F := Ideal) x0 x1 x2 x3 x4 (ix1 r) = ∑ k : Fin 128, val_main_v38 (F := Ideal) x0 x1 x2 x3 x4 (ix2 r k) := by
  rw [val_main_v39_apply, val_main_cst_6_apply, Ideal.ofBits_def, Ideal.ofBits_zero_f32, zero_add]
  exact Finset.sum_congr rfl fun k _ => by rw [idxS21]
theorem rdC21 (r : Fin 50000) : val_main_v40 (F := Ideal) x0 x1 x2 x3 x4 (ix2 r (0 : Fin 1)) = val_main_v39 (F := Ideal) x0 x1 x2 x3 x4 (ix1 r) := by
  rw [val_main_v40_apply, idxC21]
theorem rdN21 (r : Fin 50000) : val_main_v41 (F := Ideal) (ix2 r (0 : Fin 1)) = c128 := by
  rw [val_main_v41_apply, val_main_cst_7_apply, Ideal.ofBits_def]
theorem rdM21 (r : Fin 50000) (q : Fin 128) : val_main_v43 (F := Ideal) x0 x1 x2 x3 x4 (ix2 r q) = val_main_v35 (F := Ideal) x0 x1 x2 x3 x4 (ix2 r (0 : Fin 1)) := by
  rw [val_main_v43_apply, idxM21]
theorem rdE1 (r : Fin 50000) : val_main_v45 (F := Ideal) (ix2 r (0 : Fin 1)) = eps := by
  rw [val_main_v45_apply, val_main_cst_8_apply, Ideal.ofBits_def]
theorem rdR1 (r : Fin 50000) (q : Fin 128) : val_main_v48 (F := Ideal) x0 x1 x2 x3 x4 (ix2 r q) = val_main_v47 (F := Ideal) x0 x1 x2 x3 x4 (ix2 r (0 : Fin 1)) := by
  rw [val_main_v48_apply, idxR1]
/-- The scale and the shift, spread over the rows. -/
theorem rdG1 (r : Fin 50000) (q : Fin 128) : val_main_v51 (F := Ideal) x11 (ix2 r q) = x11 (ix1 q) := by
  rw [val_main_v51_apply, idxGb1, val_main_v50_apply, idxGa1]
theorem rdH1 (r : Fin 50000) (q : Fin 128) : val_main_v54 (F := Ideal) x12 (ix2 r q) = x12 (ix1 q) := by
  rw [val_main_v54_apply, idxHb1, val_main_v53_apply, idxHa1]

/-- The two contractions and the bias. -/
theorem lin1 (r : Fin 50000) (q : Fin 128) :
    val_main_v30 (F := Ideal) x0 x1 x2 x3 x4 (ix2 r q) = lin (mat x2) (vec x3) (mat x4) (mat (val_main_v22 (F := Ideal) x0 x1) r) (mat x0 r) q := by
  rw [val_main_v30_apply, val_main_v27_apply, rdDA1, rdBias1, rdDB1, Ideal.addf_def, Ideal.addf_def]
  rfl

/-- The clamp below at zero. -/
theorem relu1 (r : Fin 50000) (q : Fin 128) :
    val_main_v31 (F := Ideal) x0 x1 x2 x3 x4 (ix2 r q) = max (lin (mat x2) (vec x3) (mat x4) (mat (val_main_v22 (F := Ideal) x0 x1) r) (mat x0 r) q) 0 := by
  rw [val_main_v31_apply, lin1, rdZ1, Ideal.maximumf_def]

/-- The row's mean. -/
theorem mu1 (r : Fin 50000) :
    val_main_v35 (F := Ideal) x0 x1 x2 x3 x4 (ix2 r (0 : Fin 1))
      = mu (fun q' => max (lin (mat x2) (vec x3) (mat x4) (mat (val_main_v22 (F := Ideal) x0 x1) r) (mat x0 r) q') 0) := by
  rw [val_main_v35_apply, rdC11, rdS11, rdN11, Ideal.hostDivf_def]
  simp only [relu1]
  rfl

/-- A squared deviation from the row's mean. -/
theorem sq1 (r : Fin 50000) (k : Fin 128) :
    val_main_v38 (F := Ideal) x0 x1 x2 x3 x4 (ix2 r k)
      = (max (lin (mat x2) (vec x3) (mat x4) (mat (val_main_v22 (F := Ideal) x0 x1) r) (mat x0 r) k) 0 - mu (fun q' => max (lin (mat x2) (vec x3) (mat x4) (mat (val_main_v22 (F := Ideal) x0 x1) r) (mat x0 r) q') 0))
        * (max (lin (mat x2) (vec x3) (mat x4) (mat (val_main_v22 (F := Ideal) x0 x1) r) (mat x0 r) k) 0 - mu (fun q' => max (lin (mat x2) (vec x3) (mat x4) (mat (val_main_v22 (F := Ideal) x0 x1) r) (mat x0 r) q') 0)) := by
  rw [val_main_v38_apply, val_main_v37_apply, rdM11, relu1, mu1, Ideal.mulf_def, Ideal.subf_def]

/-- The row's mean squared deviation. -/
theorem var1 (r : Fin 50000) :
    val_main_v42 (F := Ideal) x0 x1 x2 x3 x4 (ix2 r (0 : Fin 1))
      = var (fun q' => max (lin (mat x2) (vec x3) (mat x4) (mat (val_main_v22 (F := Ideal) x0 x1) r) (mat x0 r) q') 0) := by
  rw [val_main_v42_apply, rdC21, rdS21, rdN21, Ideal.hostDivf_def]
  simp only [sq1]
  rfl

/-- The whole hidden layer at node `r`, channel `q`. -/
theorem layer1 (r : Fin 50000) (q : Fin 128) :
    val_main_v55 (F := Ideal) x0 x1 x2 x3 x4 x11 x12 (ix2 r q)
      = layerAct (mat (val_main_v22 (F := Ideal) x0 x1)) (mat x0) (mat x2) (vec x3) (mat x4) (vec x11) (vec x12) r q := by
  rw [val_main_v55_apply, val_main_v52_apply, val_main_v49_apply, val_main_v44_apply, rdM21, rdR1, val_main_v47_apply, val_main_v46_apply, rdE1, rdG1, rdH1,
    relu1, mu1, var1, Ideal.addf_def, Ideal.addf_def, Ideal.mulf_def, Ideal.mulf_def, Ideal.subf_def,
    Ideal.hostUnary_rsqrt_def]
  rfl

/-! ## Layer two

Index equations first, then each operation that is not pointwise read at an index built from its coordinates, then the
stages of the layer. -/

theorem lidxA2 (r : Fin 50000) (q k : Fin 128) : lidx_main_v76 (ix2 r q) k = ix2 r k := by idx_eq
theorem ridxA2 (r : Fin 50000) (q k : Fin 128) : ridx_main_v76 (ix2 r q) k = ix2 k q := by idx_eq
theorem idxTA2 (q k : Fin 128) : idx_main_v75 (ix2 k q) = ix2 q k := by idx_eq
theorem idxBb2 (r : Fin 50000) (q : Fin 128) : idx_main_v78 (ix2 r q) = ix2 (0 : Fin 1) q := by idx_eq
theorem idxBa2 (q : Fin 128) : idx_main_v77 (ix2 (0 : Fin 1) q) = ix1 q := by idx_eq
theorem lidxB2 (r : Fin 50000) (q k : Fin 128) : lidx_main_v81 (ix2 r q) k = ix2 r k := by idx_eq
theorem ridxB2 (r : Fin 50000) (q k : Fin 128) : ridx_main_v81 (ix2 r q) k = ix2 k q := by idx_eq
theorem idxTB2 (q k : Fin 128) : idx_main_v80 (ix2 k q) = ix2 q k := by idx_eq
theorem idxS12 (r : Fin 50000) (k : Fin 128) : idx_main_v84 (ix1 r) k = ix2 r k := by idx_eq
theorem idxC12 (r : Fin 50000) : idx_main_v85 (ix2 r (0 : Fin 1)) = ix1 r := by idx_eq
theorem idxM12 (r : Fin 50000) (q : Fin 128) : idx_main_v88 (ix2 r q) = ix2 r (0 : Fin 1) := by idx_eq
theorem idxS22 (r : Fin 50000) (k : Fin 128) : idx_main_v91 (ix1 r) k = ix2 r k := by idx_eq
theorem idxC22 (r : Fin 50000) : idx_main_v92 (ix2 r (0 : Fin 1)) = ix1 r := by idx_eq
theorem idxM22 (r : Fin 50000) (q : Fin 128) : idx_main_v95 (ix2 r q) = ix2 r (0 : Fin 1) := by idx_eq
theorem idxR2 (r : Fin 50000) (q : Fin 128) : idx_main_v100 (ix2 r q) = ix2 r (0 : Fin 1) := by idx_eq
theorem idxGb2 (r : Fin 50000) (q : Fin 128) : idx_main_v103 (ix2 r q) = ix2 (0 : Fin 1) q := by idx_eq
theorem idxGa2 (q : Fin 128) : idx_main_v102 (ix2 (0 : Fin 1) q) = ix1 q := by idx_eq
theorem idxHb2 (r : Fin 50000) (q : Fin 128) : idx_main_v106 (ix2 r q) = ix2 (0 : Fin 1) q := by idx_eq
theorem idxHa2 (q : Fin 128) : idx_main_v105 (ix2 (0 : Fin 1) q) = ix1 q := by idx_eq

/-- The transposed left weights at `(k, q)` are the weights at `(q, k)`. -/
theorem rdTA2 (k q : Fin 128) : val_main_v75 (F := Ideal) x5 (ix2 k q) = x5 (ix2 q k) := by
  rw [val_main_v75_apply, idxTA2]
/-- The contraction of the neighbours' mean with the left weights. -/
theorem rdDA2 (r : Fin 50000) (q : Fin 128) :
    val_main_v76 (F := Ideal) x0 x1 x2 x3 x4 x5 x11 x12 (ix2 r q) = ∑ k : Fin 128, (val_main_v74 (F := Ideal) x0 x1 x2 x3 x4 x11 x12) (ix2 r k) * x5 (ix2 q k) := by
  rw [val_main_v76_apply]
  exact Finset.sum_congr rfl fun k _ => by rw [lidxA2, ridxA2, rdTA2]
/-- The bias, spread over the rows. -/
theorem rdBias2 (r : Fin 50000) (q : Fin 128) : val_main_v78 (F := Ideal) x6 (ix2 r q) = x6 (ix1 q) := by
  rw [val_main_v78_apply, idxBb2, val_main_v77_apply, idxBa2]
/-- The transposed right weights. -/
theorem rdTB2 (k q : Fin 128) : val_main_v80 (F := Ideal) x7 (ix2 k q) = x7 (ix2 q k) := by
  rw [val_main_v80_apply, idxTB2]
/-- The contraction of the node's own row with the right weights. -/
theorem rdDB2 (r : Fin 50000) (q : Fin 128) :
    val_main_v81 (F := Ideal) x0 x1 x2 x3 x4 x7 x11 x12 (ix2 r q) = ∑ k : Fin 128, (val_main_v55 (F := Ideal) x0 x1 x2 x3 x4 x11 x12) (ix2 r k) * x7 (ix2 q k) := by
  rw [val_main_v81_apply]
  exact Finset.sum_congr rfl fun k _ => by rw [lidxB2, ridxB2, rdTB2]
/-- The clamp's zero. -/
theorem rdZ2 (r : Fin 50000) (q : Fin 128) : val_main_call1_v0 (F := Ideal) (ix2 r q) = 0 := by
  rw [val_main_call1_v0_apply, val_main_call1_cst_apply, Ideal.ofBits_def, Ideal.ofBits_zero_f32]
/-- The first row sum starts from the zero word. -/
theorem rdS12 (r : Fin 50000) :
    val_main_v84 (F := Ideal) x0 x1 x2 x3 x4 x5 x6 x7 x11 x12 (ix1 r) = ∑ k : Fin 128, val_main_v83 (F := Ideal) x0 x1 x2 x3 x4 x5 x6 x7 x11 x12 (ix2 r k) := by
  rw [val_main_v84_apply, val_main_cst_15_apply, Ideal.ofBits_def, Ideal.ofBits_zero_f32, zero_add]
  exact Finset.sum_congr rfl fun k _ => by rw [idxS12]
theorem rdC12 (r : Fin 50000) : val_main_v85 (F := Ideal) x0 x1 x2 x3 x4 x5 x6 x7 x11 x12 (ix2 r (0 : Fin 1)) = val_main_v84 (F := Ideal) x0 x1 x2 x3 x4 x5 x6 x7 x11 x12 (ix1 r) := by
  rw [val_main_v85_apply, idxC12]
theorem rdN12 (r : Fin 50000) : val_main_v86 (F := Ideal) (ix2 r (0 : Fin 1)) = c128 := by
  rw [val_main_v86_apply, val_main_cst_16_apply, Ideal.ofBits_def]
theorem rdM12 (r : Fin 50000) (q : Fin 128) : val_main_v88 (F := Ideal) x0 x1 x2 x3 x4 x5 x6 x7 x11 x12 (ix2 r q) = val_main_v87 (F := Ideal) x0 x1 x2 x3 x4 x5 x6 x7 x11 x12 (ix2 r (0 : Fin 1)) := by
  rw [val_main_v88_apply, idxM12]
/-- The second row sum, likewise. -/
theorem rdS22 (r : Fin 50000) :
    val_main_v91 (F := Ideal) x0 x1 x2 x3 x4 x5 x6 x7 x11 x12 (ix1 r) = ∑ k : Fin 128, val_main_v90 (F := Ideal) x0 x1 x2 x3 x4 x5 x6 x7 x11 x12 (ix2 r k) := by
  rw [val_main_v91_apply, val_main_cst_17_apply, Ideal.ofBits_def, Ideal.ofBits_zero_f32, zero_add]
  exact Finset.sum_congr rfl fun k _ => by rw [idxS22]
theorem rdC22 (r : Fin 50000) : val_main_v92 (F := Ideal) x0 x1 x2 x3 x4 x5 x6 x7 x11 x12 (ix2 r (0 : Fin 1)) = val_main_v91 (F := Ideal) x0 x1 x2 x3 x4 x5 x6 x7 x11 x12 (ix1 r) := by
  rw [val_main_v92_apply, idxC22]
theorem rdN22 (r : Fin 50000) : val_main_v93 (F := Ideal) (ix2 r (0 : Fin 1)) = c128 := by
  rw [val_main_v93_apply, val_main_cst_18_apply, Ideal.ofBits_def]
theorem rdM22 (r : Fin 50000) (q : Fin 128) : val_main_v95 (F := Ideal) x0 x1 x2 x3 x4 x5 x6 x7 x11 x12 (ix2 r q) = val_main_v87 (F := Ideal) x0 x1 x2 x3 x4 x5 x6 x7 x11 x12 (ix2 r (0 : Fin 1)) := by
  rw [val_main_v95_apply, idxM22]
theorem rdE2 (r : Fin 50000) : val_main_v97 (F := Ideal) (ix2 r (0 : Fin 1)) = eps := by
  rw [val_main_v97_apply, val_main_cst_19_apply, Ideal.ofBits_def]
theorem rdR2 (r : Fin 50000) (q : Fin 128) : val_main_v100 (F := Ideal) x0 x1 x2 x3 x4 x5 x6 x7 x11 x12 (ix2 r q) = val_main_v99 (F := Ideal) x0 x1 x2 x3 x4 x5 x6 x7 x11 x12 (ix2 r (0 : Fin 1)) := by
  rw [val_main_v100_apply, idxR2]
/-- The scale and the shift, spread over the rows. -/
theorem rdG2 (r : Fin 50000) (q : Fin 128) : val_main_v103 (F := Ideal) x13 (ix2 r q) = x13 (ix1 q) := by
  rw [val_main_v103_apply, idxGb2, val_main_v102_apply, idxGa2]
theorem rdH2 (r : Fin 50000) (q : Fin 128) : val_main_v106 (F := Ideal) x14 (ix2 r q) = x14 (ix1 q) := by
  rw [val_main_v106_apply, idxHb2, val_main_v105_apply, idxHa2]

/-- The two contractions and the bias. -/
theorem lin2 (r : Fin 50000) (q : Fin 128) :
    val_main_v82 (F := Ideal) x0 x1 x2 x3 x4 x5 x6 x7 x11 x12 (ix2 r q) = lin (mat x5) (vec x6) (mat x7) (mat (val_main_v74 (F := Ideal) x0 x1 x2 x3 x4 x11 x12) r) (mat (val_main_v55 (F := Ideal) x0 x1 x2 x3 x4 x11 x12) r) q := by
  rw [val_main_v82_apply, val_main_v79_apply, rdDA2, rdBias2, rdDB2, Ideal.addf_def, Ideal.addf_def]
  rfl

/-- The clamp below at zero. -/
theorem relu2 (r : Fin 50000) (q : Fin 128) :
    val_main_v83 (F := Ideal) x0 x1 x2 x3 x4 x5 x6 x7 x11 x12 (ix2 r q) = max (lin (mat x5) (vec x6) (mat x7) (mat (val_main_v74 (F := Ideal) x0 x1 x2 x3 x4 x11 x12) r) (mat (val_main_v55 (F := Ideal) x0 x1 x2 x3 x4 x11 x12) r) q) 0 := by
  rw [val_main_v83_apply, lin2, rdZ2, Ideal.maximumf_def]

/-- The row's mean. -/
theorem mu2 (r : Fin 50000) :
    val_main_v87 (F := Ideal) x0 x1 x2 x3 x4 x5 x6 x7 x11 x12 (ix2 r (0 : Fin 1))
      = mu (fun q' => max (lin (mat x5) (vec x6) (mat x7) (mat (val_main_v74 (F := Ideal) x0 x1 x2 x3 x4 x11 x12) r) (mat (val_main_v55 (F := Ideal) x0 x1 x2 x3 x4 x11 x12) r) q') 0) := by
  rw [val_main_v87_apply, rdC12, rdS12, rdN12, Ideal.hostDivf_def]
  simp only [relu2]
  rfl

/-- A squared deviation from the row's mean. -/
theorem sq2 (r : Fin 50000) (k : Fin 128) :
    val_main_v90 (F := Ideal) x0 x1 x2 x3 x4 x5 x6 x7 x11 x12 (ix2 r k)
      = (max (lin (mat x5) (vec x6) (mat x7) (mat (val_main_v74 (F := Ideal) x0 x1 x2 x3 x4 x11 x12) r) (mat (val_main_v55 (F := Ideal) x0 x1 x2 x3 x4 x11 x12) r) k) 0 - mu (fun q' => max (lin (mat x5) (vec x6) (mat x7) (mat (val_main_v74 (F := Ideal) x0 x1 x2 x3 x4 x11 x12) r) (mat (val_main_v55 (F := Ideal) x0 x1 x2 x3 x4 x11 x12) r) q') 0))
        * (max (lin (mat x5) (vec x6) (mat x7) (mat (val_main_v74 (F := Ideal) x0 x1 x2 x3 x4 x11 x12) r) (mat (val_main_v55 (F := Ideal) x0 x1 x2 x3 x4 x11 x12) r) k) 0 - mu (fun q' => max (lin (mat x5) (vec x6) (mat x7) (mat (val_main_v74 (F := Ideal) x0 x1 x2 x3 x4 x11 x12) r) (mat (val_main_v55 (F := Ideal) x0 x1 x2 x3 x4 x11 x12) r) q') 0)) := by
  rw [val_main_v90_apply, val_main_v89_apply, rdM12, relu2, mu2, Ideal.mulf_def, Ideal.subf_def]

/-- The row's mean squared deviation. -/
theorem var2 (r : Fin 50000) :
    val_main_v94 (F := Ideal) x0 x1 x2 x3 x4 x5 x6 x7 x11 x12 (ix2 r (0 : Fin 1))
      = var (fun q' => max (lin (mat x5) (vec x6) (mat x7) (mat (val_main_v74 (F := Ideal) x0 x1 x2 x3 x4 x11 x12) r) (mat (val_main_v55 (F := Ideal) x0 x1 x2 x3 x4 x11 x12) r) q') 0) := by
  rw [val_main_v94_apply, rdC22, rdS22, rdN22, Ideal.hostDivf_def]
  simp only [sq2]
  rfl

/-- The whole hidden layer at node `r`, channel `q`. -/
theorem layer2 (r : Fin 50000) (q : Fin 128) :
    val_main_v107 (F := Ideal) x0 x1 x2 x3 x4 x5 x6 x7 x11 x12 x13 x14 (ix2 r q)
      = layerAct (mat (val_main_v74 (F := Ideal) x0 x1 x2 x3 x4 x11 x12)) (mat (val_main_v55 (F := Ideal) x0 x1 x2 x3 x4 x11 x12)) (mat x5) (vec x6) (mat x7) (vec x13) (vec x14) r q := by
  rw [val_main_v107_apply, val_main_v104_apply, val_main_v101_apply, val_main_v96_apply, rdM22, rdR2, val_main_v99_apply, val_main_v98_apply, rdE2, rdG2, rdH2,
    relu2, mu2, var2, Ideal.addf_def, Ideal.addf_def, Ideal.mulf_def, Ideal.mulf_def, Ideal.subf_def,
    Ideal.hostUnary_rsqrt_def]
  rfl

/-! ## Layer three -/

theorem lidxA3 (r : Fin 50000) (q : Fin 64) (k : Fin 128) : lidx_main_v128 (ix2 r q) k = ix2 r k := by idx_eq
theorem ridxA3 (r : Fin 50000) (q : Fin 64) (k : Fin 128) : ridx_main_v128 (ix2 r q) k = ix2 k q := by idx_eq
theorem idxTA3 (q : Fin 64) (k : Fin 128) : idx_main_v127 (ix2 k q) = ix2 q k := by idx_eq
theorem idxBb3 (r : Fin 50000) (q : Fin 64) : idx_main_v130 (ix2 r q) = ix2 (0 : Fin 1) q := by idx_eq
theorem idxBa3 (q : Fin 64) : idx_main_v129 (ix2 (0 : Fin 1) q) = ix1 q := by idx_eq
theorem lidxB3 (r : Fin 50000) (q : Fin 64) (k : Fin 128) : lidx_main_v133 (ix2 r q) k = ix2 r k := by idx_eq
theorem ridxB3 (r : Fin 50000) (q : Fin 64) (k : Fin 128) : ridx_main_v133 (ix2 r q) k = ix2 k q := by idx_eq
theorem idxTB3 (q : Fin 64) (k : Fin 128) : idx_main_v132 (ix2 k q) = ix2 q k := by idx_eq

/-- The transposed left weights at `(k, q)` are the weights at `(q, k)`. -/
theorem rdTA3 (k : Fin 128) (q : Fin 64) : val_main_v127 (F := Ideal) x8 (ix2 k q) = x8 (ix2 q k) := by
  rw [val_main_v127_apply, idxTA3]
/-- The contraction of the neighbours' mean with the left weights. -/
theorem rdDA3 (r : Fin 50000) (q : Fin 64) :
    val_main_v128 (F := Ideal) x0 x1 x2 x3 x4 x5 x6 x7 x8 x11 x12 x13 x14 (ix2 r q)
      = ∑ k : Fin 128, (val_main_v126 (F := Ideal) x0 x1 x2 x3 x4 x5 x6 x7 x11 x12 x13 x14) (ix2 r k) * x8 (ix2 q k) := by
  rw [val_main_v128_apply]
  exact Finset.sum_congr rfl fun k _ => by rw [lidxA3, ridxA3, rdTA3]
/-- The bias, spread over the rows. -/
theorem rdBias3 (r : Fin 50000) (q : Fin 64) : val_main_v130 (F := Ideal) x9 (ix2 r q) = x9 (ix1 q) := by
  rw [val_main_v130_apply, idxBb3, val_main_v129_apply, idxBa3]
/-- The transposed right weights. -/
theorem rdTB3 (k : Fin 128) (q : Fin 64) : val_main_v132 (F := Ideal) x10 (ix2 k q) = x10 (ix2 q k) := by
  rw [val_main_v132_apply, idxTB3]
/-- The contraction of the node's own row with the right weights. -/
theorem rdDB3 (r : Fin 50000) (q : Fin 64) :
    val_main_v133 (F := Ideal) x0 x1 x2 x3 x4 x5 x6 x7 x10 x11 x12 x13 x14 (ix2 r q)
      = ∑ k : Fin 128, (val_main_v107 (F := Ideal) x0 x1 x2 x3 x4 x5 x6 x7 x11 x12 x13 x14) (ix2 r k) * x10 (ix2 q k) := by
  rw [val_main_v133_apply]
  exact Finset.sum_congr rfl fun k _ => by rw [lidxB3, ridxB3, rdTB3]

/-- The last layer at node `r`, channel `q`: the two contractions and the bias, nothing after them. -/
theorem layer3 (r : Fin 50000) (q : Fin 64) :
    val_main_v134 (F := Ideal) x0 x1 x2 x3 x4 x5 x6 x7 x8 x9 x10 x11 x12 x13 x14 (ix2 r q)
      = layerLin (mat (val_main_v126 (F := Ideal) x0 x1 x2 x3 x4 x5 x6 x7 x11 x12 x13 x14))
          (mat (val_main_v107 (F := Ideal) x0 x1 x2 x3 x4 x5 x6 x7 x11 x12 x13 x14)) (mat x8) (vec x9) (mat x10) r q := by
  rw [val_main_v134_apply, val_main_v131_apply, rdDA3, rdBias3, rdDB3, Ideal.addf_def, Ideal.addf_def]
  rfl

end Cert.Sage.Ref

end
-- ==== Proof.Bridge.lean ====
/-
  The three layers, one after the other: what the tiled program leaves in each layer's output array is what the
  plain program computes for that layer.

  Layer by layer both programs apply the same function of rows to an average and to the previous layer's rows. For
  the first layer the previous rows are the input features on both sides, and the two averages agree entry by entry;
  so the first outputs agree. Then the second layer's previous rows agree, hence its averages, hence its outputs; and
  likewise the third. The weights, biases, scales and shifts are the same arguments on both sides, a vector and its
  one-row re-laying holding the same entries.
-/
import proofs.«156522_j45260365365373_2_alg».proof.Proof.KernelBlocks
import proofs.«156522_j45260365365373_2_alg».proof.Proof.KernelHost
import proofs.«156522_j45260365365373_2_alg».proof.Proof.Mean
import proofs.«156522_j45260365365373_2_alg».proof.Proof.RefLayers

set_option maxRecDepth 16384

noncomputable section

namespace Cert.Sage.Bridge

open Cert.KernelIdeal Cert.KernelIdeal.Gen Cert.Sage Cert.Sage.Host Cert.Sage.Mean Cert.Sage.Blocks
open Idealize.ShloMosaic Idealize.ShloMosaic.TcCoe Idealize.ShloMosaic.ValueIdx Idealize.SL.Sem

/-- A vector re-laid as a one-row matrix holds, in its one row, the vector's entries. -/
theorem row0_cast {b : ℕ} (x : (⟨1, ![b]⟩ : Shape).Idx → EReal) (h : (⟨1, ![b]⟩ : Shape).ShapeCasts ⟨2, ![1, b]⟩) :
    row0 (shapeCast ⟨2, ![1, b]⟩ x h) = vec x := by
  funext q
  refine shapeCast_apply x h (ix2 (0 : Fin 1) q) (ix1 q) ?_
  rw [Shape.rowMajor_val_two, Shape.rowMajor_val_one]
  show q.val = 0 * b + q.val
  omega

variable (m : (ℓ : Loc nD τ sig) → Buf (Elt Ideal) ℓ) (ρ : Dev nD → PrngReg) (c : Dev nD)

/-- After the first region its output array holds the plain program's first hidden layer. -/
theorem layer1 : W2 m ρ c (Proc.devRef .tc main_v28) = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) := by
  funext i
  obtain ⟨r, q, rfl⟩ : ∃ (r : Fin 50000) (q : Fin 128), i = ix2 r q := ⟨i 0, i 1, eq_ix2 i⟩
  refine ((congrFun (W2_arr m ρ c 7) (ix2 r q)).trans (final0_apply (V1 m ρ) c r q)).trans ?_
  rw [Cert.Sage.Ref.layer1]
  have hM : mat (V1 m ρ c main_v24) = mat (Cert.ReferenceIdeal.Read.val_main_v22 (F := Ideal) (m ((c : Thread nD τ).loc main_arg0)) (m ((c : Thread nD τ).loc main_arg1))) := by
    funext n k
    show W1 m ρ c (Proc.devRef .tc main_v24) (ix2 n k) = _
    rw [W1_v24]; exact (mean1 _ _ n k).symm
  have hX : V1 m ρ c main_arg0 = m ((c : Thread nD τ).loc main_arg0) := W1_arg m ρ c _ (by simp)
  have hWl : V1 m ρ c main_arg2 = m ((c : Thread nD τ).loc main_arg2) := W1_arg m ρ c _ (by simp)
  have hWr : V1 m ρ c main_arg4 = m ((c : Thread nD τ).loc main_arg4) := W1_arg m ρ c _ (by simp)
  have hb : row0 (V1 m ρ c main_v25) = vec (m ((c : Thread nD τ).loc main_arg3)) := by
    show row0 (W1 m ρ c (Proc.devRef .tc main_v25)) = _
    rw [W1_v25]; exact row0_cast _ _
  have hg : row0 (V1 m ρ c main_v26) = vec (m ((c : Thread nD τ).loc main_arg11)) := by
    show row0 (W1 m ρ c (Proc.devRef .tc main_v26)) = _
    rw [W1_v26]; exact row0_cast _ _
  have hbeta : row0 (V1 m ρ c main_v27) = vec (m ((c : Thread nD τ).loc main_arg12)) := by
    show row0 (W1 m ρ c (Proc.devRef .tc main_v27)) = _
    rw [W1_v27]; exact row0_cast _ _
  rw [hM, hX, hWl, hWr, hb, hg, hbeta]

/-- After the second region its output array holds the plain program's second hidden layer. -/
theorem layer2 : W4 m ρ c (Proc.devRef .tc main_v44) = Cert.ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) := by
  funext i
  obtain ⟨r, q, rfl⟩ : ∃ (r : Fin 50000) (q : Fin 128), i = ix2 r q := ⟨i 0, i 1, eq_ix2 i⟩
  refine ((congrFun (W4_arr m ρ c 7) (ix2 r q)).trans (final1_apply (V3 m ρ) c r q)).trans ?_
  rw [Cert.Sage.Ref.layer2]
  have hX : V3 m ρ c main_v28 = Cert.ReferenceIdeal.Read.val_main_v55 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12)) :=
    (W3_keep m ρ c _ (by simp)).trans (layer1 m ρ c)
  have hM : mat (V3 m ρ c main_v40) = mat (Cert.ReferenceIdeal.Read.val_main_v74 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg11)) (m ((c : Thread nD τ).loc main_arg12))) := by
    funext n k
    show W3 m ρ c (Proc.devRef .tc main_v40) (ix2 n k) = _
    rw [W3_v40, layer1, W2_v1, W2_v3, W2_v12]; exact (mean2 _ _ _ _ _ _ _ n k).symm
  have hWl : V3 m ρ c main_arg5 = m ((c : Thread nD τ).loc main_arg5) := (W3_keep m ρ c _ (by simp)).trans (W2_arg m ρ c _ (by simp))
  have hWr : V3 m ρ c main_arg7 = m ((c : Thread nD τ).loc main_arg7) := (W3_keep m ρ c _ (by simp)).trans (W2_arg m ρ c _ (by simp))
  have hb : row0 (V3 m ρ c main_v41) = vec (m ((c : Thread nD τ).loc main_arg6)) := by
    show row0 (W3 m ρ c (Proc.devRef .tc main_v41)) = _
    rw [W3_v41, W2_arg m ρ c _ (by simp)]; exact row0_cast _ _
  have hg : row0 (V3 m ρ c main_v42) = vec (m ((c : Thread nD τ).loc main_arg13)) := by
    show row0 (W3 m ρ c (Proc.devRef .tc main_v42)) = _
    rw [W3_v42, W2_arg m ρ c _ (by simp)]; exact row0_cast _ _
  have hbeta : row0 (V3 m ρ c main_v43) = vec (m ((c : Thread nD τ).loc main_arg14)) := by
    show row0 (W3 m ρ c (Proc.devRef .tc main_v43)) = _
    rw [W3_v43, W2_arg m ρ c _ (by simp)]; exact row0_cast _ _
  rw [hM, hX, hWl, hWr, hb, hg, hbeta]

/-- After the third region its output array holds the plain program's result. -/
theorem layer3 : W6 m ρ c (Proc.devRef .tc main_v58) = Cert.ReferenceIdeal.Read.val_main_v134 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg8)) (m ((c : Thread nD τ).loc main_arg9)) (m ((c : Thread nD τ).loc main_arg10)) (m ((c : Thread nD τ).loc main_arg11)) (m ((c : Thread nD τ).loc main_arg12)) (m ((c : Thread nD τ).loc main_arg13)) (m ((c : Thread nD τ).loc main_arg14)) := by
  funext i
  obtain ⟨r, q, rfl⟩ : ∃ (r : Fin 50000) (q : Fin 64), i = ix2 r q := ⟨i 0, i 1, eq_ix2 i⟩
  refine ((congrFun (W6_arr m ρ c 5) (ix2 r q)).trans (final2_apply (V5 m ρ) c r q)).trans ?_
  rw [Cert.Sage.Ref.layer3]
  have hX : V5 m ρ c main_v44 = Cert.ReferenceIdeal.Read.val_main_v107 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14)) :=
    (W5_keep m ρ c _ (by simp)).trans (layer2 m ρ c)
  have hM : mat (V5 m ρ c main_v56) = mat (Cert.ReferenceIdeal.Read.val_main_v126 (F := Ideal) (m ((c : Thread nD τ).loc main_arg0)) (m ((c : Thread nD τ).loc main_arg1)) (m ((c : Thread nD τ).loc main_arg2)) (m ((c : Thread nD τ).loc main_arg3)) (m ((c : Thread nD τ).loc main_arg4)) (m ((c : Thread nD τ).loc main_arg5)) (m ((c : Thread nD τ).loc main_arg6)) (m ((c : Thread nD τ).loc main_arg7)) (m ((c : Thread nD τ).loc main_arg11)) (m ((c : Thread nD τ).loc main_arg12)) (m ((c : Thread nD τ).loc main_arg13)) (m ((c : Thread nD τ).loc main_arg14))) := by
    funext n k
    show W5 m ρ c (Proc.devRef .tc main_v56) (ix2 n k) = _
    rw [W5_v56, layer2, W4_v1, W4_v3, W4_v12]; exact (mean3 _ _ _ _ _ _ _ _ _ _ _ _ n k).symm
  have hWl : V5 m ρ c main_arg8 = m ((c : Thread nD τ).loc main_arg8) := (W5_keep m ρ c _ (by simp)).trans (W4_arg m ρ c _ (by simp))
  have hWr : V5 m ρ c main_arg10 = m ((c : Thread nD τ).loc main_arg10) := (W5_keep m ρ c _ (by simp)).trans (W4_arg m ρ c _ (by simp))
  have hb : row0 (V5 m ρ c main_v57) = vec (m ((c : Thread nD τ).loc main_arg9)) := by
    show row0 (W5 m ρ c (Proc.devRef .tc main_v57)) = _
    rw [W5_v57, W4_arg m ρ c _ (by simp)]; exact row0_cast _ _
  rw [hM, hX, hWl, hWr, hb]

end Cert.Sage.Bridge

end
-- ==== Proof.lean ====
/-
  The tiled three-layer program and the plain one compute the same result over the extended reals.

  Each layer averages every node's neighbours' rows, applies two linear maps and a bias, and (in the two hidden
  layers) clamps at zero and normalises each row. The tiled program does the dense part twenty-five blocks of two
  thousand rows at a time; the plain one does it on the whole array. Three things are shown elsewhere and put
  together here: what a block's computation leaves at an entry is the row function of the specification
  (Proof/KernelBody.lean), so the blocks written back side by side make the whole-array function
  (Proof/KernelBlocks.lean); the plain program's layer is that same row function (Proof/RefLayers.lean); and the
  average taken as a product with a reciprocal is the average taken as a quotient (Proof/Mean.lean). Layer after
  layer the outputs agree (Proof/Bridge.lean). Both programs terminate without a fault and leave their arguments
  as they found them; nothing of the idealization rewrites an operation, so that claim is empty.
-/
import proofs.«156522_j45260365365373_2_alg».proof.Defs
import proofs.«156522_j45260365365373_2_alg».proof.Proof.Gen.Kernel
import proofs.«156522_j45260365365373_2_alg».proof.Proof.Gen.Kernel.Skeleton
import proofs.«156522_j45260365365373_2_alg».proof.Proof.Gen.Kernel.Launch
import proofs.«156522_j45260365365373_2_alg».proof.Proof.Gen.Kernel.Points
import proofs.«156522_j45260365365373_2_alg».proof.Proof.Gen.Kernel.Frame
import proofs.«156522_j45260365365373_2_alg».proof.Proof.Gen.KernelIdeal
import proofs.«156522_j45260365365373_2_alg».proof.Proof.Gen.KernelIdeal.Skeleton
import proofs.«156522_j45260365365373_2_alg».proof.Proof.Gen.KernelIdeal.Launch
import proofs.«156522_j45260365365373_2_alg».proof.Proof.Gen.KernelIdeal.Points
import proofs.«156522_j45260365365373_2_alg».proof.Proof.Gen.KernelIdeal.Frame
import proofs.«156522_j45260365365373_2_alg».proof.Proof.Gen.ReferenceIdeal
import proofs.«156522_j45260365365373_2_alg».proof.Proof.Gen.Pre_finite_inputs
import proofs.«156522_j45260365365373_2_alg».proof.Proof.Gen.ReferenceIdeal.Run
import proofs.«156522_j45260365365373_2_alg».proof.Proof.Gen.ReferenceIdeal.Read
import proofs.«156522_j45260365365373_2_alg».proof.Proof.KernelRun
import proofs.«156522_j45260365365373_2_alg».proof.Proof.Bridge
import Idealize.ShloMosaic.Adequacy
import Idealize.ShloMosaic.Init

set_option maxRecDepth 16384

noncomputable section

namespace Cert.Proof

open Idealize.ShloMosaic Idealize.ShloMosaic.TcCoe Idealize.SL.Sem

/-- The tiled program as printed runs and keeps its arguments. -/
theorem frame_p : Cert.frame_Kernel := fun m ρ _ => Cert.Kernel.Gen.frame m ρ
/-- So does its reading over the extended reals. -/
theorem frame_pi : Cert.frame_KernelIdeal := fun m ρ _ => Cert.KernelIdeal.Gen.frame m ρ
/-- The plain program runs and keeps its arguments: its run, with the result dropped. -/
theorem frame_ri : Cert.frame_ReferenceIdeal := fun m ρ _ =>
  (θ_run Cert.ReferenceIdeal.defs _ _).mono (fun _ h c => (h c).2) (Cert.ReferenceIdeal.Value.run (F := Ideal) m ρ)

/-- No operation was rewritten on the way to the extended reals. -/
theorem preserves : Cert.preserves_Kernel_KernelIdeal := trivial

/-- From memories that agree on the arguments the two programs end with the same result: the tiled program's is
    what its last region leaves in its output array, the plain program's its composed term, and the two are equal
    layer after layer. -/
theorem algebraic : Cert.algebraic_KernelIdeal_ReferenceIdeal := by
  intro m ρ m' ρ' _ hagree
  refine ⟨fun c => Cert.KernelIdeal.Gen.W6 m ρ c (Proc.devRef .tc Cert.KernelIdeal.main_v58),
    Cert.KernelIdeal.RunValue.run_result m ρ, ?_⟩
  refine (θ_run Cert.ReferenceIdeal.defs _ _).mono (fun _ h c => ⟨(h c).1.trans ?_, (h c).2⟩)
    (Cert.ReferenceIdeal.Value.run (F := Ideal) m' ρ')
  obtain ⟨h0, h1, h2, h3, h4, h5, h6, h7, h8, h9, h10, h11, h12, h13, h14⟩ := hagree c
  rw [Cert.ReferenceIdeal.Read.val_main_v134_eq, h0, h1, h2, h3, h4, h5, h6, h7, h8, h9, h10, h11, h12, h13, h14]
  exact (Cert.Sage.Bridge.layer3 m ρ c).symm

theorem claim : Cert.Claim :=
  ⟨Cert.Kernel.Gen.facts, Cert.KernelIdeal.Gen.facts, Cert.ReferenceIdeal.Gen.facts, Cert.Pre_finite_inputs.Gen.facts,
    frame_p, frame_pi, frame_ri, preserves, algebraic⟩

end Cert.Proof

end
